-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x1024 : Shape := ⟨3, ![2048, 4, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2048x4x1024 : S_.BroadcastsInDim S2048x4x1024 (![] : Fin 0 → Fin S2048x4x1024.rank)
  reducesTo_S2048x4x1024_S_d0_1_2 : S2048x4x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2048x4x1024 .f32) (main_arg1 : FVec F S3072x1024 .f32) (main_arg2 : FVec F S3072 .f32) (main_arg3 : FVec F S1024x1024 .f32) (main_arg4 : FVec F S1024 .f32) : IVec S_ 1 :=
  let main_v0 : FVec F S2048x4x1024 .f32 := Host.absf main_arg0
  let main_cst : FVec F S_ .f32 := constant S_ .f32 0x7F800000#32
  let main_v1 : FVec F S2048x4x1024 .f32 := broadcastInDim S2048x4x1024 ![] bcast_S_S2048x4x1024 main_cst
  let main_v2 : IVec S2048x4x1024 1 := cmpf .olt main_v0 main_v1
  let main_c : IVec S_ 1 := constantI S_ 1 1#1
  let main_v3 : IVec S_ 1 := (fun x v => Host.reduce IntOp.andi x v reducesTo_S2048x4x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2048x4x1024 : Shape := ⟨3, ![2048, 4, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S3072x1 : Shape := ⟨2, ![3072, 1]⟩
abbrev S1024x3072 : Shape := ⟨2, ![1024, 3072]⟩
abbrev S8192x1024 : Shape := ⟨2, ![8192, 1024]⟩
abbrev S8192x3072 : Shape := ⟨2, ![8192, 3072]⟩
abbrev S512x1024 : Shape := ⟨2, ![512, 1024]⟩
abbrev S512x3072 : Shape := ⟨2, ![512, 3072]⟩
abbrev S1x3072 : Shape := ⟨2, ![1, 3072]⟩
abbrev S2048x4x3x16x64 : Shape := ⟨5, ![2048, 4, 3, 16, 64]⟩
abbrev S2048x4x1x16x64 : Shape := ⟨5, ![2048, 4, 1, 16, 64]⟩
abbrev S2048x4x16x64 : Shape := ⟨4, ![2048, 4, 16, 64]⟩
abbrev S4x16x2048x64 : Shape := ⟨4, ![4, 16, 2048, 64]⟩
abbrev S4x2048x2048 : Shape := ⟨3, ![4, 2048, 2048]⟩
abbrev S1x1x512x64 : Shape := ⟨4, ![1, 1, 512, 64]⟩
abbrev S1x16x2048x64 : Shape := ⟨4, ![1, 16, 2048, 64]⟩
abbrev S1x512x2048 : Shape := ⟨3, ![1, 512, 2048]⟩
abbrev S512x64 : Shape := ⟨2, ![512, 64]⟩
abbrev S1x1x2048x64 : Shape := ⟨4, ![1, 1, 2048, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 37
  | .vmem => 20
  | .smem => 0
  | _ => 0

abbrev bufTy : (tb : Table) → Fin (tcTables nBuf tb) → BufTy
  | .hbm, ⟨0, _⟩ => ⟨S2048x4x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S2048, .f32⟩
  | .hbm, ⟨9, _⟩ => ⟨S3072, .f32⟩
  | .hbm, ⟨10, _⟩ => ⟨S3072x1, .f32⟩
  | .hbm, ⟨11, _⟩ => ⟨S3072x1024, .f32⟩
  | .hbm, ⟨12, _⟩ => ⟨S3072x1024, .f32⟩
  | .hbm, ⟨13, _⟩ => ⟨S3072, .f32⟩
  | .hbm, ⟨14, _⟩ => ⟨S1024x3072, .f32⟩
  | .hbm, ⟨15, _⟩ => ⟨S1024x3072, .bf16⟩
  | .hbm, ⟨16, _⟩ => ⟨S8192x1024, .f32⟩
  | .hbm, ⟨17, _⟩ => ⟨S8192x3072, .bf16⟩
  | .hbm, ⟨18, _⟩ => ⟨S2048x4x3x16x64, .bf16⟩
  | .hbm, ⟨19, _⟩ => ⟨S2048x4x1x16x64, .bf16⟩
  | .hbm, ⟨20, _⟩ => ⟨S2048x4x16x64, .bf16⟩
  | .hbm, ⟨21, _⟩ => ⟨S4x16x2048x64, .bf16⟩
  | .hbm, ⟨22, _⟩ => ⟨S2048x4x1x16x64, .bf16⟩
  | .hbm, ⟨23, _⟩ => ⟨S2048x4x16x64, .bf16⟩
  | .hbm, ⟨24, _⟩ => ⟨S4x16x2048x64, .bf16⟩
  | .hbm, ⟨25, _⟩ => ⟨S2048x4x1x16x64, .bf16⟩
  | .hbm, ⟨26, _⟩ => ⟨S2048x4x16x64, .bf16⟩
  | .hbm, ⟨27, _⟩ => ⟨S4x16x2048x64, .bf16⟩
  | .hbm, ⟨28, _⟩ => ⟨S4x16x2048x64, .bf16⟩
  | .hbm, ⟨29, _⟩ => ⟨S4x2048x2048, .f32⟩
  | .hbm, ⟨30, _⟩ => ⟨S2048x4x16x64, .bf16⟩
  | .hbm, ⟨31, _⟩ => ⟨S2048x4x1024, .bf16⟩
  | .hbm, ⟨32, _⟩ => ⟨S8192x1024, .bf16⟩
  | .hbm, ⟨33, _⟩ => ⟨S1024x1024, .f32⟩
  | .hbm, ⟨34, _⟩ => ⟨S1024x1024, .bf16⟩
  | .hbm, ⟨35, _⟩ => ⟨S8192x1024, .f32⟩
  | .hbm, ⟨36, _⟩ => ⟨S2048x4x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S3072, .f32⟩
  | .local _ .vmem, ⟨4, _⟩ => ⟨S512x3072, .bf16⟩
  | .local _ .vmem, ⟨5, _⟩ => ⟨S512x3072, .bf16⟩
  | .local _ .vmem, ⟨6, _⟩ => ⟨S1x1x512x64, .bf16⟩
  | .local _ .vmem, ⟨7, _⟩ => ⟨S1x1x512x64, .bf16⟩
  | .local _ .vmem, ⟨8, _⟩ => ⟨S1x16x2048x64, .bf16⟩
  | .local _ .vmem, ⟨9, _⟩ => ⟨S1x16x2048x64, .bf16⟩
  | .local _ .vmem, ⟨10, _⟩ => ⟨S1x1x512x64, .bf16⟩
  | .local _ .vmem, ⟨11, _⟩ => ⟨S1x1x512x64, .bf16⟩
  | .local _ .vmem, ⟨12, _⟩ => ⟨S1x512x2048, .f32⟩
  | .local _ .vmem, ⟨13, _⟩ => ⟨S1x512x2048, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1024, .f32⟩
  | .local _ .vmem, ⟨18, _⟩ => ⟨S512x1024, .f32⟩
  | .local _ .vmem, ⟨19, _⟩ => ⟨S512x1024, .f32⟩
  | _, _ => ⟨S2048x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 4, 16], ![false, false, false]⟩

def k1_off1 (i : grid1.Coords) : Fin 4 → Nat :=
  let c0_3 : Index := 0#32
  let arg2 : BitVec 32 := BitVec.ofNat 32 (i 2).val
  let v2 : Index := Scalar.indexCast arg2
  let c0_4 : Index := 0#32
  let c0_5 : Index := 0#32
  ![0, v2.toNat, 0, 0]
def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 1 → Memref sig .tc .vmem S1x16x2048x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, false]

abbrev stage1_2 : Fin 1 → Memref sig .tc .vmem S1x16x2048x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false, false]

abbrev stage1_3 : Fin 2 → Memref sig .tc .vmem S1x1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1024 : S_.BroadcastsInDim S1024 (![] : Fin 0 → Fin S1024.rank)
  bcast_S_S2048 : S_.BroadcastsInDim S2048 (![] : Fin 0 → Fin S2048.rank)
  concatenates_S1024_S2048_S3072_d0 : Shape.Concatenates [S1024, S2048] S3072 0
  bcast_S3072_S3072x1_0 : S3072.BroadcastsInDim S3072x1 (![0] : Fin 1 → Fin S3072x1.rank)
  bcast_S3072x1_S3072x1024_0_1 : S3072x1.BroadcastsInDim S3072x1024 (![0, 1] : Fin 2 → Fin S3072x1024.rank)
  transposes_S3072x1024_S1024x3072_1_0 : S3072x1024.Transposes [1, 0] S1024x3072
  bitsLt_bf16_f32 : FTy.bits .bf16 < FTy.bits .f32
  shapeCasts_S2048x4x1024_S8192x1024 : S2048x4x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S2048x4x3x16x64 : S8192x3072.ShapeCasts S2048x4x3x16x64
  slices_S2048x4x3x16x64_S2048x4x1x16x64_0_0_0_0_0 : S2048x4x3x16x64.Slices ![0, 0, 0, 0, 0] S2048x4x1x16x64
  shapeCasts_S2048x4x1x16x64_S2048x4x16x64 : S2048x4x1x16x64.ShapeCasts S2048x4x16x64
  transposes_S2048x4x16x64_S4x16x2048x64_1_2_0_3 : S2048x4x16x64.Transposes [1, 2, 0, 3] S4x16x2048x64
  slices_S2048x4x3x16x64_S2048x4x1x16x64_0_0_1_0_0 : S2048x4x3x16x64.Slices ![0, 0, 1, 0, 0] S2048x4x1x16x64
  slices_S2048x4x3x16x64_S2048x4x1x16x64_0_0_2_0_0 : S2048x4x3x16x64.Slices ![0, 0, 2, 0, 0] S2048x4x1x16x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  h_S1x1x2048x64 : 0 < S1x1x2048x64.numel
  shapeCasts_S1x1x2048x64_S2048x64 : S1x1x2048x64.ShapeCasts S2048x64
  reduces_S512x2048_S512 : S512x2048.Reduces [1] S512
  shapeCasts_S512_S512x1 : S512.ShapeCasts S512x1
  broadcasts_S512x1_S512x2048 : S512x1.Broadcasts S512x2048
  shapeCasts_S512x64_S1x1x512x64 : S512x64.ShapeCasts S1x1x512x64
  packedbf16_S1x1x512x64_S1x1x512x64_0_0_0_0 : (Rect.unit (s := S1x1x512x64) ![0, 0, 0, 0] S1x1x512x64.size inb_S1x1x512x64_S1x1x512x64_0_0_0_0).PackedRows (EltTy.packing .bf16)
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  transposes_S4x16x2048x64_S2048x4x16x64_2_0_1_3 : S4x16x2048x64.Transposes [2, 0, 1, 3] S2048x4x16x64
  shapeCasts_S2048x4x16x64_S2048x4x1024 : S2048x4x16x64.ShapeCasts S2048x4x1024
  transposes_S1024x1024_S1024x1024_1_0 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S8192x1024_S2048x4x1024 : S8192x1024.ShapeCasts S2048x4x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  k1_off1_inb : ∀ i : grid1.Coords, ∀ a, (k1_off1 i) a + S1x1x2048x64.size a ≤ S1x16x2048x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S4x16x2048x64.size a
  hwx1_0 : ∀ i : grid1.Coords, EltTy.bits .bf16 = 32 ∨ (Rect.block (s := S4x16x2048x64) S1x1x512x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16x2048x64.size a ≤ S4x16x2048x64.size a
  hwx1_1 : ∀ i : grid1.Coords, EltTy.bits .bf16 = 32 ∨ (Rect.block (s := S4x16x2048x64) S1x16x2048x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16x2048x64.size a ≤ S4x16x2048x64.size a
  hwx1_2 : ∀ i : grid1.Coords, EltTy.bits .bf16 = 32 ∨ (Rect.block (s := S4x16x2048x64) S1x16x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512x64.size a ≤ S4x16x2048x64.size a
  hwx1_3 : ∀ i : grid1.Coords, EltTy.bits .bf16 = 32 ∨ (Rect.block (s := S4x16x2048x64) S1x1x512x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x2048.size a ≤ S4x2048x2048.size a
  hwx1_4 : ∀ i : grid1.Coords, EltTy.bits .f32 = 32 ∨ (Rect.block (s := S4x2048x2048) S1x512x2048.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v9) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x16x2048x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x16x2048x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21_0) S1x1x512x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21_1) S1x512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2048x4x1024 : Shape := ⟨3, ![2048, 4, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2048x4x3072 : Shape := ⟨3, ![2048, 4, 3072]⟩
abbrev S1x1x3072 : Shape := ⟨3, ![1, 1, 3072]⟩
abbrev S_ : Shape := ⟨0, ![]⟩
abbrev S2048x4x16x64 : Shape := ⟨4, ![2048, 4, 16, 64]⟩
abbrev S4x16x2048x64 : Shape := ⟨4, ![4, 16, 2048, 64]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩
abbrev S1x1x1024 : Shape := ⟨3, ![1, 1, 1024]⟩
abbrev S4x2048x2048 : Shape := ⟨3, ![4, 2048, 2048]⟩

abbrev nBuf : Space → Nat
  | .hbm => 48
  | .vmem => 0
  | .smem => 0
  | _ => 0

abbrev bufTy : (tb : Table) → Fin (tcTables nBuf tb) → BufTy
  | .hbm, ⟨0, _⟩ => ⟨S2048x4x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2048x4x3072, .f32⟩
  | .hbm, ⟨6, _⟩ => ⟨S1x1x3072, .f32⟩
  | .hbm, ⟨7, _⟩ => ⟨S2048x4x3072, .f32⟩
  | .hbm, ⟨8, _⟩ => ⟨S2048x4x3072, .f32⟩
  | .hbm, ⟨9, _⟩ => ⟨S2048x4x1024, .f32⟩
  | .hbm, ⟨10, _⟩ => ⟨S2048x4x1024, .f32⟩
  | .hbm, ⟨11, _⟩ => ⟨S2048x4x1024, .f32⟩
  | .hbm, ⟨12, _⟩ => ⟨S_, .f32⟩
  | .hbm, ⟨13, _⟩ => ⟨S2048x4x1024, .f32⟩
  | .hbm, ⟨14, _⟩ => ⟨S2048x4x1024, .f32⟩
  | .hbm, ⟨15, _⟩ => ⟨S2048x4x16x64, .f32⟩
  | .hbm, ⟨16, _⟩ => ⟨S4x16x2048x64, .f32⟩
  | .hbm, ⟨17, _⟩ => ⟨S2048x4x16x64, .f32⟩
  | .hbm, ⟨18, _⟩ => ⟨S4x16x2048x64, .f32⟩
  | .hbm, ⟨19, _⟩ => ⟨S2048x4x16x64, .f32⟩
  | .hbm, ⟨20, _⟩ => ⟨S4x16x2048x64, .f32⟩
  | .hbm, ⟨21, _⟩ => ⟨S4x16x2048x2048, .f32⟩
  | .hbm, ⟨22, _⟩ => ⟨S_, .f32⟩
  | .hbm, ⟨23, _⟩ => ⟨S4x16x2048, .f32⟩
  | .hbm, ⟨24, _⟩ => ⟨S_, .f32⟩
  | .hbm, ⟨25, _⟩ => ⟨S4x16x2048, .f32⟩
  | .hbm, ⟨26, _⟩ => ⟨S4x16x2048, .f32⟩
  | .hbm, ⟨27, _⟩ => ⟨S4x16x2048x1, .f32⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S4x16x2048x1, .f32⟩
  | .hbm, ⟨34, _⟩ => ⟨S4x16x2048x2048, .f32⟩
  | .hbm, ⟨35, _⟩ => ⟨S4x16x2048x2048, .f32⟩
  | .hbm, ⟨36, _⟩ => ⟨S4x16x2048x64, .f32⟩
  | .hbm, ⟨37, _⟩ => ⟨S2048x4x16x64, .f32⟩
  | .hbm, ⟨38, _⟩ => ⟨S2048x4x1024, .f32⟩
  | .hbm, ⟨39, _⟩ => ⟨S2048x4x1024, .f32⟩
  | .hbm, ⟨40, _⟩ => ⟨S1x1x1024, .f32⟩
  | .hbm, ⟨41, _⟩ => ⟨S2048x4x1024, .f32⟩
  | .hbm, ⟨42, _⟩ => ⟨S2048x4x1024, .f32⟩
  | .hbm, ⟨43, _⟩ => ⟨S_, .f32⟩
  | .hbm, ⟨44, _⟩ => ⟨S4x2048x2048, .f32⟩
  | .hbm, ⟨45, _⟩ => ⟨S_, .f32⟩
  | .hbm, ⟨46, _⟩ => ⟨S4x2048x2048, .f32⟩
  | .hbm, ⟨47, _⟩ => ⟨S4x2048x2048, .f32⟩
  | _, _ => ⟨S2048x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2048x4x3072_0_1_2 : S1x1x3072.BroadcastsInDim S2048x4x3072 (![0, 1, 2] : Fin 3 → Fin S2048x4x3072.rank)
  slices_S2048x4x3072_S2048x4x1024_0_0_0 : S2048x4x3072.Slices ![0, 0, 0] S2048x4x1024
  slices_S2048x4x3072_S2048x4x1024_0_0_1024 : S2048x4x3072.Slices ![0, 0, 1024] S2048x4x1024
  slices_S2048x4x3072_S2048x4x1024_0_0_2048 : S2048x4x3072.Slices ![0, 0, 2048] S2048x4x1024
  bcast_S_S2048x4x1024 : S_.BroadcastsInDim S2048x4x1024 (![] : Fin 0 → Fin S2048x4x1024.rank)
  shapeCasts_S2048x4x1024_S2048x4x16x64 : S2048x4x1024.ShapeCasts S2048x4x16x64
  transposes_S2048x4x16x64_S4x16x2048x64_1_2_0_3 : S2048x4x16x64.Transposes [1, 2, 0, 3] S4x16x2048x64
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S2048x4x16x64_2_0_1_3 : S4x16x2048x64.Transposes [2, 0, 1, 3] S2048x4x16x64
  shapeCasts_S2048x4x16x64_S2048x4x1024 : S2048x4x16x64.ShapeCasts S2048x4x1024
  bcast_S1024_S1x1x1024_2 : S1024.BroadcastsInDim S1x1x1024 (![2] : Fin 1 → Fin S1x1x1024.rank)
  bcast_S1x1x1024_S2048x4x1024_0_1_2 : S1x1x1024.BroadcastsInDim S2048x4x1024 (![0, 1, 2] : Fin 3 → Fin S2048x4x1024.rank)
  reducesTo_S4x16x2048x2048_S4x2048x2048_d1 : S4x16x2048x2048.ReducesTo [1] S4x2048x2048
  bcast_S_S4x2048x2048 : S_.BroadcastsInDim S4x2048x2048 (![] : Fin 0 → Fin S4x2048x2048.rank)
  dot_S2048x4x1024_S3072x1024_S2048x4x3072_2_1_01_0_n_n_wf : DotDims.WF S2048x4x1024 S3072x1024 S2048x4x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S2048x4x1024_S1024x1024_S2048x4x1024_2_1_01_0_n_n_wf : DotDims.WF S2048x4x1024 S1024x1024 S2048x4x1024 [2] [1] [0, 1] [0] [] []

variable [Facts₀]

def dot_S2048x4x1024_S3072x1024_S2048x4x3072_2_1_01_0_n_n : DotDims S2048x4x1024 S3072x1024 S2048x4x3072 where
  lhsContracting := [2]
  rhsContracting := [1]
  lhsNonContracting := [0, 1]
  rhsNonContracting := [0]
  lhsBatch := []
  rhsBatch := []
  wf := dot_S2048x4x1024_S3072x1024_S2048x4x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S2048x4x1024_S1024x1024_S2048x4x1024_2_1_01_0_n_n : DotDims S2048x4x1024 S1024x1024 S2048x4x1024 where
  lhsContracting := [2]
  rhsContracting := [1]
  lhsNonContracting := [0, 1]
  rhsNonContracting := [0]
  lhsBatch := []
  rhsBatch := []
  wf := dot_S2048x4x1024_S1024x1024_S2048x4x1024_2_1_01_0_n_n_wf

class Facts : Prop extends Facts₀ where

variable [Facts]
-- ==== Proof.KernelRun.lean ====
/-
  The kernel program's run with its two results named.

  The program is seven segments: host operations, the input projection's region, host operations, the attention region, host
  operations, the output projection's region, and a last reshape. The buffer contents at each boundary are a fold from the
  launch memory (`Gen.W0` … `Gen.W7`). Every weakly fair execution terminates without a fault in a state whose unscoped
  buffers hold the last boundary's contents; read at the two result buffers and at the five arguments, that is the statement
  below. What the last contents ARE, as functions of the arguments, is the business of the modules that read each segment.
-/
import proofs.«126819_j68247030334372_2_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with both results at the last boundary's
    contents and the arguments as launched. -/
theorem run : θ_run defs (onTc (τ := τ) (main (F := F))) ⟨m, fun _ => 0, ρ⟩ (fun r => ∀ c : Dev nD,
      r.2.mem ((c.tc : Thread nD τ).loc main_v28) = W7 m ρ c (Proc.devRef .tc main_v28)
      ∧ r.2.mem ((c.tc : Thread nD τ).loc main_v21_1) = W7 m ρ c (Proc.devRef .tc main_v21_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v28 (by decide)),
       h c _ (mem_uc main_v21_1 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelRun

end
-- ==== Proof.Spec.lean ====
/-
  Multi-head self-attention as functions of coordinates, on the extended reals.

  The layer takes activations x[t, b, e] (2048 times, 4 batches, 1024 features), a fused input projection with weight
  w[f, e] and bias β[f] (3072 = 3 · 16 · 64 columns: query, key and value parts, 16 heads of 64 features each), and an output
  projection with weight ω[f, e] and bias. Per batch b and head h the scores are q · k over the 64 features, the weights
  their softmax along the key axis, and the attended values the weights times v. The two results are the output projection
  of the attended values (heads laid side by side again), and the mean over the 16 heads of the weights.

  Two arrangements of the same arithmetic are stated here, and related in `Algebra`: the query's factor 1/8 applied after
  the projection or folded into the weight and bias columns before it; and the mean over heads as a quotient by 16 of the
  sum, or as the running sum of the heads in order times the word of 1/16.
-/
import Idealize.ShloMosaic.PureOps.Ideal
import Idealize.ShloMosaic.Lib.ValueIdx

noncomputable section

open scoped BigOperators

namespace Cert.Spec

open Idealize.ShloMosaic Idealize.ShloMosaic.ValueIdx

/-- Row t·4 + b of the flattened (time, batch) axis. -/
def row (t : Fin 2048) (b : Fin 4) : Fin 8192 := ⟨t.val * 4 + b.val, by omega⟩
/-- Column j·1024 + h·64 + d of the fused projection axis: part j (query, key, value), head h, feature d. -/
def col (j : Fin 3) (h : Fin 16) (d : Fin 64) : Fin 3072 := ⟨j.val * 1024 + h.val * 64 + d.val, by omega⟩
/-- Feature h·64 + d of the model axis: head h, feature d within the head. -/
def feat (h : Fin 16) (d : Fin 64) : Fin 1024 := ⟨h.val * 64 + d.val, by omega⟩
/-- The head a model feature belongs to. -/
def headOf (e : Fin 1024) : Fin 16 := ⟨e.val / 64, by omega⟩
/-- A model feature's position within its head. -/
def dimOf (e : Fin 1024) : Fin 64 := ⟨e.val % 64, by omega⟩

/-- Entry (r, f) of X · W + B. -/
def mmb {M K N : ℕ} (X : Fin M → Fin K → EReal) (W : Fin K → Fin N → EReal) (B : Fin N → EReal) (r : Fin M) (f : Fin N) : EReal :=
  (∑ e : Fin K, X r e * W e f) + B f

/-- The maximum of a row, folded from −∞. -/
def rowMax {n : ℕ} (sc : Fin n → EReal) : EReal :=
  (Finset.univ : Finset (Fin n)).fold max (Ideal.ofBits .f32 0xFF800000#32) sc
/-- The softmax of a row at position s, with the row's maximum subtracted before the exponential. -/
def softmax {n : ℕ} (sc : Fin n → EReal) (s : Fin n) : EReal :=
  Ideal.div (Ideal.exp (sc s - rowMax sc)) (∑ s' : Fin n, Ideal.exp (sc s' - rowMax sc))

/-- Per-head arrays: batch, head, time, feature. -/
abbrev Heads := Fin 4 → Fin 16 → Fin 2048 → Fin 64 → EReal

/-- The score of query time t against key time s. -/
def score (Q K : Heads) (b : Fin 4) (h : Fin 16) (t s : Fin 2048) : EReal := ∑ d : Fin 64, Q b h t d * K b h s d
/-- The attention weight of query time t on key time s. -/
def weight (Q K : Heads) (b : Fin 4) (h : Fin 16) (t s : Fin 2048) : EReal := softmax (fun s' => score Q K b h t s') s
/-- The attended value. -/
def attend (Q K V : Heads) (b : Fin 4) (h : Fin 16) (t : Fin 2048) (d : Fin 64) : EReal :=
  ∑ s : Fin 2048, weight Q K b h t s * V b h s d

/-- The mean over heads as the sum over the 16 heads divided by 16. -/
def avgDiv (Q K : Heads) (b : Fin 4) (t s : Fin 2048) : EReal :=
  Ideal.div (∑ h : Fin 16, weight Q K b h t s) (Ideal.ofBits .f32 0x41800000#32)
/-- The running sum of the first n + 1 terms, started from the zero word. -/
def accum (w : Fin 16 → EReal) : (n : ℕ) → n < 16 → EReal
  | 0, h => Ideal.ofBits .f32 0x00000000#32 + w ⟨0, h⟩
  | n + 1, h => accum w n (by omega) + w ⟨n + 1, h⟩
/-- The mean over heads as the running sum of the heads in order times the word of 1/16. -/
def avgMul (Q K : Heads) (b : Fin 4) (t s : Fin 2048) : EReal :=
  accum (fun h => weight Q K b h t s) 15 (by omega) * Ideal.ofBits .f32 0x3D800000#32

/-- The output projection of per-head values laid side by side: entry (t, b, f). -/
def project (A : Heads) (ow : Fin 1024 → Fin 1024 → EReal) (ob : Fin 1024 → EReal) (t : Fin 2048) (b : Fin 4) (f : Fin 1024) : EReal :=
  (∑ e : Fin 1024, A b (headOf e) t (dimOf e) * ow f e) + ob f

/-- The factor of a projection column: 1/8 on the query part, 1 elsewhere. -/
def scaleAt (f : Fin 3072) : EReal :=
  if f.val < 1024 then Ideal.ofBits .f32 0x3E000000#32 else Ideal.ofBits .f32 0x3F800000#32

/-- The fused input projection: entry (t, b, f) of x · wᵀ + β. -/
def inProj (x : Fin 2048 → Fin 4 → Fin 1024 → EReal) (w : Fin 3072 → Fin 1024 → EReal) (β : Fin 3072 → EReal)
    (t : Fin 2048) (b : Fin 4) (f : Fin 3072) : EReal := (∑ e : Fin 1024, x t b e * w f e) + β f
/-- The same with each column's factor folded into the weight and the bias. -/
def inProjScaled (x : Fin 2048 → Fin 4 → Fin 1024 → EReal) (w : Fin 3072 → Fin 1024 → EReal) (β : Fin 3072 → EReal)
    (t : Fin 2048) (b : Fin 4) (f : Fin 3072) : EReal := (∑ e : Fin 1024, x t b e * (w f e * scaleAt f)) + β f * scaleAt f

/-- Part j of a projection, split into heads. -/
def headsOf (P : Fin 2048 → Fin 4 → Fin 3072 → EReal) (j : Fin 3) : Heads := fun b h t d => P t b (col j h d)
/-- The query part scaled by 1/8 after the projection. -/
def queryOf (P : Fin 2048 → Fin 4 → Fin 3072 → EReal) : Heads :=
  fun b h t d => P t b (col 0 h d) * Ideal.ofBits .f32 0x3E000000#32

/-- The layer's first result, entry (t, b, f). -/
def outSpec (x : Fin 2048 → Fin 4 → Fin 1024 → EReal) (w : Fin 3072 → Fin 1024 → EReal) (β : Fin 3072 → EReal)
    (ow : Fin 1024 → Fin 1024 → EReal) (ob : Fin 1024 → EReal) (t : Fin 2048) (b : Fin 4) (f : Fin 1024) : EReal :=
  project (attend (queryOf (inProj x w β)) (headsOf (inProj x w β) 1) (headsOf (inProj x w β) 2)) ow ob t b f
/-- The layer's second result, entry (b, t, s). -/
def avgSpec (x : Fin 2048 → Fin 4 → Fin 1024 → EReal) (w : Fin 3072 → Fin 1024 → EReal) (β : Fin 3072 → EReal)
    (b : Fin 4) (t s : Fin 2048) : EReal :=
  avgDiv (queryOf (inProj x w β)) (headsOf (inProj x w β) 1) b t s

end Cert.Spec

end
-- ==== Proof.Algebra.lean ====
/-
  The two arrangements of the attention arithmetic agree.

  * The words of 1/8, 1, 16 and 1/16 denote those reals.
  * The running sum of sixteen terms started from the zero word is their sum, and times 1/16 it is the sum divided by
    16: on the extended reals a quotient by a nonzero real is the product with its reciprocal, whatever the dividend.
  * With real activations, weights and biases, scaling a projection column's weights and bias by a real factor scales
    the projected entry by it (distributivity over a finite sum, which holds for reals and can fail at infinities); with
    factor 1 nothing changes. So folding the query's factor 1/8 into the weights and bias gives the same query, key and
    value heads as scaling the query after the projection.
-/
import Idealize.ShloMosaic.PureOps.Ideal.Laws
import proofs.«126819_j68247030334372_2_alg».proof.Proof.Spec

noncomputable section

open scoped BigOperators

namespace Cert.Algebra

open Idealize.ShloMosaic Cert.Spec

/-- The word of 0.125 denotes 1/8. -/
theorem ofBits_eighth : Ideal.ofBits .f32 0x3E000000#32 = ((1 / 8 : ℝ) : EReal) := by
  simp [Ideal.ofBits, Ideal.ieee, -EReal.coe_mul]; norm_num
/-- The word of 1.0 denotes 1. -/
theorem ofBits_one : Ideal.ofBits .f32 0x3F800000#32 = 1 := by
  simp [Ideal.ofBits, Ideal.ieee, -EReal.coe_mul]; norm_num
/-- The word of 16.0 denotes 16. -/
theorem ofBits_sixteen : Ideal.ofBits .f32 0x41800000#32 = ((16 : ℝ) : EReal) := by
  simp [Ideal.ofBits, Ideal.ieee, -EReal.coe_mul]; norm_num
/-- The word of 0.0625 denotes 1/16. -/
theorem ofBits_sixteenth : Ideal.ofBits .f32 0x3D800000#32 = ((1 / 16 : ℝ) : EReal) := by
  simp [Ideal.ofBits, Ideal.ieee, -EReal.coe_mul]; norm_num

/-- The coercion of reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running sum of the first n + 1 terms is their sum. -/
theorem accum_eq (w : Fin 16 → EReal) : ∀ (n : ℕ) (h : n < 16), accum w n h = ∑ k : Fin (n + 1), w ⟨k.val, by omega⟩
  | 0, h => by
    rw [accum, Ideal.ofBits_zero_f32, zero_add, Fin.sum_univ_one]; rfl
  | n + 1, h => by
    rw [accum, accum_eq w n (by omega)]
    exact (Fin.sum_univ_castSucc (fun k : Fin (n + 1 + 1) => w ⟨k.val, by omega⟩)).symm

/-- The running sum of all sixteen terms is their sum. -/
theorem accum_all (w : Fin 16 → EReal) : accum w 15 (by omega) = ∑ h : Fin 16, w h :=
  accum_eq w 15 (by omega)

/-- The two forms of the mean over heads agree, whatever the weights. -/
theorem avgMul_eq_avgDiv (Q K : Heads) (b : Fin 4) (t s : Fin 2048) : avgMul Q K b t s = avgDiv Q K b t s := by
  unfold avgMul avgDiv
  rw [accum_all, ofBits_sixteenth, ofBits_sixteen, Ideal.div_coe (by norm_num : (16 : ℝ) ≠ 0)]

/-- Distributivity for reals: scaling the weights and the bias by c scales the projected entry by c. -/
theorem scale_real {n : ℕ} (x w : Fin n → ℝ) (b c : ℝ) :
    (∑ e : Fin n, (x e : EReal) * ((w e : EReal) * (c : EReal))) + (b : EReal) * (c : EReal)
      = ((∑ e : Fin n, (x e : EReal) * (w e : EReal)) + (b : EReal)) * (c : EReal) := by
  simp only [← EReal.coe_mul, ← coe_sum, ← EReal.coe_add]
  congr 1
  rw [add_mul, Finset.sum_mul]
  congr 1
  exact Finset.sum_congr rfl fun e _ => by ring

/-- Real inputs. -/
def RealIn (x : Fin 2048 → Fin 4 → Fin 1024 → EReal) (w : Fin 3072 → Fin 1024 → EReal) (β : Fin 3072 → EReal) : Prop :=
  (∀ t b e, ∃ r : ℝ, x t b e = (r : EReal)) ∧ (∀ f e, ∃ r : ℝ, w f e = (r : EReal)) ∧ (∀ f, ∃ r : ℝ, β f = (r : EReal))

/-- A column of the scaled projection is the plain projection's column times the column's factor, for real inputs. -/
theorem inProjScaled_eq {x : Fin 2048 → Fin 4 → Fin 1024 → EReal} {w : Fin 3072 → Fin 1024 → EReal} {β : Fin 3072 → EReal}
    (hr : RealIn x w β) (c : ℝ) (t : Fin 2048) (b : Fin 4) (f : Fin 3072) (hc : scaleAt f = (c : EReal)) :
    inProjScaled x w β t b f = inProj x w β t b f * (c : EReal) := by
  obtain ⟨hx, hw, hβ⟩ := hr
  choose xr hxr using fun e => hx t b e
  choose wr hwr using fun e => hw f e
  obtain ⟨br, hbr⟩ := hβ f
  unfold inProjScaled inProj
  rw [hc, hbr]
  simp only [hxr, hwr]
  exact scale_real xr wr br c

theorem scaleAt_query (h : Fin 16) (d : Fin 64) : scaleAt (col 0 h d) = ((1 / 8 : ℝ) : EReal) := by
  unfold scaleAt col
  rw [if_pos (by show (0 : Fin 3).val * 1024 + h.val * 64 + d.val < 1024; have := h.isLt; have := d.isLt; simp; omega)]
  exact ofBits_eighth

theorem scaleAt_other (j : Fin 3) (hj : j.val ≠ 0) (h : Fin 16) (d : Fin 64) : scaleAt (col j h d) = ((1 : ℝ) : EReal) := by
  unfold scaleAt col
  rw [if_neg (by show ¬ (j.val * 1024 + h.val * 64 + d.val < 1024); omega)]
  rw [ofBits_one]; rfl

/-- The query heads: the factor folded into the projection, or applied after it. -/
theorem query_eq {x : Fin 2048 → Fin 4 → Fin 1024 → EReal} {w : Fin 3072 → Fin 1024 → EReal} {β : Fin 3072 → EReal}
    (hr : RealIn x w β) : headsOf (inProjScaled x w β) 0 = queryOf (inProj x w β) := by
  funext b h t d
  unfold headsOf queryOf
  rw [inProjScaled_eq hr (1 / 8) t b _ (scaleAt_query h d), ofBits_eighth]

/-- The key and value heads are unchanged by the folding. -/
theorem other_eq {x : Fin 2048 → Fin 4 → Fin 1024 → EReal} {w : Fin 3072 → Fin 1024 → EReal} {β : Fin 3072 → EReal}
    (hr : RealIn x w β) (j : Fin 3) (hj : j.val ≠ 0) : headsOf (inProjScaled x w β) j = headsOf (inProj x w β) j := by
  funext b h t d
  unfold headsOf
  rw [inProjScaled_eq hr 1 t b _ (scaleAt_other j hj h d), EReal.coe_one, mul_one]

end Cert.Algebra

end
-- ==== Proof.AttnGrid.lean ====
/-
  The attention region's grid: 256 points in row-major order over (batch, query tile, head) = (4, 4, 16), the head
  innermost. Point n works on batch n / 64, query tile n / 16 mod 4 (512 query times each) and head n mod 16.
-/
import Mathlib.Data.Fin.Basic

namespace Cert.AttnGrid

/-- The batch of point n. -/
def batchOf (n : ℕ) : Fin 4 := ⟨n / 64 % 4, Nat.mod_lt _ (by decide)⟩
/-- The query tile of point n. -/
def tileOf (n : ℕ) : Fin 4 := ⟨n / 16 % 4, Nat.mod_lt _ (by decide)⟩
/-- The head of point n. -/
def headAt (n : ℕ) : Fin 16 := ⟨n % 16, Nat.mod_lt _ (by decide)⟩
/-- Query time r of tile ti. -/
def timeOf (ti : Fin 4) (r : Fin 512) : Fin 2048 := ⟨ti.val * 512 + r.val, by have := ti.isLt; have := r.isLt; omega⟩

end Cert.AttnGrid
-- ==== Proof.LibTransDot.lean ====
/-
  A matrix product with the right operand given by rows, into a zero accumulator, read at coordinates.

  For a dot of a `[M, K]` matrix with a `[N, K]` matrix whose dimension numbers contract the second axis of both operands
  and keep the first axes in order (the product of the left matrix with the transpose of the right one), the product
  accumulated into the zero splat is, at `(p, c)`,

      ∑ k : Fin K, l (p, k) · r (c, k)

  on the extended reals. The dimension record enters only through four facts about its operand indices — the left index at
  output index `i` and contraction position `q` is `(i 0, q)`, the right one `(i 1, q)` — which a concrete record proves by
  unfolding; with them the sum over the record's one-axis contraction shape is re-indexed over `Fin K`.
-/
import Idealize.ShloMosaic.PureOps.Ideal.Laws
import Idealize.ShloMosaic.Lib.ValueIdx

namespace Cert.Lib.TransDot

open Idealize.ShloMosaic Idealize.ShloMosaic.ValueIdx

/-- The product of an `[M, K]` matrix with the transpose of an `[N, K]` matrix into the zero splat at `(p, c)`: the sum
    over `k` of `l (p, k) · r (c, k)`. -/
theorem matmul_zero_ix2_nt {M K N : ℕ} {φ₁ φ₂ : FTy}
    (D : DotDims ⟨2, ![M, K]⟩ ⟨2, ![N, K]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (i (1 : Fin 2)).val)
    (hr1 : ∀ (i : (⟨2, ![M, N]⟩ : Shape).Idx) (q : D.contr.Idx), (D.rhsIdx i q (1 : Fin 2)).val = (q ⟨0, by omega⟩).val)
    (prec : Option ContractPrecision) (l : FVec Ideal ⟨2, ![M, K]⟩ φ₁) (r : FVec Ideal ⟨2, ![N, K]⟩ φ₂) (p : Fin M) (c : Fin N) :
    FloatOps.matmul D prec l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.Lib.TransDot
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.LibUnitAxes.lean ====
/-
  Two leading unit axes dropped or added by a shape cast, read at coordinates.

  An array of shape `[1, 1, a, b]` and an array of shape `[a, b]` have the same entries in the same row-major order:
  position `((0 * 1 + 0) * a + i) * b + j = i * b + j`. So a cast between the two reads, at `(i, j)` (or at
  `(u, v, i, j)` with unit coordinates `u`, `v`), the operand's entry at the same `i`, `j`.
-/
import Idealize.ShloMosaic.Lib.Pipeline.Value
import Idealize.ShloMosaic.Lib.ValueIdx

namespace Cert.Lib.UnitAxes

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv, Nat.zero_mul, Nat.zero_add])

end Cert.Lib.UnitAxes
-- ==== Proof.LibLift2.lean ====
/-
  The index a one-axis reduction of a matrix puts back: reducing an m × n matrix over its columns (axis 1) leaves a
  vector over the rows, and entry p of the result gathers the matrix entries (p, k); reducing over its rows (axis 0)
  leaves a vector over the columns, and entry t gathers the entries (k, t).
-/
import Idealize.ShloMosaic.PureOps.Reduce
import Idealize.ShloMosaic.Lib.ValueIdx

namespace Cert.Lift2

open Idealize.ShloMosaic Idealize.ShloMosaic.ValueIdx

/-- Row `p` of the reduced vector with column `k` put back is the matrix index (p, k). -/
theorem lift_axis1 {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- Column `t` of the reduced vector with row `k` put back is the matrix index (k, t). -/
theorem lift_axis0 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

end Cert.Lift2
-- ==== Proof.LibAxisFold.lean ====
/-
  One-axis reductions of a matrix of extended reals read at coordinates, with the accumulator word a VARIABLE.

  Over the columns (axis 1) of an m × n matrix, entry p of the sum is the sum over c of the entries (p, c); over the
  rows (axis 0), entry t is the sum over r of the entries (r, t).  A maximum taken from the accumulator's value is the
  fold of `max` from that value over the same entries.  The accumulator is any word that is the kind's neutral one, so
  the statements meet a printed reduction whatever proof terms it carries for that fact.
-/
import Idealize.ShloMosaic.PureOps.Ideal.Laws
import Idealize.ShloMosaic.Lib.ValueIdx
import proofs.«126819_j68247030334372_2_alg».proof.Proof.LibLift2

noncomputable section

open scoped BigOperators

namespace Cert.AxisFold

open Idealize.ShloMosaic Idealize.ShloMosaic.ValueIdx Cert.Lift2

/-- Entry `p` of the sum over the columns is the sum of row `p`. -/
theorem rowSum_acc {m n : Nat} (v : FVec Ideal ⟨2, ![m, n]⟩ .f32) (acc : BitVec FTy.f32.bits)
    (h : (⟨2, ![m, n]⟩ : Shape).Reduces [1] (⟨1, ![m]⟩ : Shape)) (hφ : FKind.Formats .f32)
    (hacc : acc = FKind.add.neutral .f32 hφ) (p : Fin m) :
    multiReduction .add [1] (⟨1, ![m]⟩ : Shape) v acc h hφ hacc (ix1 p) = ∑ c : Fin n, v (ix2 p c) := by
  refine (Ideal.multiReduction_add_single v acc h hφ hacc (ix1 p)).trans ?_
  show ∑ k : Fin n, v (h.lift (ix1 p) k) = _
  exact Finset.sum_congr rfl fun k _ => congrArg v (lift_axis1 h p k)

/-- Entry `t` of the sum over the rows is the sum of column `t`. -/
theorem colSum_acc {m n : Nat} (v : FVec Ideal ⟨2, ![m, n]⟩ .f32) (acc : BitVec FTy.f32.bits)
    (h : (⟨2, ![m, n]⟩ : Shape).Reduces [0] (⟨1, ![n]⟩ : Shape)) (hφ : FKind.Formats .f32)
    (hacc : acc = FKind.add.neutral .f32 hφ) (t : Fin n) :
    multiReduction .add [0] (⟨1, ![n]⟩ : Shape) v acc h hφ hacc (ix1 t) = ∑ r : Fin m, v (ix2 r t) := by
  refine (Ideal.multiReduction_add_single v acc h hφ hacc (ix1 t)).trans ?_
  show ∑ k : Fin m, v (h.lift (ix1 t) k) = _
  exact Finset.sum_congr rfl fun k _ => congrArg v (lift_axis0 h t k)

/-- Entry `p` of the maximum over the columns is the fold of `max` from the accumulator's value over row `p`. -/
theorem rowMax_fold {m n : Nat} (v : FVec Ideal ⟨2, ![m, n]⟩ .f32) (acc : BitVec FTy.f32.bits)
    (h : (⟨2, ![m, n]⟩ : Shape).Reduces [1] (⟨1, ![m]⟩ : Shape)) (hφ : FKind.Formats .f32)
    (hacc : acc = FKind.maximumf.neutral .f32 hφ) (p : Fin m) :
    multiReduction .maximumf [1] (⟨1, ![m]⟩ : Shape) v acc h hφ hacc (ix1 p)
      = (Finset.univ : Finset (Fin n)).fold max (Ideal.ofBits .f32 acc) (fun c : Fin n => v (ix2 p c)) := by
  refine (Ideal.multiReduction_maximumf_single v acc h hφ hacc (ix1 p)).trans ?_
  show (Finset.univ : Finset (Fin n)).fold max (Ideal.ofBits .f32 acc) (fun k : Fin n => v (h.lift (ix1 p) k)) = _
  exact congrArg (fun f => (Finset.univ : Finset (Fin n)).fold max (Ideal.ofBits .f32 acc) f)
    (funext fun k => congrArg v (lift_axis1 h p k))

/-- Entry `t` of the maximum over the rows is the fold of `max` from the accumulator's value over column `t`. -/
theorem colMax_fold {m n : Nat} (v : FVec Ideal ⟨2, ![m, n]⟩ .f32) (acc : BitVec FTy.f32.bits)
    (h : (⟨2, ![m, n]⟩ : Shape).Reduces [0] (⟨1, ![n]⟩ : Shape)) (hφ : FKind.Formats .f32)
    (hacc : acc = FKind.maximumf.neutral .f32 hφ) (t : Fin n) :
    multiReduction .maximumf [0] (⟨1, ![n]⟩ : Shape) v acc h hφ hacc (ix1 t)
      = (Finset.univ : Finset (Fin m)).fold max (Ideal.ofBits .f32 acc) (fun r : Fin m => v (ix2 r t)) := by
  refine (Ideal.multiReduction_maximumf_single v acc h hφ hacc (ix1 t)).trans ?_
  show (Finset.univ : Finset (Fin m)).fold max (Ideal.ofBits .f32 acc) (fun k : Fin m => v (h.lift (ix1 t) k)) = _
  exact congrArg (fun f => (Finset.univ : Finset (Fin m)).fold max (Ideal.ofBits .f32 acc) f)
    (funext fun k => congrArg v (lift_axis0 h t k))

end Cert.AxisFold

end
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.AttnBody.lean ====
/-
  One grid point of the attention region, as values.

  At a point (batch b, query tile, head h) the body reads a 512 x 64 block q of queries, the head's 2048 x 64 slices ks, vs
  of the batch's keys and values, and leaves in the first output's buffer the attended block and in the second the
  running sum over heads of the softmax weights: started from zeros at head 0, with the weights added at every head,
  and multiplied by the word of 1/16 after head 15.

  First, at any float instance: what each of the three control cases leaves in each output buffer is a named pure term of
  the blocks read. Then, on the extended reals, those terms at an index: the scores are the 64-term products' sums, the
  weights their row softmax, the attended entry the weights' row against a value column.
-/
import proofs.«126819_j68247030334372_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws
import proofs.«126819_j68247030334372_2_alg».proof.Proof.Spec
import proofs.«126819_j68247030334372_2_alg».proof.Proof.LibTransDot
import proofs.«126819_j68247030334372_2_alg».proof.Proof.LibPlainDot
import proofs.«126819_j68247030334372_2_alg».proof.Proof.LibUnitAxes
import proofs.«126819_j68247030334372_2_alg».proof.Proof.LibAxisFold
import proofs.«126819_j68247030334372_2_alg».proof.Proof.LibColumns

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.AttnBody

open Cert.KernelIdeal Cert.KernelIdeal.Gen

/-! ## What each case leaves in the output buffers -/

section Pieces

variable {F : FTy → Type} [FloatOps F]

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- The head's 2048 x 64 slice of a batch's keys or values: the load at offset (0, h, 0, 0). -/
abbrev headSlice (i : grid1.Coords) (x : Vec F S1x16x2048x64 .bf16) : Vec F S1x1x2048x64 .bf16 :=
  View.ld x (Rect.unit (s := S1x16x2048x64) (k1_off1 i) S1x1x2048x64.size (k1_off1_inb i))

/-- At head 0 the first output holds the attended block. -/
theorem attnA (c : Dev nD) (i : grid1.Coords) (a3 : Memref sig .tc .vmem S1x1x512x64 .bf16) (h3 : a3.IsWhole) (a4 : Memref sig .tc .vmem S1x16x2048x64 .bf16) (h4 : a4.IsWhole) (a5 : Memref sig .tc .vmem S1x16x2048x64 .bf16) (h5 : a5.IsWhole) (a6 : Memref sig .tc .vmem S1x1x512x64 .bf16) (h6 : a6.IsWhole) (a7 : Memref sig .tc .vmem S1x512x2048 .f32) (h7 : a7.IsWhole) (hc0 : cond1_0 i) (hc1 : ¬cond1_1 i) (x0 : Vec F S1x1x512x64 .bf16) (x1 : Vec F S1x16x2048x64 .bf16) (x2 : Vec F S1x16x2048x64 .bf16) :
    out1_A_3 c i a3 h3 a4 h4 a5 h5 a6 h6 a7 h7 hc0 hc1 x0 x1 x2 = k1_pay4 x0 (headSlice i x1) (headSlice i x2) := by
  unfold out1_A_3
  rw [View.read_writes_eq_canon _ _ _ (cover1_A_3 c i a3 h3 a4 h4 a5 h5 a6 h6 a7 h7 hc0 hc1 x0 x1 x2)]
  unfold kernelRun1_A
  dsimp only
  rw [View.canon_unit_zero zeros4]
  simp only [View.readAt_eq_ld, h3.read_unread, h4.read_unread, h5.read_unread, View.ld_unit_zero (S := S1x1x512x64) zeros4]

/-- At a middle head the first output holds the attended block. -/
theorem attnB (c : Dev nD) (i : grid1.Coords) (a3 : Memref sig .tc .vmem S1x1x512x64 .bf16) (h3 : a3.IsWhole) (a4 : Memref sig .tc .vmem S1x16x2048x64 .bf16) (h4 : a4.IsWhole) (a5 : Memref sig .tc .vmem S1x16x2048x64 .bf16) (h5 : a5.IsWhole) (a6 : Memref sig .tc .vmem S1x1x512x64 .bf16) (h6 : a6.IsWhole) (a7 : Memref sig .tc .vmem S1x512x2048 .f32) (h7 : a7.IsWhole) (hc0 : ¬cond1_0 i) (hc1 : ¬cond1_1 i) (x0 : Vec F S1x1x512x64 .bf16) (x1 : Vec F S1x16x2048x64 .bf16) (x2 : Vec F S1x16x2048x64 .bf16) (xo4 : Vec F S1x512x2048 .f32) :
    out1_B_3 c i a3 h3 a4 h4 a5 h5 a6 h6 a7 h7 hc0 hc1 x0 x1 x2 xo4 = k1_pay4 x0 (headSlice i x1) (headSlice i x2) := by
  unfold out1_B_3
  rw [View.read_writes_eq_canon _ _ _ (cover1_B_3 c i a3 h3 a4 h4 a5 h5 a6 h6 a7 h7 hc0 hc1 x0 x1 x2 xo4)]
  unfold kernelRun1_B
  dsimp only
  rw [View.canon_unit_zero zeros4]
  simp only [View.readAt_eq_ld, h3.read_unread, h4.read_unread, h5.read_unread, View.ld_unit_zero (S := S1x1x512x64) zeros4]

/-- At head 15 the first output holds the attended block. -/
theorem attnC (c : Dev nD) (i : grid1.Coords) (a3 : Memref sig .tc .vmem S1x1x512x64 .bf16) (h3 : a3.IsWhole) (a4 : Memref sig .tc .vmem S1x16x2048x64 .bf16) (h4 : a4.IsWhole) (a5 : Memref sig .tc .vmem S1x16x2048x64 .bf16) (h5 : a5.IsWhole) (a6 : Memref sig .tc .vmem S1x1x512x64 .bf16) (h6 : a6.IsWhole) (a7 : Memref sig .tc .vmem S1x512x2048 .f32) (h7 : a7.IsWhole) (hc0 : ¬cond1_0 i) (hc1 : cond1_1 i) (x0 : Vec F S1x1x512x64 .bf16) (x1 : Vec F S1x16x2048x64 .bf16) (x2 : Vec F S1x16x2048x64 .bf16) (xo4 : Vec F S1x512x2048 .f32) :
    out1_C_3 c i a3 h3 a4 h4 a5 h5 a6 h6 a7 h7 hc0 hc1 x0 x1 x2 xo4 = k1_pay4 x0 (headSlice i x1) (headSlice i x2) := by
  unfold out1_C_3
  rw [View.read_writes_eq_canon _ _ _ (cover1_C_3 c i a3 h3 a4 h4 a5 h5 a6 h6 a7 h7 hc0 hc1 x0 x1 x2 xo4)]
  unfold kernelRun1_C
  dsimp only
  rw [View.canon_unit_zero zeros4]
  simp only [View.readAt_eq_ld, h3.read_unread, h4.read_unread, h5.read_unread, View.ld_unit_zero (S := S1x1x512x64) zeros4]

/-- At head 0 the second output holds the zero block plus the weights. -/
theorem accA (c : Dev nD) (i : grid1.Coords) (a3 : Memref sig .tc .vmem S1x1x512x64 .bf16) (h3 : a3.IsWhole) (a4 : Memref sig .tc .vmem S1x16x2048x64 .bf16) (h4 : a4.IsWhole) (a5 : Memref sig .tc .vmem S1x16x2048x64 .bf16) (h5 : a5.IsWhole) (a6 : Memref sig .tc .vmem S1x1x512x64 .bf16) (h6 : a6.IsWhole) (a7 : Memref sig .tc .vmem S1x512x2048 .f32) (h7 : a7.IsWhole) (hc0 : cond1_0 i) (hc1 : ¬cond1_1 i) (x0 : Vec F S1x1x512x64 .bf16) (x1 : Vec F S1x16x2048x64 .bf16) (x2 : Vec F S1x16x2048x64 .bf16) :
    out1_A_4 c i a3 h3 a4 h4 a5 h5 a6 h6 a7 h7 hc0 hc1 x0 x1 x2 = k1_pay1 (k1_pay6 x0 (headSlice i x1) k1_pay5) := by
  unfold out1_A_4
  rw [View.read_writes_eq_canon _ _ _ (cover1_A_4 c i a3 h3 a4 h4 a5 h5 a6 h6 a7 h7 hc0 hc1 x0 x1 x2)]
  unfold kernelRun1_A
  dsimp only
  sl_unfold_words
  rw [View.canon_cons_unit_zero (S := S1x512x2048) zeros3, View.readCov_unit_zero (S := S1x512x2048) _ zeros3]
  simp only [View.readAt_eq_ld, h3.read_unread, h4.read_unread, h7.read_unread, View.ld_unit_zero (S := S1x1x512x64) zeros4, View.ld_unit_zero (S := S1x512x2048) zeros3]
  rfl

/-- At a middle head the second output holds what it held plus the weights. -/
theorem accB (c : Dev nD) (i : grid1.Coords) (a3 : Memref sig .tc .vmem S1x1x512x64 .bf16) (h3 : a3.IsWhole) (a4 : Memref sig .tc .vmem S1x16x2048x64 .bf16) (h4 : a4.IsWhole) (a5 : Memref sig .tc .vmem S1x16x2048x64 .bf16) (h5 : a5.IsWhole) (a6 : Memref sig .tc .vmem S1x1x512x64 .bf16) (h6 : a6.IsWhole) (a7 : Memref sig .tc .vmem S1x512x2048 .f32) (h7 : a7.IsWhole) (hc0 : ¬cond1_0 i) (hc1 : ¬cond1_1 i) (x0 : Vec F S1x1x512x64 .bf16) (x1 : Vec F S1x16x2048x64 .bf16) (x2 : Vec F S1x16x2048x64 .bf16) (xo4 : Vec F S1x512x2048 .f32) :
    out1_B_4 c i a3 h3 a4 h4 a5 h5 a6 h6 a7 h7 hc0 hc1 x0 x1 x2 xo4 = k1_pay1 (k1_pay6 x0 (headSlice i x1) xo4) := by
  unfold out1_B_4
  rw [View.read_writes_eq_canon _ _ _ (cover1_B_4 c i a3 h3 a4 h4 a5 h5 a6 h6 a7 h7 hc0 hc1 x0 x1 x2 xo4)]
  unfold kernelRun1_B
  dsimp only
  sl_unfold_words
  rw [View.canon_unit_zero zeros3]
  simp only [View.readAt_eq_ld, h3.read_unread, h4.read_unread, h7.read_unread, View.ld_unit_zero (S := S1x1x512x64) zeros4, View.ld_unit_zero (S := S1x512x2048) zeros3]
  rfl

/-- At head 15 the second output holds what it held plus the weights, times the word of 1/16. -/
theorem accC (c : Dev nD) (i : grid1.Coords) (a3 : Memref sig .tc .vmem S1x1x512x64 .bf16) (h3 : a3.IsWhole) (a4 : Memref sig .tc .vmem S1x16x2048x64 .bf16) (h4 : a4.IsWhole) (a5 : Memref sig .tc .vmem S1x16x2048x64 .bf16) (h5 : a5.IsWhole) (a6 : Memref sig .tc .vmem S1x1x512x64 .bf16) (h6 : a6.IsWhole) (a7 : Memref sig .tc .vmem S1x512x2048 .f32) (h7 : a7.IsWhole) (hc0 : ¬cond1_0 i) (hc1 : cond1_1 i) (x0 : Vec F S1x1x512x64 .bf16) (x1 : Vec F S1x16x2048x64 .bf16) (x2 : Vec F S1x16x2048x64 .bf16) (xo4 : Vec F S1x512x2048 .f32) :
    out1_C_4 c i a3 h3 a4 h4 a5 h5 a6 h6 a7 h7 hc0 hc1 x0 x1 x2 xo4 = k1_pay2 (k1_pay1 (k1_pay6 x0 (headSlice i x1) xo4)) := by
  unfold out1_C_4
  rw [View.read_writes_eq_canon _ _ _ (cover1_C_4 c i a3 h3 a4 h4 a5 h5 a6 h6 a7 h7 hc0 hc1 x0 x1 x2 xo4)]
  unfold kernelRun1_C
  dsimp only
  sl_unfold_words
  rw [View.canon_cons_unit_zero (S := S1x512x2048) zeros3, View.readCov_unit_zero (S := S1x512x2048) _ zeros3]
  simp only [View.readAt_eq_ld, h3.read_unread, h4.read_unread, h7.read_unread, View.ld_unit_zero (S := S1x1x512x64) zeros4, View.ld_unit_zero (S := S1x512x2048) zeros3]
  rfl

end Pieces

/-! ## The named terms at an index, on the extended reals -/

section Values

/-- The head's slice at (s, d) is the batch's block at (h, s, d). -/
theorem headSlice_apply (i : grid1.Coords) (x : Vec Ideal S1x16x2048x64 .bf16) (h : Fin 16) (hh : (i 2).val = h.val)
    (s : Fin 2048) (d : Fin 64) :
    headSlice i x (ix4 (0 : Fin 1) (0 : Fin 1) s d) = x (ix4 (0 : Fin 1) h s d) := by
  have ho := k1_off1_eq i
  show x ((Rect.unit (s := S1x16x2048x64) (k1_off1 i) S1x1x2048x64.size (k1_off1_inb i)).idx (ix4 (0 : Fin 1) (0 : Fin 1) s d)) = _
  congr 1; funext a; apply Fin.ext
  rw [LoadRect.idx_apply]
  match a with
  | ⟨0, _⟩ => show k1_off1 i 0 + 1 * (0 : ℕ) = 0; rw [ho]; rfl
  | ⟨1, _⟩ => show k1_off1 i 1 + 1 * (0 : ℕ) = h.val; rw [ho]; show (i 2).val + 1 * 0 = h.val; omega
  | ⟨2, _⟩ => show k1_off1 i 2 + 1 * s.val = s.val; rw [ho]; show 0 + 1 * s.val = s.val; omega
  | ⟨3, _⟩ => show k1_off1 i 3 + 1 * d.val = d.val; rw [ho]; show 0 + 1 * d.val = d.val; omega

/-- The scores' contraction: the left operand is read at (row, k), the right at (column, k). -/
theorem scoreDot_l0 (j : S512x2048.Idx) (q : dot_S512x64_S2048x64_S512x2048_1_1_0_0_n_n.contr.Idx) : (dot_S512x64_S2048x64_S512x2048_1_1_0_0_n_n.lhsIdx j q (0 : Fin 2)).val = (j (0 : Fin 2)).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem scoreDot_l1 (j : S512x2048.Idx) (q : dot_S512x64_S2048x64_S512x2048_1_1_0_0_n_n.contr.Idx) : (dot_S512x64_S2048x64_S512x2048_1_1_0_0_n_n.lhsIdx j q (1 : Fin 2)).val = (q ⟨0, by decide⟩).val :=
  dot_S512x64_S2048x64_S512x2048_1_1_0_0_n_n.lhsIdx_val_of_single rfl j q
theorem scoreDot_r0 (j : S512x2048.Idx) (q : dot_S512x64_S2048x64_S512x2048_1_1_0_0_n_n.contr.Idx) : (dot_S512x64_S2048x64_S512x2048_1_1_0_0_n_n.rhsIdx j q (0 : Fin 2)).val = (j (1 : Fin 2)).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem scoreDot_r1 (j : S512x2048.Idx) (q : dot_S512x64_S2048x64_S512x2048_1_1_0_0_n_n.contr.Idx) : (dot_S512x64_S2048x64_S512x2048_1_1_0_0_n_n.rhsIdx j q (1 : Fin 2)).val = (q ⟨0, by decide⟩).val :=
  dot_S512x64_S2048x64_S512x2048_1_1_0_0_n_n.rhsIdx_val_of_single rfl j q

/-- The attended values' contraction: the left operand is read at (row, k), the right at (k, column). -/
theorem attDot_l0 (j : S512x64.Idx) (q : dot_S512x2048_S2048x64_S512x64_1_0_0_1_n_n.contr.Idx) : (dot_S512x2048_S2048x64_S512x64_1_0_0_1_n_n.lhsIdx j q (0 : Fin 2)).val = (j (0 : Fin 2)).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem attDot_l1 (j : S512x64.Idx) (q : dot_S512x2048_S2048x64_S512x64_1_0_0_1_n_n.contr.Idx) : (dot_S512x2048_S2048x64_S512x64_1_0_0_1_n_n.lhsIdx j q (1 : Fin 2)).val = (q ⟨0, by decide⟩).val :=
  dot_S512x2048_S2048x64_S512x64_1_0_0_1_n_n.lhsIdx_val_of_single rfl j q
theorem attDot_r0 (j : S512x64.Idx) (q : dot_S512x2048_S2048x64_S512x64_1_0_0_1_n_n.contr.Idx) : (dot_S512x2048_S2048x64_S512x64_1_0_0_1_n_n.rhsIdx j q (0 : Fin 2)).val = (q ⟨0, by decide⟩).val :=
  dot_S512x2048_S2048x64_S512x64_1_0_0_1_n_n.rhsIdx_val_of_single rfl j q
theorem attDot_r1 (j : S512x64.Idx) (q : dot_S512x2048_S2048x64_S512x64_1_0_0_1_n_n.contr.Idx) : (dot_S512x2048_S2048x64_S512x64_1_0_0_1_n_n.rhsIdx j q (1 : Fin 2)).val = (j (1 : Fin 2)).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The score of query row r against key row s of the blocks read. -/
def rowScore (q : Vec Ideal S1x1x512x64 .bf16) (ks : Vec Ideal S1x1x2048x64 .bf16) (r : Fin 512) (s : Fin 2048) : EReal :=
  ∑ d : Fin 64, (q (ix4 (0 : Fin 1) (0 : Fin 1) r d) : EReal) * (ks (ix4 (0 : Fin 1) (0 : Fin 1) s d) : EReal)

/-- The score matrix of the blocks read. -/
def scores (q : Vec Ideal S1x1x512x64 .bf16) (ks : Vec Ideal S1x1x2048x64 .bf16) : FVec Ideal S512x2048 .f32 :=
  matmul dot_S512x64_S2048x64_S512x2048_1_1_0_0_n_n none (shapeCast S512x64 q shapeCasts_S1x1x512x64_S512x64 : FVec Ideal S512x64 .bf16)
    (shapeCast S2048x64 ks shapeCasts_S1x1x2048x64_S2048x64 : FVec Ideal S2048x64 .bf16) (constant S512x2048 .f32 0x00000000#32)

theorem scores_apply (q : Vec Ideal S1x1x512x64 .bf16) (ks : Vec Ideal S1x1x2048x64 .bf16) (r : Fin 512) (s : Fin 2048) :
    scores q ks (ix2 r s) = rowScore q ks r s := by
  unfold scores rowScore
  refine (Cert.Lib.TransDot.matmul_zero_ix2_nt dot_S512x64_S2048x64_S512x2048_1_1_0_0_n_n rfl rfl scoreDot_l0 scoreDot_l1 scoreDot_r0 scoreDot_r1 none _ _ r s).trans ?_
  refine Finset.sum_congr rfl fun d _ => ?_
  rw [Cert.Lib.UnitAxes.shapeCast_11ab_ab_apply, Cert.Lib.UnitAxes.shapeCast_11ab_ab_apply]

/-- Each row's maximum, spread over the row. -/
def rowMaxB (v : FVec Ideal S512x2048 .f32) : FVec Ideal S512x2048 .f32 :=
  broadcastTo S512x2048 (shapeCast S512x1 (multiReduction .maximumf [1] S512 v 0xFF800000#32 reduces_S512x2048_S512 (.inl rfl) rfl) shapeCasts_S512_S512x1) broadcasts_S512x1_S512x2048
/-- The exponentials of the entries less their row's maximum. -/
def expRows (v : FVec Ideal S512x2048 .f32) : FVec Ideal S512x2048 .f32 := exp (subf v (rowMaxB v))
/-- Each row's sum, spread over the row. -/
def rowSumB (v : FVec Ideal S512x2048 .f32) : FVec Ideal S512x2048 .f32 :=
  broadcastTo S512x2048 (shapeCast S512x1 (multiReduction .add [1] S512 v 0x00000000#32 reduces_S512x2048_S512 (.inl rfl) rfl) shapeCasts_S512_S512x1) broadcasts_S512x1_S512x2048
/-- The row softmax of a matrix. -/
def softRows (v : FVec Ideal S512x2048 .f32) : FVec Ideal S512x2048 .f32 := divf (expRows v) (rowSumB (expRows v))

theorem rowMaxB_apply (v : FVec Ideal S512x2048 .f32) (r : Fin 512) (c : Fin 2048) :
    rowMaxB v (ix2 r c) = Cert.Spec.rowMax (fun s' : Fin 2048 => v (ix2 r s')) :=
  (Cert.Lib.Columns.broadcastTo_a1_ab_apply _ _ r c).trans
    ((Cert.Lib.Columns.shapeCast_a_a1_apply _ _ r 0).trans (Cert.AxisFold.rowMax_fold v _ _ _ _ r))

theorem expRows_apply (v : FVec Ideal S512x2048 .f32) (r : Fin 512) (c : Fin 2048) :
    expRows v (ix2 r c) = Ideal.exp (v (ix2 r c) - Cert.Spec.rowMax (fun s' : Fin 2048 => v (ix2 r s'))) := by
  show Ideal.exp (v (ix2 r c) - rowMaxB v (ix2 r c)) = _
  rw [rowMaxB_apply]

theorem rowSumB_apply (v : FVec Ideal S512x2048 .f32) (r : Fin 512) (c : Fin 2048) :
    rowSumB v (ix2 r c) = ∑ s' : Fin 2048, v (ix2 r s') :=
  (Cert.Lib.Columns.broadcastTo_a1_ab_apply _ _ r c).trans
    ((Cert.Lib.Columns.shapeCast_a_a1_apply _ _ r 0).trans (Cert.AxisFold.rowSum_acc v _ _ _ _ r))

theorem softRows_apply (v : FVec Ideal S512x2048 .f32) (r : Fin 512) (s : Fin 2048) :
    softRows v (ix2 r s) = Cert.Spec.softmax (fun s' : Fin 2048 => v (ix2 r s')) s := by
  show Ideal.div (expRows v (ix2 r s)) (rowSumB (expRows v) (ix2 r s)) = _
  rw [rowSumB_apply, expRows_apply]
  unfold Cert.Spec.softmax
  exact congrArg (Ideal.div _) (Finset.sum_congr rfl fun s' _ => expRows_apply v r s')

/-- The weights' term is the row softmax of the scores. -/
theorem weights_eq (q : Vec Ideal S1x1x512x64 .bf16) (ks : Vec Ideal S1x1x2048x64 .bf16) :
    k1_pay3 (F := Ideal) q ks = softRows (scores q ks) := rfl

theorem weights_apply (q : Vec Ideal S1x1x512x64 .bf16) (ks : Vec Ideal S1x1x2048x64 .bf16) (r : Fin 512) (s : Fin 2048) :
    k1_pay3 (F := Ideal) q ks (ix2 r s) = Cert.Spec.softmax (fun s' : Fin 2048 => rowScore q ks r s') s := by
  rw [weights_eq, softRows_apply]
  exact congrArg (fun f : Fin 2048 → EReal => Cert.Spec.softmax f s) (funext fun s' => scores_apply q ks r s')

/-- The attended block at (r, d): the weights' row r against the values' column d. -/
theorem attended_apply (q : Vec Ideal S1x1x512x64 .bf16) (ks vs : Vec Ideal S1x1x2048x64 .bf16) (u v : Fin 1) (r : Fin 512) (d : Fin 64) :
    k1_pay4 (F := Ideal) q ks vs (ix4 u v r d)
      = ∑ s : Fin 2048, k1_pay3 (F := Ideal) q ks (ix2 r s) * (vs (ix4 (0 : Fin 1) (0 : Fin 1) s d) : EReal) := by
  unfold k1_pay4
  refine (Cert.Lib.UnitAxes.shapeCast_ab_11ab_apply _ _ u v r d).trans ?_
  refine (Cert.Lib.PlainDot.matmul_zero_ix2 dot_S512x2048_S2048x64_S512x64_1_0_0_1_n_n rfl rfl attDot_l0 attDot_l1 attDot_r0 attDot_r1 none _ _ r d).trans ?_
  refine Finset.sum_congr rfl fun s _ => ?_
  rw [Cert.Lib.UnitAxes.shapeCast_11ab_ab_apply]
  rfl

/-- The running sum's step at (r, s): what was held plus the weight. -/
theorem step_apply (q : Vec Ideal S1x1x512x64 .bf16) (ks : Vec Ideal S1x1x2048x64 .bf16) (acc : Vec Ideal S1x512x2048 .f32)
    (u : Fin 1) (r : Fin 512) (s : Fin 2048) :
    k1_pay1 (F := Ideal) (k1_pay6 q ks acc) (ix3 u r s)
      = (acc (ix3 (0 : Fin 1) r s) : EReal) + k1_pay3 (F := Ideal) q ks (ix2 r s) := by
  unfold k1_pay1 k1_pay6
  dsimp only
  refine (shapeCast_ab_1ab_apply _ _ u r s).trans ?_
  show shapeCast S512x2048 acc shapeCasts_S1x512x2048_S512x2048 (ix2 r s) + k1_pay3 (F := Ideal) q ks (ix2 r s) = _
  rw [shapeCast_1ab_ab_apply]

/-- The last step at (r, s): the entry times the word of 1/16. -/
theorem scale_apply (v : Vec Ideal S1x512x2048 .f32) (u : Fin 1) (r : Fin 512) (s : Fin 2048) :
    k1_pay2 (F := Ideal) v (ix3 u r s) = (v (ix3 (0 : Fin 1) r s) : EReal) * Ideal.ofBits .f32 0x3D800000#32 := by
  unfold k1_pay2
  refine (shapeCast_ab_1ab_apply _ _ u r s).trans ?_
  show shapeCast S512x2048 v shapeCasts_S1x512x2048_S512x2048 (ix2 r s) * Ideal.ofBits .f32 0x3D800000#32 = _
  rw [shapeCast_1ab_ab_apply]

/-- The zero block at any index. -/
theorem zero_apply (u : Fin 1) (r : Fin 512) (s : Fin 2048) :
    (k1_pay5 (F := Ideal) (ix3 u r s) : EReal) = Ideal.ofBits .f32 0x00000000#32 := by
  unfold k1_pay5
  exact shapeCast_ab_1ab_apply _ _ u r s

end Values

end Cert.AttnBody

end
-- ==== Proof.AttnPoint.lean ====
/-
  The attention region, point by point.

  With Q, K, V the per-head arrays the region finds (batch, head, time, feature), point n of the grid — batch b, query
  tile ti, head h — reads the 512 query rows of tile ti of head h, and the whole key and value arrays of batch b, of
  which the body takes head h. So after the point the first output's buffer holds the attended values of those 512
  query times for head h, and the second output's buffer — carried from head to head, written back after head 15 —
  holds the running sum over the heads 0 … h of the attention weights of those query times (by induction on the
  point), times the word of 1/16 once h = 15.
-/
import proofs.«126819_j68247030334372_2_alg».proof.Proof.Gen.KernelIdeal.Frame
import proofs.«126819_j68247030334372_2_alg».proof.Proof.Spec
import proofs.«126819_j68247030334372_2_alg».proof.Proof.AttnGrid
import proofs.«126819_j68247030334372_2_alg».proof.Proof.AttnBody

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.AttnPoint

open Cert.KernelIdeal Cert.KernelIdeal.Gen Cert.AttnGrid Cert.AttnBody

variable (V : (c : Dev nD) → (b : Ref sig .tc) → Buf (Elt Ideal) ((c : Thread nD τ).loc b)) (c : Dev nD)

/-- The query, key and value heads as the region finds them. -/
def Qh : Cert.Spec.Heads := fun b h t d => (V c main_v14 : S4x16x2048x64.Idx → EReal) (ix4 b h t d)
def Kh : Cert.Spec.Heads := fun b h t d => (V c main_v17 : S4x16x2048x64.Idx → EReal) (ix4 b h t d)
def Vh : Cert.Spec.Heads := fun b h t d => (V c main_v20 : S4x16x2048x64.Idx → EReal) (ix4 b h t d)

/-! ## The grid's coordinates and the windows' block indices, decided over the 256 points -/

theorem head_coord : ∀ t : Fin cfg1.N, (grid1.coords t 2).val = t.val % 16 :=
  (by decide +kernel : ∀ t : Fin grid1.N, (grid1.coords t 2).val = t.val % 16)

theorem idx_q : ∀ t : Fin cfg1.N, win1_0.index t (0 : Fin 4) = t.val / 64 % 4 ∧ win1_0.index t (1 : Fin 4) = t.val % 16
    ∧ win1_0.index t (2 : Fin 4) = t.val / 16 % 4 ∧ win1_0.index t (3 : Fin 4) = 0 :=
  (by decide +kernel : ∀ t : Fin grid1.N, _)

theorem idx_k : ∀ t : Fin cfg1.N, win1_1.index t (0 : Fin 4) = t.val / 64 % 4 ∧ win1_1.index t (1 : Fin 4) = 0
    ∧ win1_1.index t (2 : Fin 4) = 0 ∧ win1_1.index t (3 : Fin 4) = 0 :=
  (by decide +kernel : ∀ t : Fin grid1.N, _)

theorem idx_v : ∀ t : Fin cfg1.N, win1_2.index t (0 : Fin 4) = t.val / 64 % 4 ∧ win1_2.index t (1 : Fin 4) = 0
    ∧ win1_2.index t (2 : Fin 4) = 0 ∧ win1_2.index t (3 : Fin 4) = 0 :=
  (by decide +kernel : ∀ t : Fin grid1.N, _)

/-! ## The blocks read at a point -/

/-- The query block of point t at (r, d): query time ti·512 + r of head h of batch b. -/
theorem qblk_apply (t : Fin cfg1.N) (r : Fin 512) (d : Fin 64) :
    (iblk1 V c 0 t : S1x1x512x64.Idx → EReal) (ix4 (0 : Fin 1) (0 : Fin 1) r d)
      = Qh V c (batchOf t.val) (headAt t.val) (timeOf (tileOf t.val) r) d := by
  obtain ⟨e0, e1, e2, e3⟩ := idx_q t
  unfold iblk1 Qh
  rw [View.read_apply]
  show (V c main_v14 : S4x16x2048x64.Idx → EReal) _ = (V c main_v14 : S4x16x2048x64.Idx → EReal) _
  congr 1
  funext a; apply Fin.ext
  match a with
  | ⟨0, _⟩ => show win1_0.index t (0 : Fin 4) * 1 + 1 * (0 : ℕ) = t.val / 64 % 4; omega
  | ⟨1, _⟩ => show win1_0.index t (1 : Fin 4) * 1 + 1 * (0 : ℕ) = t.val % 16; omega
  | ⟨2, _⟩ => show win1_0.index t (2 : Fin 4) * 512 + 1 * r.val = t.val / 16 % 4 * 512 + r.val; omega
  | ⟨3, _⟩ => show win1_0.index t (3 : Fin 4) * 64 + 1 * d.val = d.val; omega

/-- The key block of point t at (h', s, d): all heads and times of batch b. -/
theorem kblk_apply (t : Fin cfg1.N) (h' : Fin 16) (s : Fin 2048) (d : Fin 64) :
    (iblk1 V c 1 t : S1x16x2048x64.Idx → EReal) (ix4 (0 : Fin 1) h' s d) = Kh V c (batchOf t.val) h' s d := by
  obtain ⟨e0, e1, e2, e3⟩ := idx_k t
  unfold iblk1 Kh
  rw [View.read_apply]
  show (V c main_v17 : S4x16x2048x64.Idx → EReal) _ = (V c main_v17 : S4x16x2048x64.Idx → EReal) _
  congr 1
  funext a; apply Fin.ext
  match a with
  | ⟨0, _⟩ => show win1_1.index t (0 : Fin 4) * 1 + 1 * (0 : ℕ) = t.val / 64 % 4; omega
  | ⟨1, _⟩ => show win1_1.index t (1 : Fin 4) * 16 + 1 * h'.val = h'.val; omega
  | ⟨2, _⟩ => show win1_1.index t (2 : Fin 4) * 2048 + 1 * s.val = s.val; omega
  | ⟨3, _⟩ => show win1_1.index t (3 : Fin 4) * 64 + 1 * d.val = d.val; omega

/-- The value block of point t at (h', s, d): all heads and times of batch b. -/
theorem vblk_apply (t : Fin cfg1.N) (h' : Fin 16) (s : Fin 2048) (d : Fin 64) :
    (iblk1 V c 2 t : S1x16x2048x64.Idx → EReal) (ix4 (0 : Fin 1) h' s d) = Vh V c (batchOf t.val) h' s d := by
  obtain ⟨e0, e1, e2, e3⟩ := idx_v t
  unfold iblk1 Vh
  rw [View.read_apply]
  show (V c main_v20 : S4x16x2048x64.Idx → EReal) _ = (V c main_v20 : S4x16x2048x64.Idx → EReal) _
  congr 1
  funext a; apply Fin.ext
  match a with
  | ⟨0, _⟩ => show win1_2.index t (0 : Fin 4) * 1 + 1 * (0 : ℕ) = t.val / 64 % 4; omega
  | ⟨1, _⟩ => show win1_2.index t (1 : Fin 4) * 16 + 1 * h'.val = h'.val; omega
  | ⟨2, _⟩ => show win1_2.index t (2 : Fin 4) * 2048 + 1 * s.val = s.val; omega
  | ⟨3, _⟩ => show win1_2.index t (3 : Fin 4) * 64 + 1 * d.val = d.val; omega

/-! ## The point's values -/

/-- The grid's head coordinate at point t is t mod 16. -/
theorem head_eq (t : Fin cfg1.N) : (grid1.coords t 2).val = (headAt t.val).val := head_coord t

set_option maxHeartbeats 1000000 in
/-- The weights the body computes at point t, at (r, s): the attention weight of query time ti·512 + r on key time s. -/
theorem weight_at (t : Fin cfg1.N) (r : Fin 512) (s : Fin 2048) :
    k1_pay3 (F := Ideal) (iblk1 V c 0 t) (headSlice (grid1.coords t) (iblk1 V c 1 t)) (ix2 r s)
      = Cert.Spec.weight (Qh V c) (Kh V c) (batchOf t.val) (headAt t.val) (timeOf (tileOf t.val) r) s := by
  refine (weights_apply (iblk1 V c 0 t) (headSlice (grid1.coords t) (iblk1 V c 1 t)) r s).trans ?_
  unfold Cert.Spec.weight
  refine congrArg (fun f : Fin 2048 → EReal => Cert.Spec.softmax f s) (funext fun s' => ?_)
  unfold rowScore Cert.Spec.score
  refine Finset.sum_congr rfl fun d _ => ?_
  rw [qblk_apply V c t r d, headSlice_apply (grid1.coords t) (iblk1 V c 1 t) (headAt t.val) (head_eq t) s' d,
    kblk_apply V c t (headAt t.val) s' d]

set_option maxHeartbeats 1000000 in
/-- Whatever the case, the first output's buffer after point t holds the attended block's term. -/
theorem attn_term (t : Fin cfg1.N) :
    (outsAt1 V c t.val t.isLt).1 = k1_pay4 (iblk1 V c 0 t) (headSlice (grid1.coords t) (iblk1 V c 1 t)) (headSlice (grid1.coords t) (iblk1 V c 2 t)) := by
  by_cases h0 : t.val % 16 = 0
  · have h1 : ¬ t.val % 16 = 15 := by omega
    rw [outsAt1_A V c t h0 h1, attnA]
  · by_cases h1 : t.val % 16 = 15
    · rw [outsAt1_C V c t h0 h1, attnC]
    · rw [outsAt1_B V c t h0 h1, attnB]

set_option maxHeartbeats 1000000 in
/-- After point t the first output's buffer holds, at (r, d), the attended value of query time ti·512 + r. -/
theorem attn_at (t : Fin cfg1.N) (u v : Fin 1) (r : Fin 512) (d : Fin 64) :
    ((dat1 (F := Ideal) V c).after 3 t : S1x1x512x64.Idx → EReal) (ix4 u v r d)
      = Cert.Spec.attend (Qh V c) (Kh V c) (Vh V c) (batchOf t.val) (headAt t.val) (timeOf (tileOf t.val) r) d := by
  rw [after1_3, attn_term V c t]
  refine (attended_apply (iblk1 V c 0 t) (headSlice (grid1.coords t) (iblk1 V c 1 t)) (headSlice (grid1.coords t) (iblk1 V c 2 t)) u v r d).trans ?_
  unfold Cert.Spec.attend
  refine Finset.sum_congr rfl fun s _ => ?_
  rw [weight_at V c t r s, headSlice_apply (grid1.coords t) (iblk1 V c 2 t) (headAt t.val) (head_eq t) s d,
    vblk_apply V c t (headAt t.val) s d]

/-! ## The running sum over heads -/

/-- The sixteen heads' weights of query time ti·512 + r on key time s, in batch b. -/
abbrev wts (b : Fin 4) (ti : Fin 4) (r : Fin 512) (s : Fin 2048) : Fin 16 → EReal :=
  fun h' => Cert.Spec.weight (Qh V c) (Kh V c) b h' (timeOf ti r) s

theorem accum_zero (w : Fin 16 → EReal) (h : 0 < 16) :
    Cert.Spec.accum w 0 h = Ideal.ofBits .f32 0x00000000#32 + w ⟨0, h⟩ := rfl
theorem accum_succ (w : Fin 16 → EReal) (k : ℕ) (hk : k + 1 < 16) :
    Cert.Spec.accum w (k + 1) hk = Cert.Spec.accum w k (Nat.lt_of_succ_lt hk) + w ⟨k + 1, hk⟩ := rfl

theorem accum_wts_congr {b b' ti ti' : Fin 4} (eb : b = b') (eti : ti = ti') (r : Fin 512) (s : Fin 2048) {k k' : ℕ} (ek : k = k')
    (hk : k < 16) (hk' : k' < 16) :
    Cert.Spec.accum (wts V c b ti r s) k hk = Cert.Spec.accum (wts V c b' ti' r s) k' hk' := by
  subst eb eti ek; rfl

set_option maxHeartbeats 1000000 in
/-- Head 0: the zero block plus the weights is the running sum's first term. -/
theorem first_at (t : Fin cfg1.N) (hh : t.val % 16 = 0) (u : Fin 1) (r : Fin 512) (s : Fin 2048) :
    k1_pay1 (F := Ideal) (k1_pay6 (iblk1 V c 0 t) (headSlice (grid1.coords t) (iblk1 V c 1 t)) (k1_pay5 (F := Ideal))) (ix3 u r s)
      = Cert.Spec.accum (wts V c (batchOf t.val) (tileOf t.val) r s) 0 (by decide) := by
  refine (step_apply (iblk1 V c 0 t) (headSlice (grid1.coords t) (iblk1 V c 1 t)) (k1_pay5 (F := Ideal)) u r s).trans ?_
  have hhd : headAt t.val = (⟨0, by decide⟩ : Fin 16) := Fin.ext hh
  rw [zero_apply, weight_at V c t r s, hhd, accum_zero]

set_option maxHeartbeats 1000000 in
/-- A later head: what the buffer held plus the weights is the running sum with one more term. -/
theorem step_at (t : Fin cfg1.N) (prev : Vec Ideal S1x512x2048 .f32) (k : ℕ) (hk : k + 1 < 16) (hh : t.val % 16 = k + 1)
    (hprev : ∀ (r : Fin 512) (s : Fin 2048), (prev (ix3 (0 : Fin 1) r s) : EReal)
      = Cert.Spec.accum (wts V c (batchOf t.val) (tileOf t.val) r s) k (Nat.lt_of_succ_lt hk))
    (u : Fin 1) (r : Fin 512) (s : Fin 2048) :
    k1_pay1 (F := Ideal) (k1_pay6 (iblk1 V c 0 t) (headSlice (grid1.coords t) (iblk1 V c 1 t)) prev) (ix3 u r s)
      = Cert.Spec.accum (wts V c (batchOf t.val) (tileOf t.val) r s) (k + 1) hk := by
  refine (step_apply (iblk1 V c 0 t) (headSlice (grid1.coords t) (iblk1 V c 1 t)) prev u r s).trans ?_
  have hhd : headAt t.val = (⟨k + 1, hk⟩ : Fin 16) := Fin.ext hh
  rw [hprev r s, weight_at V c t r s, hhd, accum_succ]

set_option maxHeartbeats 1000000 in
/-- At a point of head 0 the second output's buffer holds the running sum's first term. -/
theorem acc_first (t : Fin cfg1.N) (h0 : t.val % 16 = 0) (u : Fin 1) (r : Fin 512) (s : Fin 2048) :
    ((outsAt1 V c t.val t.isLt).2 (ix3 u r s) : EReal)
      = Cert.Spec.accum (wts V c (batchOf t.val) (tileOf t.val) r s) (t.val % 16) (Nat.mod_lt _ (by decide)) := by
  have h1 : ¬ t.val % 16 = 15 := by omega
  have e : (outsAt1 V c t.val t.isLt).2 = k1_pay1 (k1_pay6 (iblk1 V c 0 t) (headSlice (grid1.coords t) (iblk1 V c 1 t)) (k1_pay5 (F := Ideal))) :=
    by rw [outsAt1_A V c t h0 h1, accA]
  rw [e, first_at V c t h0 u r s]
  exact accum_wts_congr V c rfl rfl r s h0.symm _ _

set_option maxHeartbeats 1000000 in
/-- At a point of a middle head the buffer holds the running sum through that head, if it held the running sum through the
    head before at the point before. -/
theorem acc_step (t : Fin cfg1.N) (h0 : ¬ t.val % 16 = 0) (h1 : ¬ t.val % 16 = 15)
    (ih : ∀ (r : Fin 512) (s : Fin 2048), ((outsAt1 V c (t.val - 1) (Nat.lt_of_le_of_lt (Nat.sub_le _ _) t.isLt)).2 (ix3 (0 : Fin 1) r s) : EReal)
      = Cert.Spec.accum (wts V c (batchOf (t.val - 1)) (tileOf (t.val - 1)) r s) ((t.val - 1) % 16) (Nat.mod_lt _ (by decide)))
    (u : Fin 1) (r : Fin 512) (s : Fin 2048) :
    ((outsAt1 V c t.val t.isLt).2 (ix3 u r s) : EReal)
      = Cert.Spec.accum (wts V c (batchOf t.val) (tileOf t.val) r s) (t.val % 16) (Nat.mod_lt _ (by decide)) := by
  have e : (outsAt1 V c t.val t.isLt).2 = k1_pay1 (k1_pay6 (iblk1 V c 0 t) (headSlice (grid1.coords t) (iblk1 V c 1 t)) (outsAt1 V c (t.val - 1) (Nat.lt_of_le_of_lt (Nat.sub_le _ _) t.isLt)).2) :=
    by rw [outsAt1_B V c t h0 h1, accB]
  have hb : batchOf (t.val - 1) = batchOf t.val := Fin.ext (by unfold batchOf; show (t.val - 1) / 64 % 4 = t.val / 64 % 4; omega)
  have hti : tileOf (t.val - 1) = tileOf t.val := Fin.ext (by unfold tileOf; show (t.val - 1) / 16 % 4 = t.val / 16 % 4; omega)
  have hk : (t.val - 1) % 16 + 1 < 16 := by omega
  have hh : t.val % 16 = (t.val - 1) % 16 + 1 := by omega
  rw [e, step_at V c t (outsAt1 V c (t.val - 1) (Nat.lt_of_le_of_lt (Nat.sub_le _ _) t.isLt)).2 ((t.val - 1) % 16) hk hh
    (fun r s => (ih r s).trans (accum_wts_congr V c hb hti r s rfl _ _)) u r s]
  exact accum_wts_congr V c rfl rfl r s hh.symm _ _

/-- THE INVARIANT: at every point whose head is not the last, the second output's buffer holds the running sum of the
    weights over the heads so far. -/
theorem acc_at : ∀ (n : ℕ) (hn : n < cfg1.N), n % 16 ≠ 15 → ∀ (u : Fin 1) (r : Fin 512) (s : Fin 2048),
    ((outsAt1 V c n hn).2 (ix3 u r s) : EReal)
      = Cert.Spec.accum (wts V c (batchOf n) (tileOf n) r s) (n % 16) (Nat.mod_lt _ (by decide)) := by
  intro n
  induction n with
  | zero => intro hn _ u r s; exact acc_first V c ⟨0, hn⟩ (Nat.zero_mod 16) u r s
  | succ n ih =>
    intro hn h15 u r s
    by_cases h0 : (n + 1) % 16 = 0
    · exact acc_first V c ⟨n + 1, hn⟩ h0 u r s
    · exact acc_step V c ⟨n + 1, hn⟩ h0 h15 (fun r s => ih (Nat.lt_of_succ_lt hn) (by omega) 0 r s) u r s

set_option maxHeartbeats 1000000 in
/-- After a point of the last head the second output's buffer holds the mean over heads of the weights. -/
theorem avg_at (t : Fin cfg1.N) (h1 : t.val % 16 = 15) (u : Fin 1) (r : Fin 512) (s : Fin 2048) :
    ((dat1 (F := Ideal) V c).after 4 t : S1x512x2048.Idx → EReal) (ix3 u r s)
      = Cert.Spec.avgMul (Qh V c) (Kh V c) (batchOf t.val) (timeOf (tileOf t.val) r) s := by
  have h0 : ¬ t.val % 16 = 0 := by omega
  have e : (outsAt1 V c t.val t.isLt).2 = k1_pay2 (k1_pay1 (k1_pay6 (iblk1 V c 0 t) (headSlice (grid1.coords t) (iblk1 V c 1 t)) (outsAt1 V c (t.val - 1) (Nat.lt_of_le_of_lt (Nat.sub_le _ _) t.isLt)).2)) :=
    by rw [outsAt1_C V c t h0 h1, accC]
  have hb : batchOf (t.val - 1) = batchOf t.val := Fin.ext (by unfold batchOf; show (t.val - 1) / 64 % 4 = t.val / 64 % 4; omega)
  have hti : tileOf (t.val - 1) = tileOf t.val := Fin.ext (by unfold tileOf; show (t.val - 1) / 16 % 4 = t.val / 16 % 4; omega)
  have h14 : (t.val - 1) % 16 = 14 := by omega
  rw [after1_4, e]
  refine (scale_apply _ u r s).trans ?_
  rw [step_at V c t (outsAt1 V c (t.val - 1) (Nat.lt_of_le_of_lt (Nat.sub_le _ _) t.isLt)).2 14 (by decide) h1
    (fun r s => (acc_at V c (t.val - 1) _ (by omega) 0 r s).trans (accum_wts_congr V c hb hti r s h14 _ _)) 0 r s]
  unfold Cert.Spec.avgMul
  rfl

end Cert.AttnPoint

end
-- ==== Proof.AttnCover.lean ====
/-
  The attention region's two results, from blocks to the whole arrays.

  The region runs over 256 points in row-major order over (batch, query tile, head) = (4, 4, 16), the head innermost. Point n
  leaves in the first result's buffer the 512 x 64 block of attended values of its batch, head and query tile, which is written
  back at every point as block (batch, head, tile, 0) of the [4, 16, 2048, 64] array; and in the second result's buffer the
  512 x 2048 block of averaged weights of its batch and query tile, which is written back only at the last head (n mod 16 = 15)
  as block (batch, tile, 0) of the [4, 2048, 2048] array.

  Given, for each point, what the buffer holds at block coordinates as a function G of the array coordinates the block stands
  for, each array ends holding G: an array index (b, h, s, d) lies in the block of the point 64 b + 16 (s / 512) + h, an index
  (b, s, s') in the block of the point 64 b + 16 (s / 512) + 15, so the blocks written back cover the arrays.
-/
import proofs.«126819_j68247030334372_2_alg».proof.Proof.Gen.KernelIdeal.Frame
import proofs.«126819_j68247030334372_2_alg».proof.Proof.AttnGrid
import Idealize.ShloMosaic.Lib.Pipeline.Value
import Idealize.ShloMosaic.Lib.ValueIdx

set_option maxRecDepth 16384

noncomputable section

namespace Cert.AttnCover

open Cert.KernelIdeal Cert.KernelIdeal.Gen Idealize.ShloMosaic Idealize.ShloMosaic.TcCoe Idealize.ShloMosaic.ValueIdx Idealize.SL.Sem
open Idealize.ShloMosaic.Pipeline (Dat)
open Cert.AttnGrid

/-! ## The block index maps over the grid -/

/-- Point n writes block (n / 64, n mod 16, n / 16 mod 4, 0) of the first result and block (n / 64, n / 16 mod 4, 0) of the
    second. -/
theorem block_indices : ∀ t : Fin cfg1.N,
    win1_3.index t (0 : Fin 4) = t.val / 64 % 4 ∧ win1_3.index t (1 : Fin 4) = t.val % 16
    ∧ win1_3.index t (2 : Fin 4) = t.val / 16 % 4 ∧ win1_3.index t (3 : Fin 4) = 0
    ∧ win1_4.index t (0 : Fin 3) = t.val / 64 % 4 ∧ win1_4.index t (1 : Fin 3) = t.val / 16 % 4
    ∧ win1_4.index t (2 : Fin 3) = 0 :=
  (by decide +kernel : ∀ t : Fin grid1.N, _)

/-! ## A block's entry is the array's entry it stands for -/

/-- A 1 x 1 x 512 x 64 block A that holds, at (u, v, r, d), the value of G at (batch, head, 512 tile + r, d) of point n agrees
    with G at every array index i whose coordinates are the block's offsets plus the coordinates inside the block. -/
theorem attn_entry (A : S1x1x512x64.Idx → EReal) (G : S4x16x2048x64.Idx → EReal) (n : ℕ)
    (hA : ∀ (u v : Fin 1) (r : Fin 512) (d : Fin 64), A (ix4 u v r d) = G (ix4 (batchOf n) (headAt n) (timeOf (tileOf n) r) d))
    (y : S1x1x512x64.Idx) (i : S4x16x2048x64.Idx)
    (h0 : (i 0).val = n / 64 % 4 * 1 + 1 * (y 0).val) (h1 : (i 1).val = n % 16 * 1 + 1 * (y 1).val)
    (h2 : (i 2).val = n / 16 % 4 * 512 + 1 * (y 2).val) (h3 : (i 3).val = 0 * 64 + 1 * (y 3).val) :
    A y = G i := by
  have hy0 : (y 0).val < 1 := (y 0).isLt
  have hy1 : (y 1).val < 1 := (y 1).isLt
  refine (congrArg A (eq_ix4 y)).trans ((hA (y 0) (y 1) (y 2) (y 3)).trans (congrArg G (funext fun a => Fin.ext ?_)))
  match a with
  | ⟨0, _⟩ => show n / 64 % 4 = (i 0).val; omega
  | ⟨1, _⟩ => show n % 16 = (i 1).val; omega
  | ⟨2, _⟩ => show n / 16 % 4 * 512 + (y 2).val = (i 2).val; omega
  | ⟨3, _⟩ => show (y 3).val = (i 3).val; omega

/-- A 1 x 512 x 2048 block A that holds, at (u, r, s), the value of G at (batch, 512 tile + r, s) of point n agrees with G at
    every array index i whose coordinates are the block's offsets plus the coordinates inside the block. -/
theorem avg_entry (A : S1x512x2048.Idx → EReal) (G : S4x2048x2048.Idx → EReal) (n : ℕ)
    (hA : ∀ (u : Fin 1) (r : Fin 512) (s : Fin 2048), A (ix3 u r s) = G (ix3 (batchOf n) (timeOf (tileOf n) r) s))
    (y : S1x512x2048.Idx) (i : S4x2048x2048.Idx)
    (h0 : (i 0).val = n / 64 % 4 * 1 + 1 * (y 0).val) (h1 : (i 1).val = n / 16 % 4 * 512 + 1 * (y 1).val)
    (h2 : (i 2).val = 0 * 2048 + 1 * (y 2).val) :
    A y = G i := by
  have hy0 : (y 0).val < 1 := (y 0).isLt
  refine (congrArg A (eq_ix3 y)).trans ((hA (y 0) (y 1) (y 2)).trans (congrArg G (funext fun a => Fin.ext ?_)))
  match a with
  | ⟨0, _⟩ => show n / 64 % 4 = (i 0).val; omega
  | ⟨1, _⟩ => show n / 16 % 4 * 512 + (y 1).val = (i 1).val; omega
  | ⟨2, _⟩ => show (y 2).val = (i 2).val; omega

variable (V : (c : Dev nD) → (b : Ref sig .tc) → Buf (Elt Ideal) ((c : Thread nD τ).loc b))

/-! ## The attended values -/

/-- What point t writes back of the first result is block t of G. -/
theorem flushed_attn (c : Dev nD) (G : S4x16x2048x64.Idx → EReal)
    (hG : ∀ (t : Fin cfg1.N) (u v : Fin 1) (r : Fin 512) (d : Fin 64),
        ((dat1 (F := Ideal) V c).after 3 t : S1x1x512x64.Idx → EReal) (ix4 u v r d)
          = G (ix4 (batchOf t.val) (headAt t.val) (timeOf (tileOf t.val) r) d))
    (t : Fin cfg1.N) :
    (dat1 (F := Ideal) V c).flushed 3 t = ((cfg1.win 3).blk t).view.read (Elt Ideal) G := by
  show (cfg1.win 3).cut (grid1.coords t) ((dat1 (F := Ideal) V c).after 3 t) = _
  funext j
  obtain ⟨a0, a1, a2, a3, -⟩ := block_indices t
  show ((dat1 (F := Ideal) V c).after 3 t : S1x1x512x64.Idx → EReal) ((win1 3).xinj (grid1.coords t) j)
    = G (((cfg1.win 3).blk t).view.emb j)
  refine attn_entry ((dat1 (F := Ideal) V c).after 3 t) G t.val (hG t) ((win1 3).xinj (grid1.coords t) j)
    (((cfg1.win 3).blk t).view.emb j) ?_ ?_ ?_ ?_
  · show win1_3.index t (0 : Fin 4) * 1 + 1 * (j 0).val = t.val / 64 % 4 * 1 + 1 * (j 0).val
    rw [a0]
  · show win1_3.index t (1 : Fin 4) * 1 + 1 * (j 1).val = t.val % 16 * 1 + 1 * (j 1).val
    rw [a1]
  · show win1_3.index t (2 : Fin 4) * 512 + 1 * (j 2).val = t.val / 16 % 4 * 512 + 1 * (j 2).val
    rw [a2]
  · show win1_3.index t (3 : Fin 4) * 64 + 1 * (j 3).val = 0 * 64 + 1 * (j 3).val
    rw [a3]

/-- An index of the first result is in point t's block iff each coordinate is in the block's range on its axis. -/
theorem mem_block_attn (t : Fin cfg1.N) (i : S4x16x2048x64.Idx) :
    i ∈ ((cfg1.win 3).blk t).view.set ↔ ∀ a : Fin 4, win1_3.index t a * S1x1x512x64.size a ≤ (i a).val ∧ (i a).val < win1_3.index t a * S1x1x512x64.size a + S1x1x512x64.size a := by
  show i ∈ ((View.whole main_v21_0).slice (win1_3.rect t)).set ↔ _
  rw [View.set_slice_whole, Rect.mem_set_unit]
  exact Iff.rfl

/-- Index (b, h, s, d) lies in the block of point 64 b + 16 (s / 512) + h. -/
theorem covered_attn (i : S4x16x2048x64.Idx) :
    ∃ t : Fin cfg1.N, (cfg1.win 3).flush t = true ∧ i ∈ ((cfg1.win 3).blk t).view.set := by
  have hi0 : (i 0).val < 4 := (i 0).isLt
  have hi1 : (i 1).val < 16 := (i 1).isLt
  have hi2 : (i 2).val < 2048 := (i 2).isLt
  have hi3 : (i 3).val < 64 := (i 3).isLt
  have hN : cfg1.N = 256 := N_1
  let t : Fin cfg1.N := ⟨(i 0).val * 64 + (i 2).val / 512 * 16 + (i 1).val, by rw [hN]; omega⟩
  have ht : t.val = (i 0).val * 64 + (i 2).val / 512 * 16 + (i 1).val := rfl
  obtain ⟨a0, a1, a2, a3, -⟩ := block_indices t
  refine ⟨t, flush1_3 t, ?_⟩
  rw [mem_block_attn]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 512 ≤ (i 2).val ∧ (i 2).val < win1_3.index t (2 : Fin 4) * 512 + 512; omega
  | ⟨3, _⟩ => show win1_3.index t (3 : Fin 4) * 64 ≤ (i 3).val ∧ (i 3).val < win1_3.index t (3 : Fin 4) * 64 + 64; omega

/-- The first result array ends holding G, if after every point its buffer holds G's values at the point's batch, head and
    query tile. -/
theorem final_attn (c : Dev nD) (G : S4x16x2048x64.Idx → EReal)
    (hG : ∀ (t : Fin cfg1.N) (u v : Fin 1) (r : Fin 512) (d : Fin 64),
        ((dat1 (F := Ideal) V c).after 3 t : S1x1x512x64.Idx → EReal) (ix4 u v r d)
          = G (ix4 (batchOf t.val) (headAt t.val) (timeOf (tileOf t.val) r) d)) :
    (dat1 (F := Ideal) V c).arrAt 3 cfg1.N = G :=
  (dat1 (F := Ideal) V c).arrAt_eq_of_cover 3 G (fun t _ => flushed_attn V c G hG t) covered_attn

/-! ## The averaged weights -/

/-- What a point of the last head writes back of the second result is its block of G. -/
theorem flushed_avg (c : Dev nD) (G : S4x2048x2048.Idx → EReal)
    (hG : ∀ (t : Fin cfg1.N), t.val % 16 = 15 → ∀ (u : Fin 1) (r : Fin 512) (s : Fin 2048),
        ((dat1 (F := Ideal) V c).after 4 t : S1x512x2048.Idx → EReal) (ix3 u r s)
          = G (ix3 (batchOf t.val) (timeOf (tileOf t.val) r) s))
    (t : Fin cfg1.N) (hf : (cfg1.win 4).flush t = true) :
    (dat1 (F := Ideal) V c).flushed 4 t = ((cfg1.win 4).blk t).view.read (Elt Ideal) G := by
  have hlast : t.val % 16 = 15 := (flush1_4 t).mp hf
  show (cfg1.win 4).cut (grid1.coords t) ((dat1 (F := Ideal) V c).after 4 t) = _
  funext j
  obtain ⟨-, -, -, -, a4, a5, a6⟩ := block_indices t
  show ((dat1 (F := Ideal) V c).after 4 t : S1x512x2048.Idx → EReal) ((win1 4).xinj (grid1.coords t) j)
    = G (((cfg1.win 4).blk t).view.emb j)
  refine avg_entry ((dat1 (F := Ideal) V c).after 4 t) G t.val (hG t hlast) ((win1 4).xinj (grid1.coords t) j)
    (((cfg1.win 4).blk t).view.emb j) ?_ ?_ ?_
  · show win1_4.index t (0 : Fin 3) * 1 + 1 * (j 0).val = t.val / 64 % 4 * 1 + 1 * (j 0).val
    rw [a4]
  · show win1_4.index t (1 : Fin 3) * 512 + 1 * (j 1).val = t.val / 16 % 4 * 512 + 1 * (j 1).val
    rw [a5]
  · show win1_4.index t (2 : Fin 3) * 2048 + 1 * (j 2).val = 0 * 2048 + 1 * (j 2).val
    rw [a6]

/-- An index of the second result is in point t's block iff each coordinate is in the block's range on its axis. -/
theorem mem_block_avg (t : Fin cfg1.N) (i : S4x2048x2048.Idx) :
    i ∈ ((cfg1.win 4).blk t).view.set ↔ ∀ a : Fin 3, win1_4.index t a * S1x512x2048.size a ≤ (i a).val ∧ (i a).val < win1_4.index t a * S1x512x2048.size a + S1x512x2048.size a := by
  show i ∈ ((View.whole main_v21_1).slice (win1_4.rect t)).set ↔ _
  rw [View.set_slice_whole, Rect.mem_set_unit]
  exact Iff.rfl

/-- Index (b, s, s') lies in the block of point 64 b + 16 (s / 512) + 15, a point of the last head. -/
theorem covered_avg (i : S4x2048x2048.Idx) :
    ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 2048 := (i 2).isLt
  have hN : cfg1.N = 256 := N_1
  let t : Fin cfg1.N := ⟨(i 0).val * 64 + (i 1).val / 512 * 16 + 15, by rw [hN]; omega⟩
  have ht : t.val = (i 0).val * 64 + (i 1).val / 512 * 16 + 15 := rfl
  obtain ⟨-, -, -, -, a4, a5, a6⟩ := block_indices t
  refine ⟨t, (flush1_4 t).mpr (by omega), ?_⟩
  rw [mem_block_avg]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 2048 ≤ (i 2).val ∧ (i 2).val < win1_4.index t (2 : Fin 3) * 2048 + 2048; omega

/-- The second result array ends holding G, if after every point of the last head its buffer holds G's values at the point's
    batch and query tile. -/
theorem final_avg (c : Dev nD) (G : S4x2048x2048.Idx → EReal)
    (hG : ∀ (t : Fin cfg1.N), t.val % 16 = 15 → ∀ (u : Fin 1) (r : Fin 512) (s : Fin 2048),
        ((dat1 (F := Ideal) V c).after 4 t : S1x512x2048.Idx → EReal) (ix3 u r s)
          = G (ix3 (batchOf t.val) (timeOf (tileOf t.val) r) s)) :
    (dat1 (F := Ideal) V c).arrAt 4 cfg1.N = G :=
  (dat1 (F := Ideal) V c).arrAt_eq_of_cover 4 G (flushed_avg V c G hG) covered_avg

end Cert.AttnCover

end
-- ==== Proof.HostGlue.lean ====
/-
  The host operations between the kernel program's three regions, read at an index.

  Between its regions the program only rearranges arrays (reshapes, transposes, slices) and, before the first region,
  folds the query's factor into the projection's weight and bias. Each statement below reads one result array of one
  stretch of such operations at explicit coordinates, as the contents of the arrays the stretch reads, for arbitrary
  contents before the stretch.
-/
import proofs.«126819_j68247030334372_2_alg».proof.Proof.Gen.KernelIdeal.Launch
import proofs.«126819_j68247030334372_2_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.HostGlue

open Cert.KernelIdeal Cert.KernelIdeal.Gen Idealize.ShloMosaic Idealize.ShloMosaic.ValueIdx
open Idealize.ShloMosaic.TcCoe Idealize.SL.Sem Idealize.ShloMosaic.StableHlo

/-- Splitting the flattened (time, batch) axis back into its two axes: entry (t, b, f) is row t·4 + b. -/
theorem unflatten_apply {α : Type} (A : S8192x1024.Idx → α) (h : S8192x1024.ShapeCasts S2048x4x1024)
    (t : Fin 2048) (b : Fin 4) (f : Fin 1024) :
    shapeCast S2048x4x1024 A h (ix3 t b f) = A (ix2 (Cert.Spec.row t b) f) := by
  refine shapeCast_apply A h (ix3 t b f) (ix2 (Cert.Spec.row t b) f) ?_
  rewrite [Shape.rowMajor_val_two, Shape.rowMajor_val_three]
  rfl

/-- After the last region: the result (t, b, f) is row t·4 + b of the output projection's array. -/
theorem a3 (W : Valuation τ sig (Elt Ideal)) (t : Fin 2048) (b : Fin 4) (f : Fin 1024) :
    (StableHlo.after hostOps3 W (Proc.devRef .tc main_v28) : S2048x4x1024.Idx → EReal) (ix3 t b f)
      = (W (Proc.devRef .tc main_v27) : S8192x1024.Idx → EReal) (ix2 (Cert.Spec.row t b) f) := by
  have e : (StableHlo.after hostOps3 W (Proc.devRef .tc main_v28) : S2048x4x1024.Idx → EReal)
      = shapeCast S2048x4x1024 (W (Proc.devRef .tc main_v27) : S8192x1024.Idx → EReal) shapeCasts_S8192x1024_S2048x4x1024 := by
    simp only [hostOps3]; after_results; rfl
  rw [e]; exact unflatten_apply _ _ t b f

/-- Flattening (time, batch) into one axis: row t·4 + b is entry (t, b, ·). -/
theorem flatten_apply {α : Type} (A : S2048x4x1024.Idx → α) (h : S2048x4x1024.ShapeCasts S8192x1024)
    (t : Fin 2048) (b : Fin 4) (e : Fin 1024) :
    shapeCast S8192x1024 A h (ix2 (Cert.Spec.row t b) e) = A (ix3 t b e) := by
  refine shapeCast_apply A h (ix2 (Cert.Spec.row t b) e) (ix3 t b e) ?_
  rewrite [Shape.rowMajor_val_two, Shape.rowMajor_val_three]
  rfl

/-- Laying the 16 heads of 64 features side by side: feature e is head e / 64 at position e % 64. -/
theorem mergeHeads_apply {α : Type} (A : S2048x4x16x64.Idx → α) (h : S2048x4x16x64.ShapeCasts S2048x4x1024)
    (t : Fin 2048) (b : Fin 4) (e : Fin 1024) :
    shapeCast S2048x4x1024 A h (ix3 t b e) = A (ix4 t b (Cert.Spec.headOf e) (Cert.Spec.dimOf e)) := by
  refine shapeCast_apply A h (ix3 t b e) (ix4 t b (Cert.Spec.headOf e) (Cert.Spec.dimOf e)) ?_
  rewrite [Shape.rowMajor_val_three, Shape.rowMajor_val_four]
  have ht := t.isLt; have hb := b.isLt; have he := e.isLt
  show ((t.val * 4 + b.val) * 16 + e.val / 64) * 64 + e.val % 64 = (t.val * 4 + b.val) * 1024 + e.val
  omega

/-- Moving the time axis to the front of a (batch, head, time, feature) array. -/
theorem timeFirst_apply {α : Type} (A : S4x16x2048x64.Idx → α) (h : S4x16x2048x64.Transposes [2, 0, 1, 3] S2048x4x16x64)
    (t : Fin 2048) (b : Fin 4) (hd : Fin 16) (d : Fin 64) :
    transpose S2048x4x16x64 [2, 0, 1, 3] A h (ix4 t b hd d) = A (ix4 b hd t d) :=
  transpose_apply [2, 0, 1, 3] A h (ix4 t b hd d) (ix4 b hd t d) (fun a => match a with
    | ⟨0, _⟩ => rfl
    | ⟨1, _⟩ => rfl
    | ⟨2, _⟩ => rfl
    | ⟨3, _⟩ => rfl)

/-- A matrix transpose read at an index. -/
theorem swap_apply {α : Type} {m n : Nat} (A : (⟨2, ![m, n]⟩ : Shape).Idx → α)
    (h : (⟨2, ![m, n]⟩ : Shape).Transposes [1, 0] ⟨2, ![n, m]⟩) (i : Fin n) (j : Fin m) :
    transpose ⟨2, ![n, m]⟩ [1, 0] A h (ix2 i j) = A (ix2 j i) :=
  transpose_apply [1, 0] A h (ix2 i j) (ix2 j i) (fun a => match a with
    | ⟨0, _⟩ => rfl
    | ⟨1, _⟩ => rfl)

/-- Before the last region: row t·4 + b of the projection's left operand is the attended values of batch b at time t, heads side by side. -/
theorem a2 (W : Valuation τ sig (Elt Ideal)) (t : Fin 2048) (b : Fin 4) (e : Fin 1024) :
    (StableHlo.after hostOps2 W (Proc.devRef .tc main_v24) : S8192x1024.Idx → EReal) (ix2 (Cert.Spec.row t b) e)
      = (W (Proc.devRef .tc main_v21_0) : S4x16x2048x64.Idx → EReal) (ix4 b (Cert.Spec.headOf e) t (Cert.Spec.dimOf e)) := by
  have e' : (StableHlo.after hostOps2 W (Proc.devRef .tc main_v24) : S8192x1024.Idx → EReal)
      = shapeCast S8192x1024 (shapeCast S2048x4x1024 (transpose S2048x4x16x64 [2, 0, 1, 3]
          (W (Proc.devRef .tc main_v21_0) : S4x16x2048x64.Idx → EReal) transposes_S4x16x2048x64_S2048x4x16x64_2_0_1_3)
          shapeCasts_S2048x4x16x64_S2048x4x1024) shapeCasts_S2048x4x1024_S8192x1024 := by
    simp only [hostOps2]; after_results <;> rfl
  rw [e', flatten_apply, mergeHeads_apply, timeFirst_apply]

/-- Before the last region: the projection's right operand is the output weight transposed (the narrowing of its words is the identity on the extended reals). -/
theorem b2 (W : Valuation τ sig (Elt Ideal)) (e f : Fin 1024) :
    (StableHlo.after hostOps2 W (Proc.devRef .tc main_v26) : S1024x1024.Idx → EReal) (ix2 e f)
      = (W (Proc.devRef .tc main_arg3) : S1024x1024.Idx → EReal) (ix2 f e) := by
  have e' : (StableHlo.after hostOps2 W (Proc.devRef .tc main_v26) : S1024x1024.Idx → EReal)
      = truncf (F := Ideal) .bf16 (transpose S1024x1024 [1, 0]
          (W (Proc.devRef .tc main_arg3) : S1024x1024.Idx → EReal) transposes_S1024x1024_S1024x1024_1_0) bitsLt_bf16_f32 := by
    simp only [hostOps2]; after_results <;> rfl
  rw [e', truncf_apply]
  exact swap_apply _ _ e f

/-- Moving the time axis behind (batch, head) in a (time, batch, head, feature) array. -/
theorem headFirst_apply {α : Type} (A : S2048x4x16x64.Idx → α) (h : S2048x4x16x64.Transposes [1, 2, 0, 3] S4x16x2048x64)
    (b : Fin 4) (hd : Fin 16) (t : Fin 2048) (d : Fin 64) :
    transpose S4x16x2048x64 [1, 2, 0, 3] A h (ix4 b hd t d) = A (ix4 t b hd d) :=
  transpose_apply [1, 2, 0, 3] A h (ix4 b hd t d) (ix4 t b hd d) (fun a => match a with
    | ⟨0, _⟩ => rfl
    | ⟨1, _⟩ => rfl
    | ⟨2, _⟩ => rfl
    | ⟨3, _⟩ => rfl)

/-- Dropping the unit axis left by the slice of one part. -/
theorem dropPart_apply {α : Type} (A : S2048x4x1x16x64.Idx → α) (h : S2048x4x1x16x64.ShapeCasts S2048x4x16x64)
    (t : Fin 2048) (b : Fin 4) (hd : Fin 16) (d : Fin 64) :
    shapeCast S2048x4x16x64 A h (ix4 t b hd d) = A (ix5 t b (0 : Fin 1) hd d) := by
  refine shapeCast_apply A h (ix4 t b hd d) (ix5 t b (0 : Fin 1) hd d) ?_
  rewrite [Shape.rowMajor_val_four, Shape.rowMajor_val_five]
  show (((t.val * 4 + b.val) * 1 + 0) * 16 + hd.val) * 64 + d.val = ((t.val * 4 + b.val) * 16 + hd.val) * 64 + d.val
  omega

/-- The slice of part j along the (query, key, value) axis. -/
theorem slicePart_apply {α : Type} (A : S2048x4x3x16x64.Idx → α) (j : Fin 3) (off : Fin S2048x4x3x16x64.rank → Nat)
    (h0 : off 0 = 0) (h1 : off 1 = 0) (h2 : off 2 = j.val) (h3 : off 3 = 0) (h4 : off 4 = 0)
    (h : S2048x4x3x16x64.Slices off S2048x4x1x16x64) (t : Fin 2048) (b : Fin 4) (hd : Fin 16) (d : Fin 64) :
    extractStridedSlice S2048x4x1x16x64 off A h (ix5 t b (0 : Fin 1) hd d) = A (ix5 t b j hd d) :=
  extractStridedSlice_apply off A h (ix5 t b (0 : Fin 1) hd d) (ix5 t b j hd d) (fun a => match a with
    | ⟨0, _⟩ => by show t.val = off 0 + t.val; omega
    | ⟨1, _⟩ => by show b.val = off 1 + b.val; omega
    | ⟨2, _⟩ => by show j.val = off 2 + 0; omega
    | ⟨3, _⟩ => by show hd.val = off 3 + hd.val; omega
    | ⟨4, _⟩ => by show d.val = off 4 + d.val; omega)

/-- Splitting the fused projection axis into (part, head, feature) and the rows into (time, batch). -/
theorem splitCols_apply {α : Type} (A : S8192x3072.Idx → α) (h : S8192x3072.ShapeCasts S2048x4x3x16x64)
    (t : Fin 2048) (b : Fin 4) (j : Fin 3) (hd : Fin 16) (d : Fin 64) :
    shapeCast S2048x4x3x16x64 A h (ix5 t b j hd d) = A (ix2 (Cert.Spec.row t b) (Cert.Spec.col j hd d)) := by
  refine shapeCast_apply A h (ix5 t b j hd d) (ix2 (Cert.Spec.row t b) (Cert.Spec.col j hd d)) ?_
  rewrite [Shape.rowMajor_val_two, Shape.rowMajor_val_five]
  show (t.val * 4 + b.val) * 3072 + (j.val * 1024 + hd.val * 64 + d.val)
    = ((((t.val * 4 + b.val) * 3 + j.val) * 16 + hd.val) * 64 + d.val)
  omega

/-- Part j of the projection split into heads: entry (b, h, t, d) is row t·4 + b, column j·1024 + h·64 + d. -/
theorem headsCast {α : Type} (A : S8192x3072.Idx → α) (j : Fin 3) (off : Fin S2048x4x3x16x64.rank → Nat)
    (h0 : off 0 = 0) (h1 : off 1 = 0) (h2 : off 2 = j.val) (h3 : off 3 = 0) (h4 : off 4 = 0)
    (hc : S8192x3072.ShapeCasts S2048x4x3x16x64) (hs : S2048x4x3x16x64.Slices off S2048x4x1x16x64)
    (hu : S2048x4x1x16x64.ShapeCasts S2048x4x16x64) (ht : S2048x4x16x64.Transposes [1, 2, 0, 3] S4x16x2048x64)
    (b : Fin 4) (hd : Fin 16) (t : Fin 2048) (d : Fin 64) :
    transpose S4x16x2048x64 [1, 2, 0, 3] (shapeCast S2048x4x16x64 (extractStridedSlice S2048x4x1x16x64 off
        (shapeCast S2048x4x3x16x64 A hc) hs) hu) ht (ix4 b hd t d)
      = A (ix2 (Cert.Spec.row t b) (Cert.Spec.col j hd d)) := by
  rw [headFirst_apply, dropPart_apply, slicePart_apply _ j off h0 h1 h2 h3 h4, splitCols_apply]

/-- Before the middle region: the query array is part 0 of the fused projection, split into heads. -/
theorem a1_q (W : Valuation τ sig (Elt Ideal)) (b : Fin 4) (h : Fin 16) (t : Fin 2048) (d : Fin 64) :
    (StableHlo.after hostOps1 W (Proc.devRef .tc main_v14) : S4x16x2048x64.Idx → EReal) (ix4 b h t d)
      = (W (Proc.devRef .tc main_v10) : S8192x3072.Idx → EReal) (ix2 (Cert.Spec.row t b) (Cert.Spec.col 0 h d)) := by
  have e' : (StableHlo.after hostOps1 W (Proc.devRef .tc main_v14) : S4x16x2048x64.Idx → EReal)
      = transpose S4x16x2048x64 [1, 2, 0, 3] (shapeCast S2048x4x16x64 (extractStridedSlice S2048x4x1x16x64 ![0, 0, 0, 0, 0]
          (shapeCast S2048x4x3x16x64 (W (Proc.devRef .tc main_v10) : S8192x3072.Idx → EReal) shapeCasts_S8192x3072_S2048x4x3x16x64)
          slices_S2048x4x3x16x64_S2048x4x1x16x64_0_0_0_0_0) shapeCasts_S2048x4x1x16x64_S2048x4x16x64)
          transposes_S2048x4x16x64_S4x16x2048x64_1_2_0_3 := by
    simp only [hostOps1]; after_results <;> rfl
  rw [e']
  exact headsCast _ 0 _ rfl rfl rfl rfl rfl _ _ _ _ b h t d

/-- Before the middle region: the key array is part 1 of the fused projection, split into heads. -/
theorem a1_k (W : Valuation τ sig (Elt Ideal)) (b : Fin 4) (h : Fin 16) (t : Fin 2048) (d : Fin 64) :
    (StableHlo.after hostOps1 W (Proc.devRef .tc main_v17) : S4x16x2048x64.Idx → EReal) (ix4 b h t d)
      = (W (Proc.devRef .tc main_v10) : S8192x3072.Idx → EReal) (ix2 (Cert.Spec.row t b) (Cert.Spec.col 1 h d)) := by
  have e' : (StableHlo.after hostOps1 W (Proc.devRef .tc main_v17) : S4x16x2048x64.Idx → EReal)
      = transpose S4x16x2048x64 [1, 2, 0, 3] (shapeCast S2048x4x16x64 (extractStridedSlice S2048x4x1x16x64 ![0, 0, 1, 0, 0]
          (shapeCast S2048x4x3x16x64 (W (Proc.devRef .tc main_v10) : S8192x3072.Idx → EReal) shapeCasts_S8192x3072_S2048x4x3x16x64)
          slices_S2048x4x3x16x64_S2048x4x1x16x64_0_0_1_0_0) shapeCasts_S2048x4x1x16x64_S2048x4x16x64)
          transposes_S2048x4x16x64_S4x16x2048x64_1_2_0_3 := by
    simp only [hostOps1]; after_results <;> rfl
  rw [e']
  exact headsCast _ 1 _ rfl rfl rfl rfl rfl _ _ _ _ b h t d

/-- Before the middle region: the value array is part 2 of the fused projection, split into heads. -/
theorem a1_v (W : Valuation τ sig (Elt Ideal)) (b : Fin 4) (h : Fin 16) (t : Fin 2048) (d : Fin 64) :
    (StableHlo.after hostOps1 W (Proc.devRef .tc main_v20) : S4x16x2048x64.Idx → EReal) (ix4 b h t d)
      = (W (Proc.devRef .tc main_v10) : S8192x3072.Idx → EReal) (ix2 (Cert.Spec.row t b) (Cert.Spec.col 2 h d)) := by
  have e' : (StableHlo.after hostOps1 W (Proc.devRef .tc main_v20) : S4x16x2048x64.Idx → EReal)
      = transpose S4x16x2048x64 [1, 2, 0, 3] (shapeCast S2048x4x16x64 (extractStridedSlice S2048x4x1x16x64 ![0, 0, 2, 0, 0]
          (shapeCast S2048x4x3x16x64 (W (Proc.devRef .tc main_v10) : S8192x3072.Idx → EReal) shapeCasts_S8192x3072_S2048x4x3x16x64)
          slices_S2048x4x3x16x64_S2048x4x1x16x64_0_0_2_0_0) shapeCasts_S2048x4x1x16x64_S2048x4x16x64)
          transposes_S2048x4x16x64_S4x16x2048x64_1_2_0_3 := by
    simp only [hostOps1]; after_results <;> rfl
  rw [e']
  exact headsCast _ 2 _ rfl rfl rfl rfl rfl _ _ _ _ b h t d

/-- The vector of column factors: the word of 1/8 on the 1024 query columns, then the word of 1 on the 2048 others. -/
def scaleVec : FVec Ideal S3072 .f32 :=
  concatenate S3072 0
    [⟨S1024, broadcastInDim S1024 ![] bcast_S_S1024 (constant (F := Ideal) S_ .f32 0x3E000000#32)⟩,
     ⟨S2048, broadcastInDim S2048 ![] bcast_S_S2048 (constant (F := Ideal) S_ .f32 0x3F800000#32)⟩]
    concatenates_S1024_S2048_S3072_d0

/-- Column f's factor: a column below 1024 falls in the first piece, any other in the second. -/
theorem scaleVec_apply (f : Fin 3072) : scaleVec (ix1 f) = Cert.Spec.scaleAt f := by
  unfold scaleVec Cert.Spec.scaleAt
  by_cases hf : f.val < 1024
  · rw [if_pos hf]
    refine (concatenate_pair_apply_left (0 : Fin S3072.rank) _ _ concatenates_S1024_S2048_S3072_d0 (ix1 f) rfl
      (ix1 (⟨f.val, hf⟩ : Fin 1024)) (fun a => match a with | ⟨0, _⟩ => rfl)).trans ?_
    rfl
  · rw [if_neg hf]
    have hf' := f.isLt
    refine (concatenate_pair_apply_right (0 : Fin S3072.rank) _ _ concatenates_S1024_S2048_S3072_d0 (ix1 f) rfl rfl
      (ix1 (⟨f.val - 1024, by omega⟩ : Fin 2048)) (fun a => match a with | ⟨0, _⟩ => fun hne => absurd rfl hne) ?_).trans ?_
    · show f.val - 1024 + 1024 = f.val
      omega
    · rfl

/-- A vector laid along the rows of a matrix: entry (f, e) is the vector's entry f. -/
theorem alongRows_apply {α : Type} (Z : S3072.Idx → α) (h1 : S3072.BroadcastsInDim S3072x1 (![0] : Fin 1 → Fin S3072x1.rank))
    (h2 : S3072x1.BroadcastsInDim S3072x1024 (![0, 1] : Fin 2 → Fin S3072x1024.rank)) (f : Fin 3072) (e : Fin 1024) :
    broadcastInDim S3072x1024 ![0, 1] h2 (broadcastInDim S3072x1 ![0] h1 Z) (ix2 f e) = Z (ix1 f) := by
  refine (broadcastInDim_apply _ h2 _ (ix2 f e) (ix2 f (0 : Fin 1)) (fun a => match a with
    | ⟨0, _⟩ => by show f.val = if (3072 : Nat) = 1 then 0 else f.val; rw [if_neg (by decide)]
    | ⟨1, _⟩ => by show 0 = if (1 : Nat) = 1 then 0 else e.val; rw [if_pos rfl])).trans ?_
  exact broadcastInDim_apply _ h1 Z (ix2 f (0 : Fin 1)) (ix1 f) (fun a => match a with
    | ⟨0, _⟩ => by show f.val = if (3072 : Nat) = 1 then 0 else f.val; rw [if_neg (by decide)])

/-- Before the first region: row t·4 + b of the left operand is the activations at time t, batch b. -/
theorem a0 (W : Valuation τ sig (Elt Ideal)) (t : Fin 2048) (b : Fin 4) (e : Fin 1024) :
    (StableHlo.after hostOps0 W (Proc.devRef .tc main_v9) : S8192x1024.Idx → EReal) (ix2 (Cert.Spec.row t b) e)
      = (W (Proc.devRef .tc main_arg0) : S2048x4x1024.Idx → EReal) (ix3 t b e) := by
  have e' : (StableHlo.after hostOps0 W (Proc.devRef .tc main_v9) : S8192x1024.Idx → EReal)
      = shapeCast S8192x1024 (W (Proc.devRef .tc main_arg0) : S2048x4x1024.Idx → EReal) shapeCasts_S2048x4x1024_S8192x1024 := by
    simp only [hostOps0]; after_results <;> rfl
  rw [e', flatten_apply]

/-- Before the first region: the right operand is the input weight with each column's factor folded in, transposed. -/
theorem b0 (W : Valuation τ sig (Elt Ideal)) (e : Fin 1024) (f : Fin 3072) :
    (StableHlo.after hostOps0 W (Proc.devRef .tc main_v8) : S1024x3072.Idx → EReal) (ix2 e f)
      = HMul.hMul (α := EReal) (β := EReal) (γ := EReal)
          ((W (Proc.devRef .tc main_arg1) : S3072x1024.Idx → EReal) (ix2 f e)) (Cert.Spec.scaleAt f) := by
  have e' : (StableHlo.after hostOps0 W (Proc.devRef .tc main_v8) : S1024x3072.Idx → EReal)
      = truncf (F := Ideal) .bf16 (transpose S1024x3072 [1, 0]
          (mulf (F := Ideal) (W (Proc.devRef .tc main_arg1) : S3072x1024.Idx → EReal)
            (broadcastInDim S3072x1024 ![0, 1] bcast_S3072x1_S3072x1024_0_1 (broadcastInDim S3072x1 ![0] bcast_S3072_S3072x1_0 scaleVec)))
          transposes_S3072x1024_S1024x3072_1_0) bitsLt_bf16_f32 := by
    simp only [hostOps0]; after_results <;> rfl
  rw [e', truncf_apply, swap_apply, mulf_apply, alongRows_apply, scaleVec_apply]

/-- Before the first region: the bias with each column's factor folded in. -/
theorem c0 (W : Valuation τ sig (Elt Ideal)) (f : Fin 3072) :
    (StableHlo.after hostOps0 W (Proc.devRef .tc main_v6) : S3072.Idx → EReal) (ix1 f)
      = HMul.hMul (α := EReal) (β := EReal) (γ := EReal)
          ((W (Proc.devRef .tc main_arg2) : S3072.Idx → EReal) (ix1 f)) (Cert.Spec.scaleAt f) := by
  have e' : (StableHlo.after hostOps0 W (Proc.devRef .tc main_v6) : S3072.Idx → EReal)
      = mulf (F := Ideal) (s := S3072) (φ := .f32) (W (Proc.devRef .tc main_arg2) : S3072.Idx → EReal) scaleVec := by
    simp only [hostOps0]; after_results <;> rfl
  rw [e', mulf_apply, scaleVec_apply]

end Cert.HostGlue

end
-- ==== Proof.ProjIn.lean ====
/-
  The input projection, from blocks of rows to the whole array.

  The array of 8192 rows (time and batch flattened) by 1024 features is cut into 16 blocks of 512 rows. For each block the
  kernel forms the product of the block with the whole 1024 x 3072 weight matrix, accumulated from zero, and adds the bias
  vector to every row; the 512 x 3072 result is block t of the output. On the extended reals a change of float format is the
  identity, so entry (p, f) of the block's result is

      (∑ e, x (512 t + p, e) · w (e, f)) + β f ,

  which is entry (512 t + p, f) of x · w + β. Row r of the output lies in block r / 512, the blocks cover the array, and so the
  array ends holding x · w + β at every index.
-/
import proofs.«126819_j68247030334372_2_alg».proof.Proof.Gen.KernelIdeal.Frame
import proofs.«126819_j68247030334372_2_alg».proof.Proof.Spec
import proofs.«126819_j68247030334372_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ProjIn

open Cert.KernelIdeal Cert.KernelIdeal.Gen Idealize.ShloMosaic Idealize.ShloMosaic.TcCoe Idealize.ShloMosaic.ValueIdx Idealize.SL.Sem
open Idealize.ShloMosaic.Pipeline (Dat)

/-! ## The product's dimension numbers: the left operand's second axis against the right operand's first -/

theorem lhs_row (i : S512x3072.Idx) (q : (dot_S512x1024_S1024x3072_S512x3072_1_0_0_1_n_n).contr.Idx) :
    ((dot_S512x1024_S1024x3072_S512x3072_1_0_0_1_n_n).lhsIdx i q (0 : Fin 2)).val = (i (0 : Fin 2)).val := by
  unfold DotDims.lhsIdx
  rw [dif_neg (show ¬(0 : Fin S512x1024.rank) ∈ (dot_S512x1024_S1024x3072_S512x3072_1_0_0_1_n_n).lhsBatch by decide), dif_pos (show (0 : Fin S512x1024.rank) ∈ (dot_S512x1024_S1024x3072_S512x3072_1_0_0_1_n_n).lhsNonContracting by decide)]
  rfl
theorem lhs_contr (i : S512x3072.Idx) (q : (dot_S512x1024_S1024x3072_S512x3072_1_0_0_1_n_n).contr.Idx) :
    ((dot_S512x1024_S1024x3072_S512x3072_1_0_0_1_n_n).lhsIdx i q (1 : Fin 2)).val = (q ⟨0, by decide⟩).val :=
  (dot_S512x1024_S1024x3072_S512x3072_1_0_0_1_n_n).lhsIdx_val_of_single rfl i q
theorem rhs_contr (i : S512x3072.Idx) (q : (dot_S512x1024_S1024x3072_S512x3072_1_0_0_1_n_n).contr.Idx) :
    ((dot_S512x1024_S1024x3072_S512x3072_1_0_0_1_n_n).rhsIdx i q (0 : Fin 2)).val = (q ⟨0, by decide⟩).val :=
  (dot_S512x1024_S1024x3072_S512x3072_1_0_0_1_n_n).rhsIdx_val_of_single rfl i q
theorem rhs_col (i : S512x3072.Idx) (q : (dot_S512x1024_S1024x3072_S512x3072_1_0_0_1_n_n).contr.Idx) :
    ((dot_S512x1024_S1024x3072_S512x3072_1_0_0_1_n_n).rhsIdx i q (1 : Fin 2)).val = (i (1 : Fin 2)).val := by
  unfold DotDims.rhsIdx
  rw [dif_neg (show ¬(1 : Fin S1024x3072.rank) ∈ (dot_S512x1024_S1024x3072_S512x3072_1_0_0_1_n_n).rhsBatch by decide), dif_pos (show (1 : Fin S1024x3072.rank) ∈ (dot_S512x1024_S1024x3072_S512x3072_1_0_0_1_n_n).rhsNonContracting by decide)]
  rfl

/-! ## One block's result at an entry -/

/-- A sum of two arrays narrowed to the shorter format reads, at an index, the sum of the two entries. -/
theorem trunc_add_apply (A B : FVec Ideal S512x3072 .f32) (h : FTy.bf16.bits < FTy.f32.bits) (i : S512x3072.Idx) :
    (truncf .bf16 (addf A B) h : FVec Ideal S512x3072 .bf16) i = A i + B i := rfl

/-- Entry (p, f) of a block's result: row p of the block against column f of the weight, plus the bias at f. -/
theorem block_entry (x0 : Vec Ideal S512x1024 .f32) (x1 : Vec Ideal S1024x3072 .bf16) (x2 : Vec Ideal S3072 .f32)
    (p : Fin 512) (f : Fin 3072) :
    k0_pay1 (F := Ideal) x0 x1 x2 (ix2 p f) = (∑ e : Fin 1024, x0 (ix2 p e) * x1 (ix2 e f)) + x2 (ix1 f) := by
  unfold k0_pay1
  refine (trunc_add_apply _ _ _ _).trans ?_
  refine congrArg₂ (· + ·) ?_ ?_
  · refine (Cert.Lib.PlainDot.matmul_zero_ix2 dot_S512x1024_S1024x3072_S512x3072_1_0_0_1_n_n rfl rfl lhs_row lhs_contr rhs_contr rhs_col none _ _ p f).trans ?_
    refine Finset.sum_congr rfl fun e _ => ?_
    refine congrArg₂ (· * ·) ?_ ?_
    · exact congrFun (shapeCast_self x0 _) _
    · exact congrFun (shapeCast_self x1 _) _
  · refine (broadcastTo_1b_ab_apply _ _ p f).trans ?_
    refine (shapeCast_a_1a_apply _ _ (0 : Fin 1) f).trans ?_
    exact congrFun (shapeCast_self x2 _) _

/-! ## The blocks of the three operands and of the result -/

theorem zero_offsets : (![0, 0] : Fin 2 → Nat) = fun _ => 0 := funext fun a => by fin_cases a <;> rfl
theorem zero_offset : (![0] : Fin 1 → Nat) = fun _ => 0 := funext fun a => by fin_cases a <;> rfl

/-- The block index maps over the grid: point t takes block row t of the row operand and of the result, and the one block of
    the weight and of the bias. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- A block's result is the rows of x · w + β it stands for: if the block of the row operand holds rows 512 n + p of an array
    X, and the other two blocks are the whole of W and of B, then the block's entry y is the entry of X · W + B at any index
    i with i 0 = 512 n + y 0 and i 1 = y 1. -/
theorem block_is_rows (X : S8192x1024.Idx → EReal) (W : S1024x3072.Idx → EReal) (B : S3072.Idx → EReal)
    (x0 : Vec Ideal S512x1024 .f32) (x1 : Vec Ideal S1024x3072 .bf16) (x2 : Vec Ideal S3072 .f32) (n : ℕ)
    (h0 : ∀ (p : Fin 512) (e : Fin 1024) (r : Fin 8192), r.val = n * 512 + p.val → x0 (ix2 p e) = X (ix2 r e))
    (h1 : ∀ (e : Fin 1024) (f : Fin 3072), x1 (ix2 e f) = W (ix2 e f))
    (h2 : ∀ f : Fin 3072, x2 (ix1 f) = B (ix1 f))
    (y : S512x3072.Idx) (i : S8192x3072.Idx) (hi0 : (i 0).val = n * 512 + (y 0).val) (hi1 : (i 1).val = (y 1).val) :
    k0_pay1 (F := Ideal) x0 x1 x2 y
      = Cert.Spec.mmb (fun (r : Fin 8192) (e : Fin 1024) => X (ix2 r e)) (fun (e : Fin 1024) (f : Fin 3072) => W (ix2 e f))
          (fun (f : Fin 3072) => B (ix1 f)) (i 0) (i 1) := by
  obtain ⟨p, f, rfl⟩ : ∃ (p : Fin 512) (f : Fin 3072), y = ix2 p f := ⟨y 0, y 1, eq_ix2 y⟩
  have ef : (i 1 : Fin 3072) = f := Fin.ext hi1
  rw [block_entry]
  unfold Cert.Spec.mmb
  rw [ef]
  refine congrArg₂ (· + ·) (Finset.sum_congr rfl fun e _ => congrArg₂ (· * ·) (h0 p e (i 0) hi0) (h1 e f)) (h2 f)

variable (V : (c : Dev nD) → (b : Ref sig .tc) → Buf (Elt Ideal) ((c : Thread nD τ).loc b))

/-- Block t of the row operand is rows 512 t … 512 t + 511 of its array. -/
theorem rows_block (c : Dev nD) (t : Fin cfg0.N) (p : Fin 512) (e : Fin 1024) (r : Fin 8192) (hr : r.val = t.val * 512 + p.val) :
    (iblk0 (F := Ideal) V c 0 t : Vec Ideal S512x1024 .f32) (ix2 p e) = (V c main_v9 : S8192x1024.Idx → EReal) (ix2 r e) := by
  obtain ⟨a0, a1, -⟩ := block_indices t
  show (V c main_v9 : S8192x1024.Idx → EReal) (((cfg0.win 0).blk t).view.emb (ix2 p e)) = _
  refine congrArg _ (funext fun a => Fin.ext ?_)
  match a with
  | ⟨0, _⟩ => show win0_0.index t (0 : Fin 2) * 512 + 1 * p.val = r.val; omega
  | ⟨1, _⟩ => show win0_0.index t (1 : Fin 2) * 1024 + 1 * e.val = e.val; omega

/-- The weight's one block is the whole weight matrix. -/
theorem weight_block (c : Dev nD) (t : Fin cfg0.N) (e : Fin 1024) (f : Fin 3072) :
    (iblk0 (F := Ideal) V c 1 t : Vec Ideal S1024x3072 .bf16) (ix2 e f) = (V c main_v8 : S1024x3072.Idx → EReal) (ix2 e f) := by
  obtain ⟨-, -, a2, a3, -⟩ := block_indices t
  show (V c main_v8 : S1024x3072.Idx → EReal) (((cfg0.win 1).blk t).view.emb (ix2 e f)) = _
  refine congrArg _ (funext fun a => Fin.ext ?_)
  match a with
  | ⟨0, _⟩ => show win0_1.index t (0 : Fin 2) * 1024 + 1 * e.val = e.val; omega
  | ⟨1, _⟩ => show win0_1.index t (1 : Fin 2) * 3072 + 1 * f.val = f.val; omega

/-- The bias's one block is the whole bias vector. -/
theorem bias_block (c : Dev nD) (t : Fin cfg0.N) (f : Fin 3072) :
    (iblk0 (F := Ideal) V c 2 t : Vec Ideal S3072 .f32) (ix1 f) = (V c main_v6 : S3072.Idx → EReal) (ix1 f) := by
  obtain ⟨-, -, -, -, a4, -⟩ := block_indices t
  show (V c main_v6 : S3072.Idx → EReal) (((cfg0.win 2).blk t).view.emb (ix1 f)) = _
  refine congrArg _ (funext fun a => Fin.ext ?_)
  match a with
  | ⟨0, _⟩ => show win0_2.index t (0 : Fin 1) * 3072 + 1 * f.val = f.val; omega

/-- The whole array the result's blocks are blocks of: x · w + β. -/
abbrev G (c : Dev nD) : S8192x3072.Idx → EReal :=
  fun j => Cert.Spec.mmb (fun (r : Fin 8192) (e : Fin 1024) => (V c main_v9 : S8192x1024.Idx → EReal) (ix2 r e))
    (fun (e : Fin 1024) (f : Fin 3072) => (V c main_v8 : S1024x3072.Idx → EReal) (ix2 e f))
    (fun (f : Fin 3072) => (V c main_v6 : S3072.Idx → EReal) (ix1 f)) (j 0) (j 1)

/-- What point t writes back is block t of x · w + β. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero zero_offsets]
  simp only [View.ld_unit_zero (S := S512x1024) zero_offsets, View.ld_unit_zero (S := S1024x3072) zero_offsets, View.ld_unit_zero (S := S3072) zero_offset]
  funext j
  obtain ⟨-, -, -, -, -, a5, a6⟩ := block_indices t
  show k0_pay1 (F := Ideal) (iblk0 V c 0 t) (iblk0 V c 1 t) (iblk0 V c 2 t) ((win0 3).xinj (grid0.coords t) j)
    = G V c (((cfg0.win 3).blk t).view.emb j)
  refine block_is_rows (V c main_v9) (V c main_v8) (V c main_v6) (iblk0 V c 0 t) (iblk0 V c 1 t) (iblk0 V c 2 t) t.val
    (rows_block V c t) (weight_block V c t) (bias_block V c t) ((win0 3).xinj (grid0.coords t) j) (((cfg0.win 3).blk t).view.emb j) ?_ ?_
  · show win0_3.index t (0 : Fin 2) * 512 + 1 * (j 0).val = t.val * 512 + (j 0).val
    omega
  · show win0_3.index t (1 : Fin 2) * 3072 + 1 * (j 1).val = (j 1).val
    omega

/-! ## The blocks cover the array -/

/-- An index of the array is in point t's block iff each coordinate is in the block's range on its axis. -/
theorem mem_block (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v10).slice (win0_3.rect t)).set ↔ _
  rw [View.set_slice_whole, Rect.mem_set_unit]
  exact Iff.rfl

/-- Row r lies in block r / 512. -/
theorem covered (i : S8192x3072.Idx) : ∃ t : Fin cfg0.N, (cfg0.win 3).flush t = true ∧ i ∈ ((cfg0.win 3).blk t).view.set := by
  have hi0 : (i 0).val < 8192 := (i 0).isLt
  have hi1 : (i 1).val < 3072 := (i 1).isLt
  have hN : cfg0.N = 16 := N_0
  let t : Fin cfg0.N := ⟨(i 0).val / 512, by rw [hN]; omega⟩
  have ht : t.val = (i 0).val / 512 := rfl
  obtain ⟨-, -, -, -, -, a5, a6⟩ := block_indices t
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-! ## The array after the region -/

/-- The result array ends holding x · w + β of the arrays the region finds. -/
theorem final (c : Dev nD) :
    (dat0 (F := Ideal) V c).arrAt 3 cfg0.N
      = fun j => Cert.Spec.mmb (fun (r : Fin 8192) (e : Fin 1024) => (V c main_v9 : S8192x1024.Idx → EReal) (ix2 r e))
          (fun (e : Fin 1024) (f : Fin 3072) => (V c main_v8 : S1024x3072.Idx → EReal) (ix2 e f))
          (fun (f : Fin 3072) => (V c main_v6 : S3072.Idx → EReal) (ix1 f)) (j 0) (j 1) :=
  (dat0 (F := Ideal) V c).arrAt_eq_of_cover 3 (G V c) (fun t _ => flushed_eq V c t) covered

end Cert.ProjIn

end
-- ==== Proof.ProjOut.lean ====
/-
  The output projection, from blocks of rows to the whole array.

  The array of 8192 rows (time and batch flattened) by 1024 features — the attended values, heads side by side — is cut into
  16 blocks of 512 rows. For each block the kernel forms the product of the block with the whole 1024 x 1024 weight matrix,
  accumulated from zero, and adds the bias vector to every row; the 512 x 1024 result is block t of the output. On the extended
  reals entry (p, f) of the block's result is

      (∑ e, a (512 t + p, e) · ω (e, f)) + β f ,

  which is entry (512 t + p, f) of a · ω + β. Row r of the output lies in block r / 512, the blocks cover the array, and so the
  array ends holding a · ω + β at every index.
-/
import proofs.«126819_j68247030334372_2_alg».proof.Proof.Gen.KernelIdeal.Frame
import proofs.«126819_j68247030334372_2_alg».proof.Proof.Spec
import proofs.«126819_j68247030334372_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ProjOut

open Cert.KernelIdeal Cert.KernelIdeal.Gen Idealize.ShloMosaic Idealize.ShloMosaic.TcCoe Idealize.ShloMosaic.ValueIdx Idealize.SL.Sem
open Idealize.ShloMosaic.Pipeline (Dat)

/-! ## The product's dimension numbers: the left operand's second axis against the right operand's first -/

theorem lhs_row (i : S512x1024.Idx) (q : (dot_S512x1024_S1024x1024_S512x1024_1_0_0_1_n_n).contr.Idx) :
    ((dot_S512x1024_S1024x1024_S512x1024_1_0_0_1_n_n).lhsIdx i q (0 : Fin 2)).val = (i (0 : Fin 2)).val := by
  unfold DotDims.lhsIdx
  rw [dif_neg (show ¬(0 : Fin S512x1024.rank) ∈ (dot_S512x1024_S1024x1024_S512x1024_1_0_0_1_n_n).lhsBatch by decide), dif_pos (show (0 : Fin S512x1024.rank) ∈ (dot_S512x1024_S1024x1024_S512x1024_1_0_0_1_n_n).lhsNonContracting by decide)]
  rfl
theorem lhs_contr (i : S512x1024.Idx) (q : (dot_S512x1024_S1024x1024_S512x1024_1_0_0_1_n_n).contr.Idx) :
    ((dot_S512x1024_S1024x1024_S512x1024_1_0_0_1_n_n).lhsIdx i q (1 : Fin 2)).val = (q ⟨0, by decide⟩).val :=
  (dot_S512x1024_S1024x1024_S512x1024_1_0_0_1_n_n).lhsIdx_val_of_single rfl i q
theorem rhs_contr (i : S512x1024.Idx) (q : (dot_S512x1024_S1024x1024_S512x1024_1_0_0_1_n_n).contr.Idx) :
    ((dot_S512x1024_S1024x1024_S512x1024_1_0_0_1_n_n).rhsIdx i q (0 : Fin 2)).val = (q ⟨0, by decide⟩).val :=
  (dot_S512x1024_S1024x1024_S512x1024_1_0_0_1_n_n).rhsIdx_val_of_single rfl i q
theorem rhs_col (i : S512x1024.Idx) (q : (dot_S512x1024_S1024x1024_S512x1024_1_0_0_1_n_n).contr.Idx) :
    ((dot_S512x1024_S1024x1024_S512x1024_1_0_0_1_n_n).rhsIdx i q (1 : Fin 2)).val = (i (1 : Fin 2)).val := by
  unfold DotDims.rhsIdx
  rw [dif_neg (show ¬(1 : Fin S1024x1024.rank) ∈ (dot_S512x1024_S1024x1024_S512x1024_1_0_0_1_n_n).rhsBatch by decide), dif_pos (show (1 : Fin S1024x1024.rank) ∈ (dot_S512x1024_S1024x1024_S512x1024_1_0_0_1_n_n).rhsNonContracting by decide)]
  rfl

/-! ## One block's result at an entry -/

/-- A sum of two arrays reads, at an index, the sum of the two entries. -/
theorem add_apply (A B : FVec Ideal S512x1024 .f32) (i : S512x1024.Idx) : addf A B i = A i + B i := rfl

/-- Entry (p, f) of a block's result: row p of the block against column f of the weight, plus the bias at f. -/
theorem block_entry (x0 : Vec Ideal S512x1024 .bf16) (x1 : Vec Ideal S1024x1024 .bf16) (x2 : Vec Ideal S1024 .f32)
    (p : Fin 512) (f : Fin 1024) :
    k2_pay1 (F := Ideal) x0 x1 x2 (ix2 p f) = (∑ e : Fin 1024, x0 (ix2 p e) * x1 (ix2 e f)) + x2 (ix1 f) := by
  unfold k2_pay1
  refine (add_apply _ _ _).trans ?_
  refine congrArg₂ (· + ·) ?_ ?_
  · refine (Cert.Lib.PlainDot.matmul_zero_ix2 dot_S512x1024_S1024x1024_S512x1024_1_0_0_1_n_n rfl rfl lhs_row lhs_contr rhs_contr rhs_col none _ _ p f).trans ?_
    refine Finset.sum_congr rfl fun e _ => ?_
    refine congrArg₂ (· * ·) ?_ ?_
    · exact congrFun (shapeCast_self x0 _) _
    · exact congrFun (shapeCast_self x1 _) _
  · refine (broadcastTo_1b_ab_apply _ _ p f).trans ?_
    exact shapeCast_a_1a_apply _ _ (0 : Fin 1) f

/-! ## The blocks of the three operands and of the result -/

theorem zero_offsets : (![0, 0] : Fin 2 → Nat) = fun _ => 0 := funext fun a => by fin_cases a <;> rfl
theorem zero_offset : (![0] : Fin 1 → Nat) = fun _ => 0 := funext fun a => by fin_cases a <;> rfl

/-- The block index maps over the grid: point t takes block row t of the row operand and of the result, and the one block of
    the weight and of the bias. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- A block's result is the rows of a · ω + β it stands for: if the block of the row operand holds rows 512 n + p of an array
    X, and the other two blocks are the whole of W and of B, then the block's entry y is the entry of X · W + B at any index
    i with i 0 = 512 n + y 0 and i 1 = y 1. -/
theorem block_is_rows (X : S8192x1024.Idx → EReal) (W : S1024x1024.Idx → EReal) (B : S1024.Idx → EReal)
    (x0 : Vec Ideal S512x1024 .bf16) (x1 : Vec Ideal S1024x1024 .bf16) (x2 : Vec Ideal S1024 .f32) (n : ℕ)
    (h0 : ∀ (p : Fin 512) (e : Fin 1024) (r : Fin 8192), r.val = n * 512 + p.val → x0 (ix2 p e) = X (ix2 r e))
    (h1 : ∀ (e : Fin 1024) (f : Fin 1024), x1 (ix2 e f) = W (ix2 e f))
    (h2 : ∀ f : Fin 1024, x2 (ix1 f) = B (ix1 f))
    (y : S512x1024.Idx) (i : S8192x1024.Idx) (hi0 : (i 0).val = n * 512 + (y 0).val) (hi1 : (i 1).val = (y 1).val) :
    k2_pay1 (F := Ideal) x0 x1 x2 y
      = Cert.Spec.mmb (fun (r : Fin 8192) (e : Fin 1024) => X (ix2 r e)) (fun (e : Fin 1024) (f : Fin 1024) => W (ix2 e f))
          (fun (f : Fin 1024) => B (ix1 f)) (i 0) (i 1) := by
  obtain ⟨p, f, rfl⟩ : ∃ (p : Fin 512) (f : Fin 1024), y = ix2 p f := ⟨y 0, y 1, eq_ix2 y⟩
  have ef : (i 1 : Fin 1024) = f := Fin.ext hi1
  rw [block_entry]
  unfold Cert.Spec.mmb
  rw [ef]
  refine congrArg₂ (· + ·) (Finset.sum_congr rfl fun e _ => congrArg₂ (· * ·) (h0 p e (i 0) hi0) (h1 e f)) (h2 f)

variable (V : (c : Dev nD) → (b : Ref sig .tc) → Buf (Elt Ideal) ((c : Thread nD τ).loc b))

/-- Block t of the row operand is rows 512 t … 512 t + 511 of its array. -/
theorem rows_block (c : Dev nD) (t : Fin cfg2.N) (p : Fin 512) (e : Fin 1024) (r : Fin 8192) (hr : r.val = t.val * 512 + p.val) :
    (iblk2 (F := Ideal) V c 0 t : Vec Ideal S512x1024 .bf16) (ix2 p e) = (V c main_v24 : S8192x1024.Idx → EReal) (ix2 r e) := by
  obtain ⟨a0, a1, -⟩ := block_indices t
  show (V c main_v24 : S8192x1024.Idx → EReal) (((cfg2.win 0).blk t).view.emb (ix2 p e)) = _
  refine congrArg _ (funext fun a => Fin.ext ?_)
  match a with
  | ⟨0, _⟩ => show win2_0.index t (0 : Fin 2) * 512 + 1 * p.val = r.val; omega
  | ⟨1, _⟩ => show win2_0.index t (1 : Fin 2) * 1024 + 1 * e.val = e.val; omega

/-- The weight's one block is the whole weight matrix. -/
theorem weight_block (c : Dev nD) (t : Fin cfg2.N) (e : Fin 1024) (f : Fin 1024) :
    (iblk2 (F := Ideal) V c 1 t : Vec Ideal S1024x1024 .bf16) (ix2 e f) = (V c main_v26 : S1024x1024.Idx → EReal) (ix2 e f) := by
  obtain ⟨-, -, a2, a3, -⟩ := block_indices t
  show (V c main_v26 : S1024x1024.Idx → EReal) (((cfg2.win 1).blk t).view.emb (ix2 e f)) = _
  refine congrArg _ (funext fun a => Fin.ext ?_)
  match a with
  | ⟨0, _⟩ => show win2_1.index t (0 : Fin 2) * 1024 + 1 * e.val = e.val; omega
  | ⟨1, _⟩ => show win2_1.index t (1 : Fin 2) * 1024 + 1 * f.val = f.val; omega

/-- The bias's one block is the whole bias vector. -/
theorem bias_block (c : Dev nD) (t : Fin cfg2.N) (f : Fin 1024) :
    (iblk2 (F := Ideal) V c 2 t : Vec Ideal S1024 .f32) (ix1 f) = (V c main_arg4 : S1024.Idx → EReal) (ix1 f) := by
  obtain ⟨-, -, -, -, a4, -⟩ := block_indices t
  show (V c main_arg4 : S1024.Idx → EReal) (((cfg2.win 2).blk t).view.emb (ix1 f)) = _
  refine congrArg _ (funext fun a => Fin.ext ?_)
  match a with
  | ⟨0, _⟩ => show win2_2.index t (0 : Fin 1) * 1024 + 1 * f.val = f.val; omega

/-- The whole array the result's blocks are blocks of: a · ω + β. -/
abbrev G (c : Dev nD) : S8192x1024.Idx → EReal :=
  fun j => Cert.Spec.mmb (fun (r : Fin 8192) (e : Fin 1024) => (V c main_v24 : S8192x1024.Idx → EReal) (ix2 r e))
    (fun (e : Fin 1024) (f : Fin 1024) => (V c main_v26 : S1024x1024.Idx → EReal) (ix2 e f))
    (fun (f : Fin 1024) => (V c main_arg4 : S1024.Idx → EReal) (ix1 f)) (j 0) (j 1)

/-- What point t writes back is block t of a · ω + β. -/
theorem flushed_eq (c : Dev nD) (t : Fin cfg2.N) :
    (dat2 (F := Ideal) V c).flushed 3 t = ((cfg2.win 3).blk t).view.read (Elt Ideal) (G V c) := by
  show (cfg2.win 3).cut (grid2.coords t) ((dat2 (F := Ideal) V c).after 3 t) = _
  rw [after2_3]
  unfold out2_3
  rw [View.canon_unit_zero zero_offsets]
  simp only [View.ld_unit_zero (S := S512x1024) zero_offsets, View.ld_unit_zero (S := S1024x1024) zero_offsets, View.ld_unit_zero (S := S1024) zero_offset]
  funext j
  obtain ⟨-, -, -, -, -, a5, a6⟩ := block_indices t
  show k2_pay1 (F := Ideal) (iblk2 V c 0 t) (iblk2 V c 1 t) (iblk2 V c 2 t) ((win2 3).xinj (grid2.coords t) j)
    = G V c (((cfg2.win 3).blk t).view.emb j)
  refine block_is_rows (V c main_v24) (V c main_v26) (V c main_arg4) (iblk2 V c 0 t) (iblk2 V c 1 t) (iblk2 V c 2 t) t.val
    (rows_block V c t) (weight_block V c t) (bias_block V c t) ((win2 3).xinj (grid2.coords t) j) (((cfg2.win 3).blk t).view.emb j) ?_ ?_
  · show win2_3.index t (0 : Fin 2) * 512 + 1 * (j 0).val = t.val * 512 + (j 0).val
    omega
  · show win2_3.index t (1 : Fin 2) * 1024 + 1 * (j 1).val = (j 1).val
    omega

/-! ## The blocks cover the array -/

/-- An index of the array is in point t's block iff each coordinate is in the block's range on its axis. -/
theorem mem_block (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v27).slice (win2_3.rect t)).set ↔ _
  rw [View.set_slice_whole, Rect.mem_set_unit]
  exact Iff.rfl

/-- Row r lies in block r / 512. -/
theorem covered (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 16 := N_2
  let t : Fin cfg2.N := ⟨(i 0).val / 512, by rw [hN]; omega⟩
  have ht : t.val = (i 0).val / 512 := rfl
  obtain ⟨-, -, -, -, -, a5, a6⟩ := block_indices t
  refine ⟨t, flush2_3 t, ?_⟩
  rw [mem_block]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-! ## The array after the region -/

/-- The result array ends holding a · ω + β of the arrays the region finds. -/
theorem final (c : Dev nD) :
    (dat2 (F := Ideal) V c).arrAt 3 cfg2.N
      = fun j => Cert.Spec.mmb (fun (r : Fin 8192) (e : Fin 1024) => (V c main_v24 : S8192x1024.Idx → EReal) (ix2 r e))
          (fun (e : Fin 1024) (f : Fin 1024) => (V c main_v26 : S1024x1024.Idx → EReal) (ix2 e f))
          (fun (f : Fin 1024) => (V c main_arg4 : S1024.Idx → EReal) (ix1 f)) (j 0) (j 1) :=
  (dat2 (F := Ideal) V c).arrAt_eq_of_cover 3 (G V c) (fun t _ => flushed_eq V c t) covered

end Cert.ProjOut

end
-- ==== Proof.KernelValue.lean ====
/-
  The kernel program composed: what each region finds and what the program returns, as functions of the launch arrays.

  The program is three regions with array rearrangements between them. The first region computes the fused input
  projection of the rearranged activations against the rearranged weight and bias, into which the query's factor has been
  folded; the rearrangement before the middle region splits its result into the query, key and value heads. Whatever
  per-head array the middle region leaves as its first result, the rearrangement before the last region lays its heads side
  by side, the last region multiplies by the transposed output weight and adds the output bias, and the final reshape
  splits the rows into (time, batch): the first result is the output projection of that array. The middle region's second
  result is not touched afterwards.
-/
import proofs.«126819_j68247030334372_2_alg».proof.Proof.Gen.KernelIdeal.Frame
import proofs.«126819_j68247030334372_2_alg».proof.Proof.Spec
import proofs.«126819_j68247030334372_2_alg».proof.Proof.HostGlue
import proofs.«126819_j68247030334372_2_alg».proof.Proof.ProjIn
import proofs.«126819_j68247030334372_2_alg».proof.Proof.ProjOut

noncomputable section

open scoped BigOperators

namespace Cert.KernelValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The activations x[t, b, e] as launched. -/
def X : Fin 2048 → Fin 4 → Fin 1024 → EReal :=
  fun t b e => (m ((c : Thread nD τ).loc main_arg0) : S2048x4x1024.Idx → EReal) (ix3 t b e)
/-- The fused input weight w[f, e] as launched. -/
def Wg : Fin 3072 → Fin 1024 → EReal :=
  fun f e => (m ((c : Thread nD τ).loc main_arg1) : S3072x1024.Idx → EReal) (ix2 f e)
/-- The fused input bias β[f] as launched. -/
def β : Fin 3072 → EReal :=
  fun f => (m ((c : Thread nD τ).loc main_arg2) : S3072.Idx → EReal) (ix1 f)
/-- The output weight ω[f, e] as launched. -/
def ow : Fin 1024 → Fin 1024 → EReal :=
  fun f e => (m ((c : Thread nD τ).loc main_arg3) : S1024x1024.Idx → EReal) (ix2 f e)
/-- The output bias as launched. -/
def ob : Fin 1024 → EReal :=
  fun f => (m ((c : Thread nD τ).loc main_arg4) : S1024.Idx → EReal) (ix1 f)

theorem W0_arg0 (t : Fin 2048) (b : Fin 4) (e : Fin 1024) :
    (W0 (F := Ideal) m ρ c (Proc.devRef .tc main_arg0) : S2048x4x1024.Idx → EReal) (ix3 t b e) = X m c t b e := rfl
theorem W0_arg1 (f : Fin 3072) (e : Fin 1024) :
    (W0 (F := Ideal) m ρ c (Proc.devRef .tc main_arg1) : S3072x1024.Idx → EReal) (ix2 f e) = Wg m c f e := rfl
theorem W0_arg2 (f : Fin 3072) :
    (W0 (F := Ideal) m ρ c (Proc.devRef .tc main_arg2) : S3072.Idx → EReal) (ix1 f) = β m c f := rfl

/-- What the first region leaves in its result array, read at row t·4 + b and column f: the fused projection with each
    column's factor folded into the weight and the bias. -/
theorem inproj_at (t : Fin 2048) (b : Fin 4) (f : Fin 3072) :
    (W2 (F := Ideal) m ρ c (Proc.devRef .tc main_v10) : S8192x3072.Idx → EReal) (ix2 (Cert.Spec.row t b) f)
      = Cert.Spec.inProjScaled (X m c) (Wg m c) (β m c) t b f := by
  have h : (W2 (F := Ideal) m ρ c (Proc.devRef .tc main_v10) : S8192x3072.Idx → EReal)
      = fun j => Cert.Spec.mmb (fun (r : Fin 8192) (e : Fin 1024) => (V1 (F := Ideal) m ρ c main_v9 : S8192x1024.Idx → EReal) (ix2 r e))
          (fun (e : Fin 1024) (f : Fin 3072) => (V1 (F := Ideal) m ρ c main_v8 : S1024x3072.Idx → EReal) (ix2 e f))
          (fun (f : Fin 3072) => (V1 (F := Ideal) m ρ c main_v6 : S3072.Idx → EReal) (ix1 f)) (j 0) (j 1) :=
    (W2_arr (F := Ideal) m ρ c 3).trans (Cert.ProjIn.final (V1 (F := Ideal) m ρ) c)
  refine (congrFun h (ix2 (Cert.Spec.row t b) f)).trans ?_
  show Cert.Spec.mmb _ _ _ (Cert.Spec.row t b) f = _
  unfold Cert.Spec.mmb Cert.Spec.inProjScaled
  exact congrArg₂ (· + ·)
    (Finset.sum_congr rfl fun e _ => congrArg₂ (· * ·)
      ((Cert.HostGlue.a0 (W0 (F := Ideal) m ρ c) t b e).trans (W0_arg0 m ρ c t b e))
      ((Cert.HostGlue.b0 (W0 (F := Ideal) m ρ c) e f).trans (congrArg (· * Cert.Spec.scaleAt f) (W0_arg1 m ρ c f e))))
    ((Cert.HostGlue.c0 (W0 (F := Ideal) m ρ c) f).trans (congrArg (· * Cert.Spec.scaleAt f) (W0_arg2 m ρ c f)))

/-- The query array the middle region finds: part 0 of the scaled projection, split into heads. -/
theorem heads_in_q (b : Fin 4) (h : Fin 16) (t : Fin 2048) (d : Fin 64) :
    (V3 (F := Ideal) m ρ c main_v14 : S4x16x2048x64.Idx → EReal) (ix4 b h t d)
      = Cert.Spec.headsOf (Cert.Spec.inProjScaled (X m c) (Wg m c) (β m c)) 0 b h t d :=
  (Cert.HostGlue.a1_q (W2 (F := Ideal) m ρ c) b h t d).trans (inproj_at m ρ c t b (Cert.Spec.col 0 h d))

/-- The key array the middle region finds: part 1 of the scaled projection, split into heads. -/
theorem heads_in_k (b : Fin 4) (h : Fin 16) (t : Fin 2048) (d : Fin 64) :
    (V3 (F := Ideal) m ρ c main_v17 : S4x16x2048x64.Idx → EReal) (ix4 b h t d)
      = Cert.Spec.headsOf (Cert.Spec.inProjScaled (X m c) (Wg m c) (β m c)) 1 b h t d :=
  (Cert.HostGlue.a1_k (W2 (F := Ideal) m ρ c) b h t d).trans (inproj_at m ρ c t b (Cert.Spec.col 1 h d))

/-- The value array the middle region finds: part 2 of the scaled projection, split into heads. -/
theorem heads_in_v (b : Fin 4) (h : Fin 16) (t : Fin 2048) (d : Fin 64) :
    (V3 (F := Ideal) m ρ c main_v20 : S4x16x2048x64.Idx → EReal) (ix4 b h t d)
      = Cert.Spec.headsOf (Cert.Spec.inProjScaled (X m c) (Wg m c) (β m c)) 2 b h t d :=
  (Cert.HostGlue.a1_v (W2 (F := Ideal) m ρ c) b h t d).trans (inproj_at m ρ c t b (Cert.Spec.col 2 h d))

/-- No operation and no region up to the middle region's exit writes the output weight: it is as launched. -/
theorem W4_arg3 : W4 (F := Ideal) m ρ c (Proc.devRef .tc main_arg3) = m ((c : Thread nD τ).loc main_arg3) :=
  calc W4 (F := Ideal) m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Nor does any up to the last region's entry write the output bias. -/
theorem W5_arg4 : W5 (F := Ideal) m ρ c (Proc.devRef .tc main_arg4) = m ((c : Thread nD τ).loc main_arg4) :=
  calc W5 (F := Ideal) m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The first result: if the middle region leaves the per-head array A in its first result array, the program's first result
    is the output projection of A, heads laid side by side. -/
theorem out_of_attn (A : Cert.Spec.Heads)
    (hA : ∀ (b : Fin 4) (h : Fin 16) (t : Fin 2048) (d : Fin 64),
      (W4 (F := Ideal) m ρ c (Proc.devRef .tc main_v21_0) : S4x16x2048x64.Idx → EReal) (ix4 b h t d) = A b h t d)
    (t : Fin 2048) (b : Fin 4) (f : Fin 1024) :
    (W7 (F := Ideal) m ρ c (Proc.devRef .tc main_v28) : S2048x4x1024.Idx → EReal) (ix3 t b f)
      = Cert.Spec.project A (ow m c) (ob m c) t b f := by
  have h : (W6 (F := Ideal) m ρ c (Proc.devRef .tc main_v27) : S8192x1024.Idx → EReal)
      = fun j => Cert.Spec.mmb (fun (r : Fin 8192) (e : Fin 1024) => (V5 (F := Ideal) m ρ c main_v24 : S8192x1024.Idx → EReal) (ix2 r e))
          (fun (e : Fin 1024) (f : Fin 1024) => (V5 (F := Ideal) m ρ c main_v26 : S1024x1024.Idx → EReal) (ix2 e f))
          (fun (f : Fin 1024) => (V5 (F := Ideal) m ρ c main_arg4 : S1024.Idx → EReal) (ix1 f)) (j 0) (j 1) :=
    (W6_arr (F := Ideal) m ρ c 3).trans (Cert.ProjOut.final (V5 (F := Ideal) m ρ) c)
  refine (Cert.HostGlue.a3 (W6 (F := Ideal) m ρ c) t b f).trans ?_
  refine (congrFun h (ix2 (Cert.Spec.row t b) f)).trans ?_
  show Cert.Spec.mmb _ _ _ (Cert.Spec.row t b) f = _
  unfold Cert.Spec.mmb Cert.Spec.project
  exact congrArg₂ (· + ·)
    (Finset.sum_congr rfl fun e _ => congrArg₂ (· * ·)
      ((Cert.HostGlue.a2 (W4 (F := Ideal) m ρ c) t b e).trans (hA b (Cert.Spec.headOf e) t (Cert.Spec.dimOf e)))
      ((Cert.HostGlue.b2 (W4 (F := Ideal) m ρ c) e f).trans (congrFun (W4_arg3 m ρ c) (ix2 f e))))
    (congrFun (W5_arg4 m ρ c) (ix1 f))

/-- The second result: nothing after the middle region writes its second result array. -/
theorem avg_pass : W7 (F := Ideal) m ρ c (Proc.devRef .tc main_v21_1) = W4 (F := Ideal) m ρ c (Proc.devRef .tc main_v21_1) :=
  calc W7 (F := Ideal) m ρ c (Proc.devRef .tc main_v21_1)
    _ = W6 m ρ c (Proc.devRef .tc main_v21_1) := StableHlo.after_of_forall_not_mem (b := Proc.devRef .tc main_v21_1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v21_1) := W6_of_ne m ρ c main_v21_1 (by decide)
    _ = W4 m ρ c (Proc.devRef .tc main_v21_1) := StableHlo.after_of_forall_not_mem (b := Proc.devRef .tc main_v21_1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelValue

end
-- ==== Proof.KernelSpec.lean ====
/-
  The kernel program's two results, as the layer's formulas of the argument arrays.

  The attention region leaves, in its first array, the attended values of the heads it found, and in its second the mean
  over heads of their attention weights (the per-point values, tiled over the arrays). The heads it finds are the three
  parts of the input projection with the query's factor folded into the weights and bias; with real inputs these are
  the scaled query, the key and the value of the plain projection, and the running-sum form of the mean is the quotient
  form. The output projection of the attended values is then the layer's first result, and the mean its second.
-/
import proofs.«126819_j68247030334372_2_alg».proof.Proof.Gen.KernelIdeal.Frame
import proofs.«126819_j68247030334372_2_alg».proof.Proof.Spec
import proofs.«126819_j68247030334372_2_alg».proof.Proof.Algebra
import proofs.«126819_j68247030334372_2_alg».proof.Proof.AttnPoint
import proofs.«126819_j68247030334372_2_alg».proof.Proof.AttnCover
import proofs.«126819_j68247030334372_2_alg».proof.Proof.KernelValue

set_option maxRecDepth 16384

noncomputable section

open Idealize.ShloMosaic Idealize.ShloMosaic.TcCoe Idealize.SL.Sem Idealize.ShloMosaic.ValueIdx

namespace Cert.KernelSpec

open Cert.KernelIdeal Cert.KernelIdeal.Gen Cert.AttnPoint Cert.KernelValue

section Region

variable (V : (c : Dev nD) → (b : Ref sig .tc) → Buf (Elt Ideal) ((c : Thread nD τ).loc b)) (c : Dev nD)

/-- The attention region's first array ends holding the attended values of the heads it found. -/
theorem attn_array : (dat1 (F := Ideal) V c).arrAt 3 cfg1.N
    = fun j : S4x16x2048x64.Idx => Cert.Spec.attend (Qh V c) (Kh V c) (Vh V c) (j 0) (j 1) (j 2) (j 3) :=
  Cert.AttnCover.final_attn V c _ (fun t u v r d => attn_at V c t u v r d)

/-- Its second array ends holding the mean over heads of the attention weights. -/
theorem avg_array : (dat1 (F := Ideal) V c).arrAt 4 cfg1.N
    = fun j : S4x2048x2048.Idx => Cert.Spec.avgMul (Qh V c) (Kh V c) (j 0) (j 1) (j 2) :=
  Cert.AttnCover.final_avg V c _ (fun t h15 u r s => avg_at V c t h15 u r s)

end Region

variable (m : (ℓ : Loc nD τ sig) → Buf (Elt Ideal) ℓ) (ρ : Dev nD → PrngReg) (c : Dev nD)

/-- The heads the attention region finds are the parts of the input projection with the factor folded in. -/
theorem Qh_eq : Qh (V3 (F := Ideal) m ρ) c = Cert.Spec.headsOf (Cert.Spec.inProjScaled (X m c) (Wg m c) (β m c)) 0 :=
  funext fun b => funext fun h => funext fun t => funext fun d => heads_in_q m ρ c b h t d
theorem Kh_eq : Kh (V3 (F := Ideal) m ρ) c = Cert.Spec.headsOf (Cert.Spec.inProjScaled (X m c) (Wg m c) (β m c)) 1 :=
  funext fun b => funext fun h => funext fun t => funext fun d => heads_in_k m ρ c b h t d
theorem Vh_eq : Vh (V3 (F := Ideal) m ρ) c = Cert.Spec.headsOf (Cert.Spec.inProjScaled (X m c) (Wg m c) (β m c)) 2 :=
  funext fun b => funext fun h => funext fun t => funext fun d => heads_in_v m ρ c b h t d

/-- The first result at (t, b, f), for real activations, projection weights and biases. -/
theorem kernel_out (hr : Cert.Algebra.RealIn (X m c) (Wg m c) (β m c)) (t : Fin 2048) (b : Fin 4) (f : Fin 1024) :
    (W7 (F := Ideal) m ρ c (Proc.devRef .tc main_v28) : S2048x4x1024.Idx → EReal) (ix3 t b f)
      = Cert.Spec.outSpec (X m c) (Wg m c) (β m c) (ow m c) (ob m c) t b f := by
  have hA : ∀ (b : Fin 4) (h : Fin 16) (t : Fin 2048) (d : Fin 64),
      (W4 (F := Ideal) m ρ c (Proc.devRef .tc main_v21_0) : S4x16x2048x64.Idx → EReal) (ix4 b h t d)
        = Cert.Spec.attend (Qh (V3 (F := Ideal) m ρ) c) (Kh (V3 (F := Ideal) m ρ) c) (Vh (V3 (F := Ideal) m ρ) c) b h t d :=
    fun b h t d => congrFun ((W4_arr m ρ c 3).trans (attn_array (V3 (F := Ideal) m ρ) c)) (ix4 b h t d)
  rw [out_of_attn m ρ c _ hA t b f]
  unfold Cert.Spec.outSpec
  rw [Qh_eq, Kh_eq, Vh_eq, Cert.Algebra.query_eq hr, Cert.Algebra.other_eq hr 1 (by decide), Cert.Algebra.other_eq hr 2 (by decide)]

/-- The second result at (b, t, s), for real activations, projection weights and biases. -/
theorem kernel_avg (hr : Cert.Algebra.RealIn (X m c) (Wg m c) (β m c)) (b : Fin 4) (t s : Fin 2048) :
    (W7 (F := Ideal) m ρ c (Proc.devRef .tc main_v21_1) : S4x2048x2048.Idx → EReal) (ix3 b t s)
      = Cert.Spec.avgSpec (X m c) (Wg m c) (β m c) b t s := by
  rw [avg_pass m ρ c]
  refine (congrFun ((W4_arr m ρ c 4).trans (avg_array (V3 (F := Ideal) m ρ) c)) (ix3 b t s)).trans ?_
  show Cert.Spec.avgMul (Qh (V3 (F := Ideal) m ρ) c) (Kh (V3 (F := Ideal) m ρ) c) b t s = _
  unfold Cert.Spec.avgSpec
  rw [Qh_eq, Kh_eq, Cert.Algebra.avgMul_eq_avgDiv, Cert.Algebra.query_eq hr, Cert.Algebra.other_eq hr 1 (by decide)]

end Cert.KernelSpec

end
-- ==== Proof.RefValue.lean ====
/-
  The reference program's two results, read at an index, are the layer's two results as functions of coordinates.

  The reference computes the fused projection x · wᵀ + β, cuts it into its query, key and value thirds, regroups the 1024
  features of each third as 16 heads of 64 features (feature e = h · 64 + d sits at head h, position d), scales the query by
  the word of 1/8, takes the scores q · k, their softmax along the key axis, the weighted values, lays the heads side by
  side again and applies the output projection; its second result is the sum of the 16 heads' weights divided by the word of 16.
  Each stage is read here at explicit coordinates, bottom-up, and identified with the corresponding function of the
  specification.
-/
import proofs.«126819_j68247030334372_2_alg».proof.Proof.Gen.ReferenceIdeal.Read
import proofs.«126819_j68247030334372_2_alg».proof.Proof.Spec

noncomputable section

open scoped BigOperators

namespace Cert.RefValue

open Cert.ReferenceIdeal Cert.ReferenceIdeal.Gen Cert.ReferenceIdeal.Read Idealize.ShloMosaic Idealize.ShloMosaic.ValueIdx

variable (x0 : (⟨S2048x4x1024, .f32⟩ : BufTy).Contents (Elt Ideal)) (x1 : (⟨S3072x1024, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-- The fused input projection of the argument arrays, as a function of coordinates. -/
abbrev proj : Fin 2048 → Fin 4 → Fin 3072 → EReal :=
  Cert.Spec.inProj (fun t b e => x0 (ix3 t b e)) (fun f e => x1 (ix2 f e)) (fun f => x2 (ix1 f))
/-- The scaled query, the key and the value, per head. -/
abbrev qry : Cert.Spec.Heads := Cert.Spec.queryOf (proj x0 x1 x2)
abbrev key : Cert.Spec.Heads := Cert.Spec.headsOf (proj x0 x1 x2) 1
abbrev vlu : Cert.Spec.Heads := Cert.Spec.headsOf (proj x0 x1 x2) 2

/-! ## The fused projection -/

/-- Entry (t, b, f) of the projection: the contraction runs over the model features, the bias is read at the column. -/
theorem v3_at (t : Fin 2048) (b : Fin 4) (f : Fin 3072) :
    val_main_v3 (F := Ideal) x0 x1 x2 (ix3 t b f) = proj x0 x1 x2 t b f := by
  rw [val_main_v3_apply, val_main_v0_apply, val_main_v2_apply, val_main_v1_apply, Ideal.addf_def]
  have hl : ∀ k : Fin 1024, lidx_main_v0 (ix3 t b f) k = ix3 t b k := fun k => by
    funext a; apply Fin.ext; match a with | ⟨0, _⟩ => rfl | ⟨1, _⟩ => rfl | ⟨2, _⟩ => rfl
  have hr : ∀ k : Fin 1024, ridx_main_v0 (ix3 t b f) k = ix2 f k := fun k => by
    funext a; apply Fin.ext; match a with | ⟨0, _⟩ => rfl | ⟨1, _⟩ => rfl
  have hb : idx_main_v1 (idx_main_v2 (ix3 t b f)) = ix1 f := by
    funext a; apply Fin.ext; match a with | ⟨0, _⟩ => rfl
  simp only [hl, hr, hb]
  rfl

/-! ## Query, key and value per head

  The regrouping of a third's 1024 features into 16 heads of 64 reads feature h · 64 + d of the third at head h, position d;
  the thirds start at columns 0, 1024 and 2048 of the projection. -/

/-- Entry (b, h, t, d) of a regrouped and transposed third reads entry (t, b, h · 64 + d) of the third. -/
theorem regroup_idx (b : Fin 4) (h : Fin 16) (t : Fin 2048) (d : Fin 64) :
    idx_main_v9 (idx_main_v10 (ix4 b h t d)) = ix3 t b (Cert.Spec.feat h d) := by
  have ht := t.isLt; have hb := b.isLt; have hh := h.isLt; have hd := d.isLt
  funext a; apply Fin.ext
  match a with
  | ⟨0, _⟩ => show (((t.val * 4 + b.val) * 16 + h.val) * 64 + d.val) / 4096 = t.val; omega
  | ⟨1, _⟩ => show (((t.val * 4 + b.val) * 16 + h.val) * 64 + d.val) / 1024 % 4 = b.val; omega
  | ⟨2, _⟩ => show (((t.val * 4 + b.val) * 16 + h.val) * 64 + d.val) % 1024 = h.val * 64 + d.val; omega

theorem third0_idx (t : Fin 2048) (b : Fin 4) (h : Fin 16) (d : Fin 64) :
    idx_main_v4 (ix3 t b (Cert.Spec.feat h d)) = ix3 t b (Cert.Spec.col 0 h d) := by
  funext a; apply Fin.ext
  match a with
  | ⟨0, _⟩ => rfl
  | ⟨1, _⟩ => rfl
  | ⟨2, _⟩ => show h.val * 64 + d.val = 0 * 1024 + h.val * 64 + d.val; omega

theorem third1_idx (t : Fin 2048) (b : Fin 4) (h : Fin 16) (d : Fin 64) :
    idx_main_v5 (ix3 t b (Cert.Spec.feat h d)) = ix3 t b (Cert.Spec.col 1 h d) := by
  funext a; apply Fin.ext
  match a with
  | ⟨0, _⟩ => rfl
  | ⟨1, _⟩ => rfl
  | ⟨2, _⟩ => show 1024 + (h.val * 64 + d.val) = 1 * 1024 + h.val * 64 + d.val; omega

theorem third2_idx (t : Fin 2048) (b : Fin 4) (h : Fin 16) (d : Fin 64) :
    idx_main_v6 (ix3 t b (Cert.Spec.feat h d)) = ix3 t b (Cert.Spec.col 2 h d) := by
  funext a; apply Fin.ext
  match a with
  | ⟨0, _⟩ => rfl
  | ⟨1, _⟩ => rfl
  | ⟨2, _⟩ => show 2048 + (h.val * 64 + d.val) = 2 * 1024 + h.val * 64 + d.val; omega

/-- The query at (b, h, t, d): the first third of the projection, times the word of 1/8. -/
theorem v10_at (b : Fin 4) (h : Fin 16) (t : Fin 2048) (d : Fin 64) :
    val_main_v10 (F := Ideal) x0 x1 x2 (ix4 b h t d) = qry x0 x1 x2 b h t d := by
  rw [val_main_v10_apply, val_main_v9_apply, val_main_v8_apply, val_main_v4_apply, val_main_v7_apply, val_main_cst_apply,
    regroup_idx, third0_idx, v3_at, Ideal.mulf_def]
  rfl

/-- The key at (b, h, t, d): the second third of the projection. -/
theorem v12_at (b : Fin 4) (h : Fin 16) (t : Fin 2048) (d : Fin 64) :
    val_main_v12 (F := Ideal) x0 x1 x2 (ix4 b h t d) = key x0 x1 x2 b h t d := by
  rw [val_main_v12_apply, val_main_v11_apply, val_main_v5_apply]
  rw [show idx_main_v11 (idx_main_v12 (ix4 b h t d)) = ix3 t b (Cert.Spec.feat h d) from regroup_idx b h t d, third1_idx, v3_at]
  rfl

/-- The value at (b, h, t, d): the last third of the projection. -/
theorem v14_at (b : Fin 4) (h : Fin 16) (t : Fin 2048) (d : Fin 64) :
    val_main_v14 (F := Ideal) x0 x1 x2 (ix4 b h t d) = vlu x0 x1 x2 b h t d := by
  rw [val_main_v14_apply, val_main_v13_apply, val_main_v6_apply]
  rw [show idx_main_v13 (idx_main_v14 (ix4 b h t d)) = ix3 t b (Cert.Spec.feat h d) from regroup_idx b h t d, third2_idx, v3_at]
  rfl

/-! ## Scores -/

/-- The score of query time t against key time s in batch b, head h. -/
theorem v15_at (b : Fin 4) (h : Fin 16) (t s : Fin 2048) :
    val_main_v15 (F := Ideal) x0 x1 x2 (ix4 b h t s) = Cert.Spec.score (qry x0 x1 x2) (key x0 x1 x2) b h t s := by
  rw [val_main_v15_apply]
  have hl : ∀ k : Fin 64, lidx_main_v15 (ix4 b h t s) k = ix4 b h t k := fun k => by
    funext a; apply Fin.ext; match a with | ⟨0, _⟩ => rfl | ⟨1, _⟩ => rfl | ⟨2, _⟩ => rfl | ⟨3, _⟩ => rfl
  have hr : ∀ k : Fin 64, ridx_main_v15 (ix4 b h t s) k = ix4 b h s k := fun k => by
    funext a; apply Fin.ext; match a with | ⟨0, _⟩ => rfl | ⟨1, _⟩ => rfl | ⟨2, _⟩ => rfl | ⟨3, _⟩ => rfl
  simp only [hl, hr, v10_at, v12_at]
  rfl

/-! ## Softmax along the key axis

  The row maximum is a fold of max from the word of −∞ over the key times; taking the maximum with that word once more
  changes nothing, since a fold of max is at least its starting value. -/

/-- A row of scores: batch b, head h, query time t. -/
abbrev scoreRow (b : Fin 4) (h : Fin 16) (t : Fin 2048) : Fin 2048 → EReal :=
  fun s => Cert.Spec.score (qry x0 x1 x2) (key x0 x1 x2) b h t s

/-- The reduced index (b, h, t) with key time k put back on the last axis. -/
theorem lift_last (hR : S4x16x2048x2048.Reduces [3] S4x16x2048) (b : Fin 4) (h : Fin 16) (t : Fin 2048)
    (k : Fin (S4x16x2048x2048.size 3)) : hR.lift (ix3 b h t) k = ix4 b h t (⟨k.val, k.isLt⟩ : Fin 2048) := by
  funext c; apply Fin.ext
  fin_cases c <;> rfl

/-- A fold of max is at least its starting value. -/
theorem max_rowMax {n : ℕ} (sc : Fin n → EReal) :
    max (Ideal.ofBits .f32 0xFF800000#32 : EReal) (Cert.Spec.rowMax sc) = Cert.Spec.rowMax sc :=
  max_eq_right ((Finset.le_fold_max _).2 (Or.inl le_rfl))

/-- The max-reduce over the key axis at (b, h, t) is the row's maximum. -/
theorem v16_at (b : Fin 4) (h : Fin 16) (t : Fin 2048) :
    val_main_v16 (F := Ideal) x0 x1 x2 (ix3 b h t) = Cert.Spec.rowMax (scoreRow x0 x1 x2 b h t) := by
  have hR : S4x16x2048x2048.Reduces [3] S4x16x2048 := by decide
  unfold val_main_v16
  rw [Host.reduce_eq_fold_single FloatOps.maximumf _ _ reducesTo_S4x16x2048x2048_S4x16x2048_d3 hR h_S_]
  have hf : (val_main_v15 (F := Ideal) x0 x1 x2 ∘ hR.lift (ix3 b h t)) = fun k => scoreRow x0 x1 x2 b h t ⟨k.val, k.isLt⟩ :=
    funext fun k => by
      show val_main_v15 (F := Ideal) x0 x1 x2 (hR.lift (ix3 b h t) k) = _
      rw [lift_last, v15_at]
  rw [hf]
  rfl

theorem v18_at (b : Fin 4) (h : Fin 16) (t : Fin 2048) :
    val_main_v18 (F := Ideal) x0 x1 x2 (ix3 b h t) = Cert.Spec.rowMax (scoreRow x0 x1 x2 b h t) := by
  rw [val_main_v18_apply, val_main_v17_apply, val_main_cst_1_apply, v16_at, Ideal.maximumf_def, Ideal.ofBits_def]
  exact max_rowMax _

theorem v20_at (b : Fin 4) (h : Fin 16) (t s : Fin 2048) :
    val_main_v20 (F := Ideal) x0 x1 x2 (ix4 b h t s) = Cert.Spec.rowMax (scoreRow x0 x1 x2 b h t) := by
  rw [val_main_v20_apply, val_main_v19_apply]
  rw [show idx_main_v19 (idx_main_v20 (ix4 b h t s)) = ix3 b h t from by
    funext a; apply Fin.ext; match a with | ⟨0, _⟩ => rfl | ⟨1, _⟩ => rfl | ⟨2, _⟩ => rfl]
  exact v18_at x0 x1 x2 b h t

/-- The exponential of a score less its row's maximum. -/
theorem v22_at (b : Fin 4) (h : Fin 16) (t s : Fin 2048) :
    val_main_v22 (F := Ideal) x0 x1 x2 (ix4 b h t s)
      = Ideal.exp (scoreRow x0 x1 x2 b h t s - Cert.Spec.rowMax (scoreRow x0 x1 x2 b h t)) := by
  rw [val_main_v22_apply, val_main_v21_apply, v15_at, v20_at, Ideal.hostUnary_exp_def, Ideal.subf_def]

/-- The sum of a row's exponentials. -/
theorem v23_at (b : Fin 4) (h : Fin 16) (t : Fin 2048) :
    val_main_v23 (F := Ideal) x0 x1 x2 (ix3 b h t)
      = ∑ s' : Fin 2048, Ideal.exp (scoreRow x0 x1 x2 b h t s' - Cert.Spec.rowMax (scoreRow x0 x1 x2 b h t)) := by
  rw [val_main_v23_apply, val_main_cst_2_apply, Ideal.ofBits_def, Ideal.ofBits_zero_f32, zero_add]
  refine Finset.sum_congr rfl fun k _ => ?_
  rw [show idx_main_v23 (ix3 b h t) k = ix4 b h t k from by
    funext a; apply Fin.ext; match a with | ⟨0, _⟩ => rfl | ⟨1, _⟩ => rfl | ⟨2, _⟩ => rfl | ⟨3, _⟩ => rfl]
  exact v22_at x0 x1 x2 b h t k

/-- The attention weight of query time t on key time s. -/
theorem v26_at (b : Fin 4) (h : Fin 16) (t s : Fin 2048) :
    val_main_v26 (F := Ideal) x0 x1 x2 (ix4 b h t s) = Cert.Spec.weight (qry x0 x1 x2) (key x0 x1 x2) b h t s := by
  rw [val_main_v26_apply, val_main_v25_apply, val_main_v24_apply]
  rw [show idx_main_v24 (idx_main_v25 (ix4 b h t s)) = ix3 b h t from by
    funext a; apply Fin.ext; match a with | ⟨0, _⟩ => rfl | ⟨1, _⟩ => rfl | ⟨2, _⟩ => rfl]
  rw [v22_at, v23_at, Ideal.hostDivf_def]
  rfl

/-! ## Attended values, output projection, and the mean over heads -/

/-- The attended value at (b, h, t, d): the weights along the key axis times the values. -/
theorem v27_at (b : Fin 4) (h : Fin 16) (t : Fin 2048) (d : Fin 64) :
    val_main_v27 (F := Ideal) x0 x1 x2 (ix4 b h t d)
      = Cert.Spec.attend (qry x0 x1 x2) (key x0 x1 x2) (vlu x0 x1 x2) b h t d := by
  rw [val_main_v27_apply]
  have hl : ∀ k : Fin 2048, lidx_main_v27 (ix4 b h t d) k = ix4 b h t k := fun k => by
    funext a; apply Fin.ext; match a with | ⟨0, _⟩ => rfl | ⟨1, _⟩ => rfl | ⟨2, _⟩ => rfl | ⟨3, _⟩ => rfl
  have hr : ∀ k : Fin 2048, ridx_main_v27 (ix4 b h t d) k = ix4 b h k d := fun k => by
    funext a; apply Fin.ext; match a with | ⟨0, _⟩ => rfl | ⟨1, _⟩ => rfl | ⟨2, _⟩ => rfl | ⟨3, _⟩ => rfl
  simp only [hl, hr, v26_at, v14_at]
  rfl

/-- Laying the heads side by side: model feature e of (t, b) is head e / 64, position e % 64. -/
theorem sidebyside_idx (t : Fin 2048) (b : Fin 4) (e : Fin 1024) :
    idx_main_v28 (idx_main_v29 (ix3 t b e)) = ix4 b (Cert.Spec.headOf e) t (Cert.Spec.dimOf e) := by
  have ht := t.isLt; have hb := b.isLt; have he := e.isLt
  funext a; apply Fin.ext
  match a with
  | ⟨0, _⟩ => show ((t.val * 4 + b.val) * 1024 + e.val) / 1024 % 4 = b.val; omega
  | ⟨1, _⟩ => show ((t.val * 4 + b.val) * 1024 + e.val) / 64 % 16 = e.val / 64; omega
  | ⟨2, _⟩ => show ((t.val * 4 + b.val) * 1024 + e.val) / 4096 = t.val; omega
  | ⟨3, _⟩ => show ((t.val * 4 + b.val) * 1024 + e.val) % 64 = e.val % 64; omega

theorem v29_at (t : Fin 2048) (b : Fin 4) (e : Fin 1024) :
    val_main_v29 (F := Ideal) x0 x1 x2 (ix3 t b e)
      = Cert.Spec.attend (qry x0 x1 x2) (key x0 x1 x2) (vlu x0 x1 x2) b (Cert.Spec.headOf e) t (Cert.Spec.dimOf e) := by
  rw [val_main_v29_apply, val_main_v28_apply, sidebyside_idx, v27_at]

/-- The first result at (t, b, f). -/
theorem out_apply (t : Fin 2048) (b : Fin 4) (f : Fin 1024) :
    val_main_v33 (F := Ideal) x0 x1 x2 x3 x4 (ix3 t b f)
      = Cert.Spec.outSpec (fun t b e => x0 (ix3 t b e)) (fun f e => x1 (ix2 f e)) (fun f => x2 (ix1 f))
          (fun f e => x3 (ix2 f e)) (fun f => x4 (ix1 f)) t b f := by
  rw [val_main_v33_apply, val_main_v30_apply, val_main_v32_apply, val_main_v31_apply, Ideal.addf_def]
  have hl : ∀ k : Fin 1024, lidx_main_v30 (ix3 t b f) k = ix3 t b k := fun k => by
    funext a; apply Fin.ext; match a with | ⟨0, _⟩ => rfl | ⟨1, _⟩ => rfl | ⟨2, _⟩ => rfl
  have hr : ∀ k : Fin 1024, ridx_main_v30 (ix3 t b f) k = ix2 f k := fun k => by
    funext a; apply Fin.ext; match a with | ⟨0, _⟩ => rfl | ⟨1, _⟩ => rfl
  have hb : idx_main_v31 (idx_main_v32 (ix3 t b f)) = ix1 f := by
    funext a; apply Fin.ext; match a with | ⟨0, _⟩ => rfl
  simp only [hl, hr, hb, v29_at]
  rfl

/-- The second result at (b, t, s): the sum over the heads of the weights, divided by the word of 16. -/
theorem avg_apply (b : Fin 4) (t s : Fin 2048) :
    val_main_v36 (F := Ideal) x0 x1 x2 (ix3 b t s)
      = Cert.Spec.avgSpec (fun t b e => x0 (ix3 t b e)) (fun f e => x1 (ix2 f e)) (fun f => x2 (ix1 f)) b t s := by
  rw [val_main_v36_apply, val_main_v34_apply, val_main_v35_apply, val_main_cst_3_apply, val_main_cst_4_apply,
    Ideal.ofBits_def, Ideal.ofBits_def, Ideal.ofBits_zero_f32, zero_add, Ideal.hostDivf_def]
  have hi : ∀ k : Fin 16, idx_main_v34 (ix3 b t s) k = ix4 b k t s := fun k => by
    funext a; apply Fin.ext; match a with | ⟨0, _⟩ => rfl | ⟨1, _⟩ => rfl | ⟨2, _⟩ => rfl | ⟨3, _⟩ => rfl
  simp only [hi, v26_at]
  rfl

/-! ## The two results as whole arrays -/

/-- The first result, as a function of the index's coordinates. -/
theorem out_eq :
    val_main_v33 (F := Ideal) x0 x1 x2 x3 x4
      = fun i => Cert.Spec.outSpec (fun t b e => x0 (ix3 t b e)) (fun f e => x1 (ix2 f e)) (fun f => x2 (ix1 f))
          (fun f e => x3 (ix2 f e)) (fun f => x4 (ix1 f)) (i 0) (i 1) (i 2) :=
  funext fun i => (congrArg (val_main_v33 (F := Ideal) x0 x1 x2 x3 x4) (eq_ix3 i)).trans
    (out_apply x0 x1 x2 x3 x4 (i 0) (i 1) (i 2))

/-- The second result, as a function of the index's coordinates. -/
theorem avg_eq :
    val_main_v36 (F := Ideal) x0 x1 x2
      = fun i => Cert.Spec.avgSpec (fun t b e => x0 (ix3 t b e)) (fun f e => x1 (ix2 f e)) (fun f => x2 (ix1 f))
          (i 0) (i 1) (i 2) :=
  funext fun i => (congrArg (val_main_v36 (F := Ideal) x0 x1 x2) (eq_ix3 i)).trans
    (avg_apply x0 x1 x2 (i 0) (i 1) (i 2))

end Cert.RefValue

end
-- ==== Proof.LibFinite.lean ====
/-
  Finiteness read back from a printed "all entries finite" test, at the ideal float values
  (every float an extended real). The test of one array x is the conjunction over all indices of
  |x i| < +∞, where |x| is max x (-x) and +∞ is the value of the IEEE pattern 0x7F800000; it
  is printed as a reduction by "and" of the array of comparison bits, from the constant 1, into a
  result with a single index.

  Contents.
  * one element: |x| < +∞ (as a comparison bit equal to 1) makes x a real number;
  * one array: a reduction by "and" over all axes of those bits that is 1 makes every entry real;
  * the empty-rank shape has one index.
-/
import Idealize.ShloMosaic.Lib.ReduceAll
import Idealize.ShloMosaic.PureOps.Ideal

noncomputable section

namespace Cert.Finite

open Idealize.ShloMosaic

/-- An extended real that is neither infinity is a real number. -/
theorem exists_real_of_ne {x : EReal} (ht : x ≠ ⊤) (hb : x ≠ ⊥) : ∃ r : ℝ, x = (r : EReal) := by
  induction x using EReal.rec with
  | bot => exact absurd rfl hb
  | coe r => exact ⟨r, rfl⟩
  | top => exact absurd rfl ht

/-- The IEEE single-precision pattern 0x7F800000 denotes +∞. -/
theorem ofBits_inf : Ideal.ofBits .f32 0x7F800000#32 = (⊤ : EReal) := by
  simp [Ideal.ofBits, Ideal.ieee]

/-- For an extended real x, max x (-x) < ⊤ exactly when x is neither infinity. -/
theorem abs_lt_top_iff (x : EReal) : max x (-x) < ⊤ ↔ x ≠ ⊤ ∧ x ≠ ⊥ := by
  rw [max_lt_iff, lt_top_iff_ne_top, lt_top_iff_ne_top]
  constructor
  · rintro ⟨h1, h2⟩
    exact ⟨h1, fun hb => h2 (by rw [hb]; rfl)⟩
  · rintro ⟨h1, h2⟩
    exact ⟨h1, fun ht => h2 (by simpa using ht)⟩

/-- One element: if the comparison bit of |x| < +∞ is 1 then x is a real number. Here |x| is the
    host's absolute value max x (-x) and +∞ is given by its bit pattern. -/
theorem real_of_abs_lt_inf (x : Ideal .f32)
    (h : FloatOps.cmpf (F := Ideal) .olt (FloatOps.hostAbsf (F := Ideal) x)
        (FloatOps.ofBits (F := Ideal) .f32 0x7F800000#32) = 1#1) : ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  have hlt : max (x : EReal) (-(x : EReal)) < ⊤ := by
    by_contra hn
    simp [hn] at h'
  obtain ⟨ht, hb⟩ := (abs_lt_top_iff x).mp hlt
  exact exists_real_of_ne ht hb

/-- One array: if the reduction by "and" over all axes (into a result with one index) of the bits
    |x i| < inf i is 1, where every inf i is the pattern of +∞, then every entry of x is real. -/
theorem real_of_all {s t u : Shape} {axes : List (Fin s.rank)} [Subsingleton t.Idx]
    (x inf : FVec Ideal s .f32) (hinf : ∀ i, inf i = FloatOps.ofBits (F := Ideal) .f32 0x7F800000#32)
    (init : IVec u 1) (h : s.ReducesTo axes t) (hu : 0 < u.numel) (j : t.Idx)
    (e : Host.reduce IntOp.andi (cmpf (F := Ideal) .olt (Host.absf (F := Ideal) x) inf) init h hu j = 1#1)
    (i : s.Idx) : ∃ r : ℝ, (x i : EReal) = (r : EReal) := by
  have hi := Host.reduce_andi_all _ init h hu j e i
  refine real_of_abs_lt_inf (x i) ?_
  rw [← hinf i]
  exact hi

/-- The shape of rank zero has exactly one index. -/
instance subsingleton_idx_rank0 : Subsingleton (Shape.Idx ⟨0, ![]⟩) :=
  ⟨fun a b => funext fun d => d.elim0⟩

end Cert.Finite

end
-- ==== Proof.FiniteIn.lean ====
/-
  Finite inputs are real numbers.

  The precondition is the conjunction, over the five argument arrays, of "every entry has absolute value below +∞", each
  printed as a reduction by "and" of comparison bits and the five joined by "and". If the whole is 1 then each conjunct is
  1, and so every entry of the activations, of the input projection's weight and of its bias is a real number.
-/
import proofs.«126819_j68247030334372_2_alg».proof.Pre_finite_inputs
import Idealize.ShloMosaic.Lib.Affine
import Idealize.ShloMosaic.Lib.ValueIdx
import proofs.«126819_j68247030334372_2_alg».proof.Proof.LibFinite

noncomputable section

namespace Cert.FiniteIn

open Idealize.ShloMosaic Cert.Finite Cert.Pre_finite_inputs

variable [Cert.Pre_finite_inputs.Facts]

/-- If the finiteness test of the five arrays is 1 then the first three arrays hold real numbers. -/
theorem reals_of_test (a0 : FVec Ideal S2048x4x1024 .f32) (a1 : FVec Ideal S3072x1024 .f32) (a2 : FVec Ideal S3072 .f32)
    (a3 : FVec Ideal S1024x1024 .f32) (a4 : FVec Ideal S1024 .f32)
    (h : Cert.Pre_finite_inputs.fn (F := Ideal) a0 a1 a2 a3 a4 = fun _ => 1#1) :
    (∀ i, ∃ r : ℝ, (a0 i : EReal) = (r : EReal)) ∧ (∀ i, ∃ r : ℝ, (a1 i : EReal) = (r : EReal))
      ∧ (∀ i, ∃ r : ℝ, (a2 i : EReal) = (r : EReal)) := by
  have h0 := congrFun h ValueIdx.ix0
  dsimp only [Cert.Pre_finite_inputs.fn, Cert.Pre_finite_inputs.fn_part1] at h0
  obtain ⟨h1, -⟩ := IntOp.andi_eq_one.mp h0
  obtain ⟨h2, -⟩ := IntOp.andi_eq_one.mp h1
  obtain ⟨h3, e2⟩ := IntOp.andi_eq_one.mp h2
  obtain ⟨e0, e1⟩ := IntOp.andi_eq_one.mp h3
  exact ⟨fun i => real_of_all a0 _ (fun _ => rfl) _ _ _ ValueIdx.ix0 e0 i,
    fun i => real_of_all a1 _ (fun _ => rfl) _ _ _ ValueIdx.ix0 e1 i,
    fun i => real_of_all a2 _ (fun _ => rfl) _ _ _ ValueIdx.ix0 e2 i⟩

end Cert.FiniteIn

end
-- ==== Proof.lean ====
/-
  The certificate of a multi-head self-attention layer: a kernel program in three pallas regions (input projection,
  attention with the head-averaged weights, output projection) against the plain jnp layer.

  The three programs run without a fault and leave their arguments unchanged (the frames). The idealized kernel
  program is the kernel program's own text read on the extended reals (no rewrite was applied). And on the extended
  reals, from memories agreeing on the arguments and holding finite inputs, both idealized programs end with the same
  two results: the output projection of the attended values, and the mean over the 16 heads of the attention weights.

  The kernel side: its run names the results as the last contents of a fold through host operations and regions; each
  projection region's array is a matrix product plus bias of what it finds; the attention region's arrays are the
  attended values and the running sum over heads of the softmax weights times 1/16; the host operations between are
  re-layouts. The reference side: its run's terms read at an index. The two differ in where the query's factor 1/8 is
  applied (before or after the input projection: equal for real inputs, by distributivity) and in how the mean over
  heads is spelt (a running sum times 1/16, or a sum divided by 16: equal on all extended reals).
-/
import proofs.«126819_j68247030334372_2_alg».proof.Defs
import proofs.«126819_j68247030334372_2_alg».proof.Proof.Gen.Kernel
import proofs.«126819_j68247030334372_2_alg».proof.Proof.Gen.Kernel.Skeleton
import proofs.«126819_j68247030334372_2_alg».proof.Proof.Gen.Kernel.Launch
import proofs.«126819_j68247030334372_2_alg».proof.Proof.Gen.Kernel.Points
import proofs.«126819_j68247030334372_2_alg».proof.Proof.Gen.Kernel.Frame
import proofs.«126819_j68247030334372_2_alg».proof.Proof.Gen.KernelIdeal
import proofs.«126819_j68247030334372_2_alg».proof.Proof.Gen.KernelIdeal.Skeleton
import proofs.«126819_j68247030334372_2_alg».proof.Proof.Gen.KernelIdeal.Launch
import proofs.«126819_j68247030334372_2_alg».proof.Proof.Gen.KernelIdeal.Points
import proofs.«126819_j68247030334372_2_alg».proof.Proof.Gen.KernelIdeal.Frame
import proofs.«126819_j68247030334372_2_alg».proof.Proof.Gen.ReferenceIdeal
import proofs.«126819_j68247030334372_2_alg».proof.Proof.Gen.ReferenceIdeal.Run
import proofs.«126819_j68247030334372_2_alg».proof.Proof.Gen.ReferenceIdeal.Read
import proofs.«126819_j68247030334372_2_alg».proof.Proof.Gen.Pre_finite_inputs
import proofs.«126819_j68247030334372_2_alg».proof.Proof.KernelRun
import proofs.«126819_j68247030334372_2_alg».proof.Proof.KernelSpec
import proofs.«126819_j68247030334372_2_alg».proof.Proof.RefValue
import proofs.«126819_j68247030334372_2_alg».proof.Proof.FiniteIn
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs end with the layer's two results of the argument arrays. -/
theorem algebraic : Cert.algebraic_KernelIdeal_ReferenceIdeal := by
  intro m ρ m' ρ' hpre hagree
  refine ⟨fun c => Cert.KernelIdeal.Gen.W7 (F := Ideal) m ρ c (Proc.devRef .tc Cert.KernelIdeal.main_v28),
    fun c => Cert.KernelIdeal.Gen.W7 (F := Ideal) m ρ c (Proc.devRef .tc Cert.KernelIdeal.main_v21_1),
    Cert.KernelRun.run (F := Ideal) m ρ, ?_⟩
  refine (θ_run Cert.ReferenceIdeal.defs _ _).mono (fun r h c => ?_) (Cert.ReferenceIdeal.Value.run (F := Ideal) m' ρ')
  obtain ⟨h33, h36, hargs⟩ := h c
  obtain ⟨g0, g1, g2, g3, g4⟩ := hagree c
  obtain ⟨r0, r1, r2⟩ := Cert.FiniteIn.reals_of_test _ _ _ _ _ (hpre c)
  have hr : Cert.Algebra.RealIn (Cert.KernelValue.X m c) (Cert.KernelValue.Wg m c) (Cert.KernelValue.β m c) :=
    ⟨fun t b e => r0 (ix3 t b e), fun f e => r1 (ix2 f e), fun f => r2 (ix1 f)⟩
  refine ⟨h33.trans ?_, h36.trans ?_, hargs⟩
  · rw [Cert.ReferenceIdeal.Read.val_main_v33_eq, g0, g1, g2, g3, g4]
    funext i
    rw [eq_ix3 i]
    exact (Cert.RefValue.out_apply _ _ _ _ _ (i 0) (i 1) (i 2)).trans (Cert.KernelSpec.kernel_out m ρ c hr (i 0) (i 1) (i 2)).symm
  · rw [Cert.ReferenceIdeal.Read.val_main_v36_eq, g0, g1, g2]
    funext i
    rw [eq_ix3 i]
    exact (Cert.RefValue.avg_apply _ _ _ (i 0) (i 1) (i 2)).trans (Cert.KernelSpec.kernel_avg m ρ c hr (i 0) (i 1) (i 2)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
